-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part6 {F : FTy → Type} [FloatOps F] (main_arg21 : FVec F S1024 .f32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_v104 : FVec F S1024 .f32 := Host.absf main_arg21
  let main_cst_40 : FVec F S_ .f32 := constant S_ .f32 0x7F800000#32
  let main_v105 : FVec F S1024 .f32 := broadcastInDim S1024 ![] bcast_S_S1024 main_cst_40
  let main_v106 : IVec S1024 1 := cmpf .olt main_v104 main_v105
  let main_c_41 : IVec S_ 1 := constantI S_ 1 1#1
  let main_v107 : IVec S_ 1 := (fun x v => Host.reduce IntOp.andi x v reducesTo_S1024_S_d0 h_S_) main_v106 main_c_41
  let main_v108 : IVec S_ 1 := andi main_v103 main_v107
  main_v108

def fn_part5 {F : FTy → Type} [FloatOps F] (main_arg18 : FVec F S1024 .f32) (main_arg19 : FVec F S1024 .f32) (main_arg20 : FVec F S1024 .f32) (main_arg21 : FVec F S1024 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S1024 .f32 := Host.absf main_arg19
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  let main_v99 : FVec F S1024 .f32 := Host.absf main_arg20
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S3072 .f32) (main_arg15 : FVec F S3072 .f32) (main_arg16 : FVec F S1024 .f32) (main_arg17 : FVec F S1024 .f32) (main_arg18 : FVec F S1024 .f32) (main_arg19 : FVec F S1024 .f32) (main_arg20 : FVec F S1024 .f32) (main_arg21 : FVec F S1024 .f32) (main_v63 : IVec S_ 1) (main_v67 : IVec S_ 1) : IVec S_ 1 :=
  let main_v68 : IVec S_ 1 := andi main_v63 main_v67
  let main_v69 : FVec F S3072 .f32 := Host.absf main_arg14
  let main_cst_26 : FVec F S_ .f32 := constant S_ .f32 0x7F800000#32
  let main_v70 : FVec F S3072 .f32 := broadcastInDim S3072 ![] bcast_S_S3072 main_cst_26
  let main_v71 : IVec S3072 1 := cmpf .olt main_v69 main_v70
  let main_c_27 : IVec S_ 1 := constantI S_ 1 1#1
  let main_v72 : IVec S_ 1 := (fun x v => Host.reduce IntOp.andi x v reducesTo_S3072_S_d0 h_S_) main_v71 main_c_27
  let main_v73 : IVec S_ 1 := andi main_v68 main_v72
  let main_v74 : FVec F S3072 .f32 := Host.absf main_arg15
  let main_cst_28 : FVec F S_ .f32 := constant S_ .f32 0x7F800000#32
  let main_v75 : FVec F S3072 .f32 := broadcastInDim S3072 ![] bcast_S_S3072 main_cst_28
  let main_v76 : IVec S3072 1 := cmpf .olt main_v74 main_v75
  let main_c_29 : IVec S_ 1 := constantI S_ 1 1#1
  let main_v77 : IVec S_ 1 := (fun x v => Host.reduce IntOp.andi x v reducesTo_S3072_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S1024 .f32) (main_arg12 : FVec F S3072 .f32) (main_arg13 : FVec F S3072 .f32) (main_arg14 : FVec F S3072 .f32) (main_arg15 : FVec F S3072 .f32) (main_arg16 : FVec F S1024 .f32) (main_arg17 : FVec F S1024 .f32) (main_arg18 : FVec F S1024 .f32) (main_arg19 : FVec F S1024 .f32) (main_arg20 : FVec F S1024 .f32) (main_arg21 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S3072 .f32 := Host.absf main_arg12
  let main_cst_22 : FVec F S_ .f32 := constant S_ .f32 0x7F800000#32
  let main_v60 : FVec F S3072 .f32 := broadcastInDim S3072 ![] bcast_S_S3072 main_cst_22
  let main_v61 : IVec S3072 1 := cmpf .olt main_v59 main_v60
  let main_c_23 : IVec S_ 1 := constantI S_ 1 1#1
  let main_v62 : IVec S_ 1 := (fun x v => Host.reduce IntOp.andi x v reducesTo_S3072_S_d0 h_S_) main_v61 main_c_23
  let main_v63 : IVec S_ 1 := andi main_v58 main_v62
  let main_v64 : FVec F S3072 .f32 := Host.absf main_arg13
  let main_cst_24 : FVec F S_ .f32 := constant S_ .f32 0x7F800000#32
  let main_v65 : FVec F S3072 .f32 := broadcastInDim S3072 ![] bcast_S_S3072 main_cst_24
  let main_v66 : IVec S3072 1 := cmpf .olt main_v64 main_v65
  let main_c_25 : IVec S_ 1 := constantI S_ 1 1#1
  let main_v67 : IVec S_ 1 := (fun x v => Host.reduce IntOp.andi x v reducesTo_S3072_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_arg12 : FVec F S3072 .f32) (main_arg13 : FVec F S3072 .f32) (main_arg14 : FVec F S3072 .f32) (main_arg15 : FVec F S3072 .f32) (main_arg16 : FVec F S1024 .f32) (main_arg17 : FVec F S1024 .f32) (main_arg18 : FVec F S1024 .f32) (main_arg19 : FVec F S1024 .f32) (main_arg20 : FVec F S1024 .f32) (main_arg21 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S3072x1024 .f32) (main_arg5 : FVec F S3072 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S3072 .f32) (main_arg13 : FVec F S3072 .f32) (main_arg14 : FVec F S3072 .f32) (main_arg15 : FVec F S3072 .f32) (main_arg16 : FVec F S1024 .f32) (main_arg17 : FVec F S1024 .f32) (main_arg18 : FVec F S1024 .f32) (main_arg19 : FVec F S1024 .f32) (main_arg20 : FVec F S1024 .f32) (main_arg21 : FVec F S1024 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S3072x1024 .f32 := Host.absf main_arg4
  let main_cst_6 : FVec F S_ .f32 := constant S_ .f32 0x7F800000#32
  let main_v20 : FVec F S3072x1024 .f32 := broadcastInDim S3072x1024 ![] bcast_S_S3072x1024 main_cst_6
  let main_v21 : IVec S3072x1024 1 := cmpf .olt main_v19 main_v20
  let main_c_7 : IVec S_ 1 := constantI S_ 1 1#1
  let main_v22 : IVec S_ 1 := (fun x v => Host.reduce IntOp.andi x v reducesTo_S3072x1024_S_d0_1 h_S_) main_v21 main_c_7
  let main_v23 : IVec S_ 1 := andi main_v18 main_v22
  let main_v24 : FVec F S3072 .f32 := Host.absf main_arg5
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S16384x1024 .f32) (main_arg1 : FVec F S16384x1024 .f32) (main_arg2 : FVec F S3072x1024 .f32) (main_arg3 : FVec F S3072 .f32) (main_arg4 : FVec F S3072x1024 .f32) (main_arg5 : FVec F S3072 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S3072 .f32) (main_arg13 : FVec F S3072 .f32) (main_arg14 : FVec F S3072 .f32) (main_arg15 : FVec F S3072 .f32) (main_arg16 : FVec F S1024 .f32) (main_arg17 : FVec F S1024 .f32) (main_arg18 : FVec F S1024 .f32) (main_arg19 : FVec F S1024 .f32) (main_arg20 : FVec F S1024 .f32) (main_arg21 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S16384x1024 : Shape := ⟨2, ![16384, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x3072 : Shape := ⟨2, ![1024, 3072]⟩
abbrev S1024x5120 : Shape := ⟨2, ![1024, 5120]⟩
abbrev S1024x4096 : Shape := ⟨2, ![1024, 4096]⟩
abbrev S5120 : Shape := ⟨1, ![5120]⟩
abbrev S1x5120 : Shape := ⟨2, ![1, 5120]⟩
abbrev S4096 : Shape := ⟨1, ![4096]⟩
abbrev S1x4096 : Shape := ⟨2, ![1, 4096]⟩
abbrev S1x3072 : Shape := ⟨2, ![1, 3072]⟩
abbrev S1x1024 : Shape := ⟨2, ![1, 1024]⟩
abbrev S128x1024 : Shape := ⟨2, ![128, 1024]⟩
abbrev S128x5120 : Shape := ⟨2, ![128, 5120]⟩
abbrev S128x4096 : Shape := ⟨2, ![128, 4096]⟩
abbrev S128x3072 : Shape := ⟨2, ![128, 3072]⟩
abbrev S128 : Shape := ⟨1, ![128]⟩
abbrev S128x1 : Shape := ⟨2, ![128, 1]⟩

abbrev nBuf : Space → Nat
  | .hbm => 46
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S3072x1024, .f32⟩
  | .hbm, ⟨3, _⟩ => ⟨S3072, .f32⟩
  | .hbm, ⟨4, _⟩ => ⟨S3072x1024, .f32⟩
  | .hbm, ⟨5, _⟩ => ⟨S3072, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S3072, .f32⟩
  | .hbm, ⟨13, _⟩ => ⟨S3072, .f32⟩
  | .hbm, ⟨14, _⟩ => ⟨S3072, .f32⟩
  | .hbm, ⟨15, _⟩ => ⟨S3072, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024x3072, .f32⟩
  | .hbm, ⟨23, _⟩ => ⟨S1024x1024, .f32⟩
  | .hbm, ⟨24, _⟩ => ⟨S1024x1024, .f32⟩
  | .hbm, ⟨25, _⟩ => ⟨S1024x5120, .f32⟩
  | .hbm, ⟨26, _⟩ => ⟨S1024x5120, .bf16⟩
  | .hbm, ⟨27, _⟩ => ⟨S1024x3072, .f32⟩
  | .hbm, ⟨28, _⟩ => ⟨S1024x1024, .f32⟩
  | .hbm, ⟨29, _⟩ => ⟨S1024x4096, .f32⟩
  | .hbm, ⟨30, _⟩ => ⟨S1024x4096, .bf16⟩
  | .hbm, ⟨31, _⟩ => ⟨S5120, .f32⟩
  | .hbm, ⟨32, _⟩ => ⟨S1x5120, .f32⟩
  | .hbm, ⟨33, _⟩ => ⟨S4096, .f32⟩
  | .hbm, ⟨34, _⟩ => ⟨S1x4096, .f32⟩
  | .hbm, ⟨35, _⟩ => ⟨S1x3072, .f32⟩
  | .hbm, ⟨36, _⟩ => ⟨S1x3072, .f32⟩
  | .hbm, ⟨37, _⟩ => ⟨S1x3072, .f32⟩
  | .hbm, ⟨38, _⟩ => ⟨S1x3072, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1024x5120, .bf16⟩
  | .local _ .vmem, ⟨5, _⟩ => ⟨S1x5120, .f32⟩
  | .local _ .vmem, ⟨6, _⟩ => ⟨S1024x4096, .bf16⟩
  | .local _ .vmem, ⟨7, _⟩ => ⟨S1x4096, .f32⟩
  | .local _ .vmem, ⟨8, _⟩ => ⟨S1x3072, .f32⟩
  | .local _ .vmem, ⟨9, _⟩ => ⟨S1x3072, .f32⟩
  | .local _ .vmem, ⟨10, _⟩ => ⟨S1x3072, .f32⟩
  | .local _ .vmem, ⟨11, _⟩ => ⟨S1x3072, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S128x1024, .f32⟩
  | .local _ .vmem, ⟨19, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  transposes_S3072x1024_S1024x3072_1_0 : S3072x1024.Transposes [1, 0] S1024x3072
  transposes_S1024x1024_S1024x1024_1_0 : S1024x1024.Transposes [1, 0] S1024x1024
  concatenates_S1024x3072_S1024x1024_S1024x1024_S1024x5120_d1 : Shape.Concatenates [S1024x3072, S1024x1024, S1024x1024] S1024x5120 1
  bitsLt_bf16_f32 : FTy.bits .bf16 < FTy.bits .f32
  concatenates_S1024x3072_S1024x1024_S1024x4096_d1 : Shape.Concatenates [S1024x3072, S1024x1024] S1024x4096 1
  concatenates_S3072_S1024_S1024_S5120_d0 : Shape.Concatenates [S3072, S1024, S1024] S5120 0
  shapeCasts_S5120_S1x5120 : S5120.ShapeCasts S1x5120
  concatenates_S3072_S1024_S4096_d0 : Shape.Concatenates [S3072, S1024] S4096 0
  shapeCasts_S4096_S1x4096 : S4096.ShapeCasts S1x4096
  shapeCasts_S3072_S1x3072 : S3072.ShapeCasts S1x3072
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S1024x5120_S1024x5120_0_0 : ∀ a, (![0, 0] : Fin 2 → Nat) a + S1024x5120.size a ≤ S1024x5120.size a
  h_S1024x5120 : 0 < S1024x5120.numel
  shapeCasts_S1024x5120_S1024x5120 : S1024x5120.ShapeCasts S1024x5120
  inb_S1x5120_S1x5120_0_0 : ∀ a, (![0, 0] : Fin 2 → Nat) a + S1x5120.size a ≤ S1x5120.size a
  h_S1x5120 : 0 < S1x5120.numel
  shapeCasts_S1x5120_S1x5120 : S1x5120.ShapeCasts S1x5120
  broadcasts_S1x5120_S128x5120 : S1x5120.Broadcasts S128x5120
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x5120_o0_0_S128x3072 : S128x5120.Slices ![0, 0] S128x3072
  slices_S128x5120_o0_3072_S128x1024 : S128x5120.Slices ![0, 3072] S128x1024
  slices_S128x5120_o0_4096_S128x1024 : S128x5120.Slices ![0, 4096] S128x1024
  slices_S128x4096_o0_0_S128x3072 : S128x4096.Slices ![0, 0] S128x3072
  slices_S128x4096_o0_3072_S128x1024 : S128x4096.Slices ![0, 3072] S128x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  reduces_S128x3072_S128 : S128x3072.Reduces [1] S128
  shapeCasts_S128_S128x1 : S128.ShapeCasts S128x1
  broadcasts_S128x1_S128x3072 : S128x1.Broadcasts S128x3072
  broadcasts_S1x3072_S128x3072 : S1x3072.Broadcasts S128x3072
  slices_S128x3072_o0_0_S128x1024 : S128x3072.Slices ![0, 0] S128x1024
  slices_S128x3072_o0_1024_S128x1024 : S128x3072.Slices ![0, 1024] S128x1024
  slices_S128x3072_o0_2048_S128x1024 : S128x3072.Slices ![0, 2048] S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S128x1024_S128 : S128x1024.Reduces [1] S128
  broadcasts_S128x1_S128x1024 : S128x1.Broadcasts S128x1024
  broadcasts_S1x1024_S128x1024 : S1x1024.Broadcasts S128x1024
  dot_S128x1024_S1024x5120_S128x5120_1_0_0_1_n_n_wf : DotDims.WF S128x1024 S1024x5120 S128x5120 [1] [0] [0] [1] [] []
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x5120.size a ≤ S1024x5120.size a
  hwx0_2 : ∀ i : grid0.Coords, EltTy.bits .bf16 = 32 ∨ (Rect.block (s := S1024x5120) S1024x5120.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x5120.size a ≤ S1x5120.size a
  hwx0_3 : ∀ i : grid0.Coords, EltTy.bits .f32 = 32 ∨ (Rect.block (s := S1x5120) S1x5120.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3072.size a ≤ S1x3072.size a
  hwx0_6 : ∀ i : grid0.Coords, EltTy.bits .f32 = 32 ∨ (Rect.block (s := S1x3072) S1x3072.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x3072.size a ≤ S1x3072.size a
  hwx0_7 : ∀ i : grid0.Coords, EltTy.bits .f32 = 32 ∨ (Rect.block (s := S1x3072) S1x3072.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x3072.size a ≤ S1x3072.size a
  hwx0_8 : ∀ i : grid0.Coords, EltTy.bits .f32 = 32 ∨ (Rect.block (s := S1x3072) S1x3072.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x3072.size a ≤ S1x3072.size a
  hwx0_9 : ∀ i : grid0.Coords, EltTy.bits .f32 = 32 ∨ (Rect.block (s := S1x3072) S1x3072.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1024.size a ≤ S1x1024.size a
  hwx0_15 : ∀ i : grid0.Coords, EltTy.bits .f32 = 32 ∨ (Rect.block (s := S1x1024) S1x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x1024.size a ≤ S16384x1024.size a
  hwx0_16 : ∀ i : grid0.Coords, EltTy.bits .f32 = 32 ∨ (Rect.block (s := S16384x1024) S128x1024.size (cc0_transform_16 i) (hinb0_16 i)).WholeWords (EltTy.packing .f32)

variable [Facts₀]

def dot_S128x1024_S1024x5120_S128x5120_1_0_0_1_n_n : DotDims S128x1024 S1024x5120 S128x5120 where
  lhsContracting := [1]
  rhsContracting := [0]
  lhsNonContracting := [0]
  rhsNonContracting := [1]
  lhsBatch := []
  rhsBatch := []
  wf := dot_S128x1024_S1024x5120_S128x5120_1_0_0_1_n_n_wf
def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x5120.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x5120.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x3072.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x3072.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x3072.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S1x3072.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v19) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v20) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v21) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v22) S1x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v23) S128x1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x3072 : Shape := ⟨2, ![1024, 3072]⟩
abbrev S16384x3072 : Shape := ⟨2, ![16384, 3072]⟩
abbrev S1x3072 : Shape := ⟨2, ![1, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 223
  | .vmem => 0
  | .smem => 0
  | _ => 0

abbrev hbmTy0_0 (i : Nat) : BufTy := match i % 128 with
  | 0 => ⟨S16384x1024, .f32⟩
  | 1 => ⟨S16384x1024, .f32⟩
  | 2 => ⟨S3072x1024, .f32⟩
  | 3 => ⟨S3072, .f32⟩
  | 4 => ⟨S3072x1024, .f32⟩
  | 5 => ⟨S3072, .f32⟩
  | 6 => ⟨S1024x1024, .f32⟩
  | 7 => ⟨S1024, .f32⟩
  | 8 => ⟨S1024x1024, .f32⟩
  | 9 => ⟨S1024, .f32⟩
  | 10 => ⟨S1024x1024, .f32⟩
  | 11 => ⟨S1024, .f32⟩
  | 12 => ⟨S3072, .f32⟩
  | 13 => ⟨S3072, .f32⟩
  | 14 => ⟨S3072, .f32⟩
  | 15 => ⟨S3072, .f32⟩
  | 16 => ⟨S1024, .f32⟩
  | 17 => ⟨S1024, .f32⟩
  | 18 => ⟨S1024, .f32⟩
  | 19 => ⟨S1024, .f32⟩
  | 20 => ⟨S1024, .f32⟩
  | 21 => ⟨S1024, .f32⟩
  | 22 => ⟨S1024x3072, .f32⟩
  | 23 => ⟨S16384x3072, .f32⟩
  | 24 => ⟨S1x3072, .f32⟩
  | 25 => ⟨S16384x3072, .f32⟩
  | 26 => ⟨S16384x3072, .f32⟩
  | 27 => ⟨S_, .f32⟩
  | 28 => ⟨S16384, .f32⟩
  | 29 => ⟨S16384x1, .f32⟩
  | 30 => ⟨S_, .f32⟩
  | 31 => ⟨S16384x1, .f32⟩
  | 32 => ⟨S16384x1, .f32⟩
  | 33 => ⟨S16384x3072, .f32⟩
  | 34 => ⟨S16384x3072, .f32⟩
  | 35 => ⟨S16384x3072, .f32⟩
  | 36 => ⟨S_, .f32⟩
  | 37 => ⟨S16384, .f32⟩
  | 38 => ⟨S16384x1, .f32⟩
  | 39 => ⟨S_, .f32⟩
  | 40 => ⟨S16384x1, .f32⟩
  | 41 => ⟨S16384x1, .f32⟩
  | 42 => ⟨S16384x3072, .f32⟩
  | 43 => ⟨S16384x3072, .f32⟩
  | 44 => ⟨S_, .f32⟩
  | 45 => ⟨S16384x1, .f32⟩
  | 46 => ⟨S16384x1, .f32⟩
  | 47 => ⟨S16384x1, .f32⟩
  | 48 => ⟨S16384x3072, .f32⟩
  | 49 => ⟨S16384x3072, .f32⟩
  | 50 => ⟨S1x3072, .f32⟩
  | 51 => ⟨S16384x3072, .f32⟩
  | 52 => ⟨S16384x3072, .f32⟩
  | 53 => ⟨S1x3072, .f32⟩
  | 54 => ⟨S16384x3072, .f32⟩
  | 55 => ⟨S16384x3072, .f32⟩
  | 56 => ⟨S1024x3072, .f32⟩
  | 57 => ⟨S16384x3072, .f32⟩
  | 58 => ⟨S1x3072, .f32⟩
  | 59 => ⟨S16384x3072, .f32⟩
  | 60 => ⟨S16384x3072, .f32⟩
  | 61 => ⟨S_, .f32⟩
  | 62 => ⟨S16384, .f32⟩
  | 63 => ⟨S16384x1, .f32⟩
  | 64 => ⟨S_, .f32⟩
  | 65 => ⟨S16384x1, .f32⟩
  | 66 => ⟨S16384x1, .f32⟩
  | 67 => ⟨S16384x3072, .f32⟩
  | 68 => ⟨S16384x3072, .f32⟩
  | 69 => ⟨S16384x3072, .f32⟩
  | 70 => ⟨S_, .f32⟩
  | 71 => ⟨S16384, .f32⟩
  | 72 => ⟨S16384x1, .f32⟩
  | 73 => ⟨S_, .f32⟩
  | 74 => ⟨S16384x1, .f32⟩
  | 75 => ⟨S16384x1, .f32⟩
  | 76 => ⟨S16384x3072, .f32⟩
  | 77 => ⟨S16384x3072, .f32⟩
  | 78 => ⟨S_, .f32⟩
  | 79 => ⟨S16384x1, .f32⟩
  | 80 => ⟨S16384x1, .f32⟩
  | 81 => ⟨S16384x1, .f32⟩
  | 82 => ⟨S16384x3072, .f32⟩
  | 83 => ⟨S16384x3072, .f32⟩
  | 84 => ⟨S1x3072, .f32⟩
  | 85 => ⟨S16384x3072, .f32⟩
  | 86 => ⟨S16384x3072, .f32⟩
  | 87 => ⟨S1x3072, .f32⟩
  | 88 => ⟨S16384x3072, .f32⟩
  | 89 => ⟨S16384x3072, .f32⟩
  | 90 => ⟨S16384x3072, .f32⟩
  | 91 => ⟨S16384x3072, .f32⟩
  | 92 => ⟨S16384x3072, .f32⟩
  | 93 => ⟨S_, .f32⟩
  | 94 => ⟨S16384x3072, .f32⟩
  | 95 => ⟨S16384x3072, .f32⟩
  | 96 => ⟨S_, .f32⟩
  | 97 => ⟨S16384x3072, .f32⟩
  | 98 => ⟨S16384x3072, .f32⟩
  | 99 => ⟨S16384x1024, .f32⟩
  | 100 => ⟨S16384x1024, .f32⟩
  | 101 => ⟨S16384x1024, .f32⟩
  | 102 => ⟨S1024x1024, .f32⟩
  | 103 => ⟨S16384x1024, .f32⟩
  | 104 => ⟨S1x1024, .f32⟩
  | 105 => ⟨S16384x1024, .f32⟩
  | 106 => ⟨S16384x1024, .f32⟩
  | 107 => ⟨S_, .f32⟩
  | 108 => ⟨S16384, .f32⟩
  | 109 => ⟨S16384x1, .f32⟩
  | 110 => ⟨S_, .f32⟩
  | 111 => ⟨S16384x1, .f32⟩
  | 112 => ⟨S16384x1, .f32⟩
  | 113 => ⟨S16384x1024, .f32⟩
  | 114 => ⟨S16384x1024, .f32⟩
  | 115 => ⟨S16384x1024, .f32⟩
  | 116 => ⟨S_, .f32⟩
  | 117 => ⟨S16384, .f32⟩
  | 118 => ⟨S16384x1, .f32⟩
  | 119 => ⟨S_, .f32⟩
  | 120 => ⟨S16384x1, .f32⟩
  | 121 => ⟨S16384x1, .f32⟩
  | 122 => ⟨S16384x1024, .f32⟩
  | 123 => ⟨S16384x1024, .f32⟩
  | 124 => ⟨S_, .f32⟩
  | 125 => ⟨S16384x1, .f32⟩
  | 126 => ⟨S16384x1, .f32⟩
  | 127 => ⟨S16384x1, .f32⟩
  | _ => ⟨S16384x1024, .f32⟩

abbrev hbmTy0_1 (i : Nat) : BufTy := match i % 128 with
  | 0 => ⟨S16384x1024, .f32⟩
  | 1 => ⟨S16384x1024, .f32⟩
  | 2 => ⟨S1x1024, .f32⟩
  | 3 => ⟨S16384x1024, .f32⟩
  | 4 => ⟨S16384x1024, .f32⟩
  | 5 => ⟨S1x1024, .f32⟩
  | 6 => ⟨S16384x1024, .f32⟩
  | 7 => ⟨S16384x1024, .f32⟩
  | 8 => ⟨S1024x1024, .f32⟩
  | 9 => ⟨S16384x1024, .f32⟩
  | 10 => ⟨S1x1024, .f32⟩
  | 11 => ⟨S16384x1024, .f32⟩
  | 12 => ⟨S16384x1024, .f32⟩
  | 13 => ⟨S_, .f32⟩
  | 14 => ⟨S16384, .f32⟩
  | 15 => ⟨S16384x1, .f32⟩
  | 16 => ⟨S_, .f32⟩
  | 17 => ⟨S16384x1, .f32⟩
  | 18 => ⟨S16384x1, .f32⟩
  | 19 => ⟨S16384x1024, .f32⟩
  | 20 => ⟨S16384x1024, .f32⟩
  | 21 => ⟨S16384x1024, .f32⟩
  | 22 => ⟨S_, .f32⟩
  | 23 => ⟨S16384, .f32⟩
  | 24 => ⟨S16384x1, .f32⟩
  | 25 => ⟨S_, .f32⟩
  | 26 => ⟨S16384x1, .f32⟩
  | 27 => ⟨S16384x1, .f32⟩
  | 28 => ⟨S16384x1024, .f32⟩
  | 29 => ⟨S16384x1024, .f32⟩
  | 30 => ⟨S_, .f32⟩
  | 31 => ⟨S16384x1, .f32⟩
  | 32 => ⟨S16384x1, .f32⟩
  | 33 => ⟨S16384x1, .f32⟩
  | 34 => ⟨S16384x1024, .f32⟩
  | 35 => ⟨S16384x1024, .f32⟩
  | 36 => ⟨S1x1024, .f32⟩
  | 37 => ⟨S16384x1024, .f32⟩
  | 38 => ⟨S16384x1024, .f32⟩
  | 39 => ⟨S1x1024, .f32⟩
  | 40 => ⟨S16384x1024, .f32⟩
  | 41 => ⟨S16384x1024, .f32⟩
  | 42 => ⟨S1024x1024, .f32⟩
  | 43 => ⟨S16384x1024, .f32⟩
  | 44 => ⟨S1x1024, .f32⟩
  | 45 => ⟨S16384x1024, .f32⟩
  | 46 => ⟨S16384x1024, .f32⟩
  | 47 => ⟨S_, .f32⟩
  | 48 => ⟨S16384, .f32⟩
  | 49 => ⟨S16384x1, .f32⟩
  | 50 => ⟨S_, .f32⟩
  | 51 => ⟨S16384x1, .f32⟩
  | 52 => ⟨S16384x1, .f32⟩
  | 53 => ⟨S16384x1024, .f32⟩
  | 54 => ⟨S16384x1024, .f32⟩
  | 55 => ⟨S16384x1024, .f32⟩
  | 56 => ⟨S_, .f32⟩
  | 57 => ⟨S16384, .f32⟩
  | 58 => ⟨S16384x1, .f32⟩
  | 59 => ⟨S_, .f32⟩
  | 60 => ⟨S16384x1, .f32⟩
  | 61 => ⟨S16384x1, .f32⟩
  | 62 => ⟨S16384x1024, .f32⟩
  | 63 => ⟨S16384x1024, .f32⟩
  | 64 => ⟨S_, .f32⟩
  | 65 => ⟨S16384x1, .f32⟩
  | 66 => ⟨S16384x1, .f32⟩
  | 67 => ⟨S16384x1, .f32⟩
  | 68 => ⟨S16384x1024, .f32⟩
  | 69 => ⟨S16384x1024, .f32⟩
  | 70 => ⟨S1x1024, .f32⟩
  | 71 => ⟨S16384x1024, .f32⟩
  | 72 => ⟨S16384x1024, .f32⟩
  | 73 => ⟨S1x1024, .f32⟩
  | 74 => ⟨S16384x1024, .f32⟩
  | 75 => ⟨S16384x1024, .f32⟩
  | 76 => ⟨S_, .f32⟩
  | 77 => ⟨S16384x1024, .f32⟩
  | 78 => ⟨S16384x1024, .f32⟩
  | 79 => ⟨S16384x1024, .f32⟩
  | 80 => ⟨S16384x1024, .f32⟩
  | 81 => ⟨S16384x1024, .f32⟩
  | 82 => ⟨S16384x1024, .f32⟩
  | 83 => ⟨S_, .f32⟩
  | 84 => ⟨S16384x1024, .f32⟩
  | 85 => ⟨S16384x1024, .f32⟩
  | 86 => ⟨S16384x1024, .f32⟩
  | 87 => ⟨S16384x1024, .f32⟩
  | 88 => ⟨S16384x1024, .f32⟩
  | 89 => ⟨S_, .f32⟩
  | 90 => ⟨S16384x1024, .f32⟩
  | 91 => ⟨S16384x1024, .f32⟩
  | 92 => ⟨S16384x1024, .f32⟩
  | 93 => ⟨S16384x1024, .f32⟩
  | 94 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst : Ref sig .tc := ⟨.hbm, 27, rfl⟩
abbrev main_v5 : Ref sig .tc := ⟨.hbm, 28, rfl⟩
abbrev main_v6 : Ref sig .tc := ⟨.hbm, 29, rfl⟩
abbrev main_cst_0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_1 : Ref sig .tc := ⟨.hbm, 36, rfl⟩
abbrev main_v12 : Ref sig .tc := ⟨.hbm, 37, rfl⟩
abbrev main_v13 : Ref sig .tc := ⟨.hbm, 38, rfl⟩
abbrev main_cst_2 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_4 : Ref sig .tc := ⟨.hbm, 61, rfl⟩
abbrev main_v34 : Ref sig .tc := ⟨.hbm, 62, rfl⟩
abbrev main_v35 : Ref sig .tc := ⟨.hbm, 63, rfl⟩
abbrev main_cst_5 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_6 : Ref sig .tc := ⟨.hbm, 70, rfl⟩
abbrev main_v41 : Ref sig .tc := ⟨.hbm, 71, rfl⟩
abbrev main_v42 : Ref sig .tc := ⟨.hbm, 72, rfl⟩
abbrev main_cst_7 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_8 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_9 : Ref sig .tc := ⟨.hbm, 93, rfl⟩
abbrev main_v61 : Ref sig .tc := ⟨.hbm, 94, rfl⟩
abbrev main_v62 : Ref sig .tc := ⟨.hbm, 95, rfl⟩
abbrev main_cst_10 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_11 : Ref sig .tc := ⟨.hbm, 107, rfl⟩
abbrev main_v73 : Ref sig .tc := ⟨.hbm, 108, rfl⟩
abbrev main_v74 : Ref sig .tc := ⟨.hbm, 109, rfl⟩
abbrev main_cst_12 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_13 : Ref sig .tc := ⟨.hbm, 116, rfl⟩
abbrev main_v80 : Ref sig .tc := ⟨.hbm, 117, rfl⟩
abbrev main_v81 : Ref sig .tc := ⟨.hbm, 118, rfl⟩
abbrev main_cst_14 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_15 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_16 : Ref sig .tc := ⟨.hbm, 141, rfl⟩
abbrev main_v102 : Ref sig .tc := ⟨.hbm, 142, rfl⟩
abbrev main_v103 : Ref sig .tc := ⟨.hbm, 143, rfl⟩
abbrev main_cst_17 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_18 : Ref sig .tc := ⟨.hbm, 150, rfl⟩
abbrev main_v109 : Ref sig .tc := ⟨.hbm, 151, rfl⟩
abbrev main_v110 : Ref sig .tc := ⟨.hbm, 152, rfl⟩
abbrev main_cst_19 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_20 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_21 : Ref sig .tc := ⟨.hbm, 175, rfl⟩
abbrev main_v131 : Ref sig .tc := ⟨.hbm, 176, rfl⟩
abbrev main_v132 : Ref sig .tc := ⟨.hbm, 177, rfl⟩
abbrev main_cst_22 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_23 : Ref sig .tc := ⟨.hbm, 184, rfl⟩
abbrev main_v138 : Ref sig .tc := ⟨.hbm, 185, rfl⟩
abbrev main_v139 : Ref sig .tc := ⟨.hbm, 186, rfl⟩
abbrev main_cst_24 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_25 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_cst_26 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_27 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_cst_28 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩

abbrev nD : Nat := 1
abbrev τ : Topo := Topo.v7x

variable {F : FTy → Type} [FloatOps F]

class Facts₀ : Prop where
  transposes_S3072x1024_S1024x3072_1_0 : S3072x1024.Transposes [1, 0] S1024x3072
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  reducesTo_S16384x3072_S16384_d1 : S16384x3072.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x3072_0_1 : S16384x1.BroadcastsInDim S16384x3072 (![0, 1] : Fin 2 → Fin S16384x3072.rank)
  bcast_S_S16384x3072 : S_.BroadcastsInDim S16384x3072 (![] : Fin 0 → Fin S16384x3072.rank)
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S16384_d1 : S16384x1024.ReducesTo [1] S16384
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  dot_S16384x1024_S1024x3072_S16384x3072_1_0_0_1_n_n_wf : DotDims.WF S16384x1024 S1024x3072 S16384x3072 [1] [0] [0] [1] [] []
  dot_S16384x1024_S1024x1024_S16384x1024_1_0_0_1_n_n_wf : DotDims.WF S16384x1024 S1024x1024 S16384x1024 [1] [0] [0] [1] [] []

variable [Facts₀]

def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.BodyK.lean ====
/-
  What the body stores into the result block, as one function of the sixteen input blocks: the activations' rows
  x0 (input) and x1 (hidden state), the two fused weight matrices x2, x4 with their biases x3, x5, and the five pairs
  of normalisation parameters x6 … x15. The generated payload names are composed here exactly as the body composes them.
-/
import proofs.«124813_j51427938402962_2_alg».proof.Proof.Gen.Kernel.Skeleton

noncomputable section

namespace Cert.Kernel.HFrame

open Cert.Kernel Cert.Kernel.Gen
open Idealize.ShloMosaic Idealize.SL.Sem

variable {F : FTy → Type} [FloatOps F]

/-- Every load and the one store of the body go through the whole buffer. -/
abbrev r_S128x1024 : Rect S128x1024 := Rect.unit (s := S128x1024) ![0, 0] S128x1024.size inb_S128x1024_S128x1024_0_0
abbrev r_S1024x5120 : Rect S1024x5120 := Rect.unit (s := S1024x5120) ![0, 0] S1024x5120.size inb_S1024x5120_S1024x5120_0_0
abbrev r_S1x5120 : Rect S1x5120 := Rect.unit (s := S1x5120) ![0, 0] S1x5120.size inb_S1x5120_S1x5120_0_0
abbrev r_S1024x4096 : Rect S1024x4096 := Rect.unit (s := S1024x4096) ![0, 0] S1024x4096.size inb_S1024x4096_S1024x4096_0_0
abbrev r_S1x4096 : Rect S1x4096 := Rect.unit (s := S1x4096) ![0, 0] S1x4096.size inb_S1x4096_S1x4096_0_0
abbrev r_S1x3072 : Rect S1x3072 := Rect.unit (s := S1x3072) ![0, 0] S1x3072.size inb_S1x3072_S1x3072_0_0
abbrev r_S1x1024 : Rect S1x1024 := Rect.unit (s := S1x1024) ![0, 0] S1x1024.size inb_S1x1024_S1x1024_0_0
abbrev rAct : Rect S128x1024 := r_S128x1024

/-- The stored value, from the sixteen loaded blocks. -/
def body (x0 : Vec F S128x1024 .f32) (x1 : Vec F S128x1024 .f32) (x2 : Vec F S1024x5120 .bf16) (x3 : Vec F S1x5120 .f32) (x4 : Vec F S1024x4096 .bf16) (x5 : Vec F S1x4096 .f32) (x6 : Vec F S1x3072 .f32) (x7 : Vec F S1x3072 .f32) (x8 : Vec F S1x3072 .f32) (x9 : Vec F S1x3072 .f32) (x10 : Vec F S1x1024 .f32) (x11 : Vec F S1x1024 .f32) (x12 : Vec F S1x1024 .f32) (x13 : Vec F S1x1024 .f32) (x14 : Vec F S1x1024 .f32) (x15 : Vec F S1x1024 .f32) : FVec F S128x1024 .f32 :=
  let v18 := k0_pay3 x0 x2 x3
  let v19 := k0_pay4 x0 x2 x3
  let v20 := k0_pay5 x0 x2 x3
  let v21 := k0_pay6 x1 x4 x5
  let v22 := k0_pay7 x1 x4 x5
  let v24 := k0_pay8 x6
  let v26 := k0_pay9 x7
  let v30 := k0_pay10 x0 x2 x3
  let v35 := k0_pay11 x0 x2 x3
  let v36 := k0_pay12 x0 x2 x3
  let v77 := k0_pay14 v18 v21 v24 v26 v30 v35 v36 x8 x9
  let v78 := k0_pay15 v18 v21 v24 v26 v30 v35 v36 x8 x9
  let v79 := k0_pay16 v18 v21 v24 v26 v30 v35 v36 x8 x9
  let v81 := k0_pay17 x10
  let v105 := k0_pay18 v19 v81 x11
  let v109 := k0_pay19 x13
  let v127 := k0_pay20 v20
  let v128 := k0_pay21 x12
  k0_pay22 x1 v22 v77 v78 v79 v105 v109 v127 v128 x14 x15

end Cert.Kernel.HFrame

end
-- ==== Proof.FrameK.lean ====
/-
  The frame of the program: it runs to the end, faults nowhere, and leaves its argument arrays as launched.

  The program is twenty-three host operations (transposes, concatenations, format changes and reshapes that
  lay the weights, biases and normalisation parameters out as the kernel wants them), then one region on a
  grid of 128 points. At point t the region hands the body rows 128·t … 128·t + 127 of the two activations, the
  whole of each of the fourteen parameter arrays, and a buffer for rows 128·t … of the result. The body loads
  every input whole, computes, and stores the whole result block; so after the body each input buffer holds
  what it held and the result buffer holds `body` of the sixteen input blocks. With that, the library's
  launch theorem gives the run, and the run's post gives the frame.
-/
import proofs.«124813_j51427938402962_2_alg».proof.Proof.Gen.Kernel.Launch
import proofs.«124813_j51427938402962_2_alg».proof.Proof.Gen.Kernel.Skeleton
import proofs.«124813_j51427938402962_2_alg».proof.Proof.Gen.Kernel.Points
import proofs.«124813_j51427938402962_2_alg».proof.Proof.BodyK
import Idealize.ShloMosaic.Lib.Pipeline.FrameBody
import Idealize.ShloMosaic.Lib.Ring
import Idealize.ShloMosaic.Lib.Tactic

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the launch contents after the host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 20: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 21: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current buffer holds its block at every point, whether the point fetched it or an earlier one did
    (the parameter arrays are fetched once: their block index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- A run ending with every staged array at what the proof data says and every other buffer as the region found it
    ends with the argument arrays as launched: the two activations are staged inputs, the other twenty arguments are
    read by host operations only. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c)⟩) h

/-! ## The body -/

/-- The result buffer after the body: its one store, which is of the whole buffer. -/
def out0_16 (x0 : Vec F S128x1024 .f32) (x1 : Vec F S128x1024 .f32) (x2 : Vec F S1024x5120 .bf16) (x3 : Vec F S1x5120 .f32) (x4 : Vec F S1024x4096 .bf16) (x5 : Vec F S1x4096 .f32) (x6 : Vec F S1x3072 .f32) (x7 : Vec F S1x3072 .f32) (x8 : Vec F S1x3072 .f32) (x9 : Vec F S1x3072 .f32) (x10 : Vec F S1x1024 .f32) (x11 : Vec F S1x1024 .f32) (x12 : Vec F S1x1024 .f32) (x13 : Vec F S1x1024 .f32) (x14 : Vec F S1x1024 .f32) (x15 : Vec F S1x1024 .f32) : Vec F S128x1024 .f32 :=
  View.canon [⟨rAct, body (View.ld x0 r_S128x1024) (View.ld x1 r_S128x1024) (View.ld x2 r_S1024x5120) (View.ld x3 r_S1x5120) (View.ld x4 r_S1024x4096) (View.ld x5 r_S1x4096) (View.ld x6 r_S1x3072) (View.ld x7 r_S1x3072) (View.ld x8 r_S1x3072) (View.ld x9 r_S1x3072) (View.ld x10 r_S1x1024) (View.ld x11 r_S1x1024) (View.ld x12 r_S1x1024) (View.ld x13 r_S1x1024) (View.ld x14 r_S1x1024) (View.ld x15 r_S1x1024)⟩]

theorem cover0_16 (p0 : Vec F S128x1024 .f32) (y : S128x1024.Idx) :
    ∃ pc ∈ ([⟨rAct, p0⟩] : List (View.Piece (Elt F) S128x1024 .f32)), y ∈ pc.1.set :=
  View.cover_of_tiled [⟨rAct, p0⟩] S128x1024.size (by rfl) y

set_option maxHeartbeats 4000000 in
/-- The body on whole buffers, the inputs at contents `xW` and the result buffer at anything, runs to its end with the inputs
    as they were and the result buffer at `out0_16`. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S1024x5120 .bf16) (harg3 : arg3.IsWhole) (arg4 : Memref sig .tc .vmem S1x5120 .f32) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S1x3072 .f32) (harg7 : arg7.IsWhole) (arg8 : Memref sig .tc .vmem S1x3072 .f32) (harg8 : arg8.IsWhole) (arg9 : Memref sig .tc .vmem S1x3072 .f32) (harg9 : arg9.IsWhole) (arg10 : Memref sig .tc .vmem S1x3072 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole)
    (x0 : Vec F S128x1024 .f32) (x1 : Vec F S128x1024 .f32) (x2 : Vec F S1024x5120 .bf16) (x3 : Vec F S1x5120 .f32) (x4 : Vec F S1024x4096 .bf16) (x5 : Vec F S1x4096 .f32) (x6 : Vec F S1x3072 .f32) (x7 : Vec F S1x3072 .f32) (x8 : Vec F S1x3072 .f32) (x9 : Vec F S1x3072 .f32) (x10 : Vec F S1x1024 .f32) (x11 : Vec F S1x1024 .f32) (x12 : Vec F S1x1024 .f32) (x13 : Vec F S1x1024 .f32) (x14 : Vec F S1x1024 .f32) (x15 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out0_16 x0 x1 x2 x3 x4 x5 x6 x7 x8 x9 x10 x11 x12 x13 x14 x15)) -∗ K ⟨⟩))
      ⊢ wp frame (wpE (defs₀ (F := F)) Variants.none c none) E (cc0__lau_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__lau_kernel_eq_skeleton]; unfold cc0__lau_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  exact View.read_writes_eq_canon _ _ _ (cover0_16 _)

/-! ## The proof data -/

/-- The arrays as the region finds them; after the body at point `t` each input buffer at its block and the result buffer at
    `out0_16` of the input blocks; nothing else kept, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 17, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates, every staged array at what the proof data computes and every other unscoped
    buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

end Cert.Kernel.HFrame

end
-- ==== Proof.BodyKI.lean ====
/-
  What the body stores into the result block, as one function of the sixteen input blocks: the activations' rows
  x0 (input) and x1 (hidden state), the two fused weight matrices x2, x4 with their biases x3, x5, and the five pairs
  of normalisation parameters x6 … x15. The generated payload names are composed here exactly as the body composes them.
-/
import proofs.«124813_j51427938402962_2_alg».proof.Proof.Gen.KernelIdeal.Skeleton

noncomputable section

namespace Cert.KernelIdeal.HFrame

open Cert.KernelIdeal Cert.KernelIdeal.Gen
open Idealize.ShloMosaic Idealize.SL.Sem

variable {F : FTy → Type} [FloatOps F]

/-- Every load and the one store of the body go through the whole buffer. -/
abbrev r_S128x1024 : Rect S128x1024 := Rect.unit (s := S128x1024) ![0, 0] S128x1024.size inb_S128x1024_S128x1024_0_0
abbrev r_S1024x5120 : Rect S1024x5120 := Rect.unit (s := S1024x5120) ![0, 0] S1024x5120.size inb_S1024x5120_S1024x5120_0_0
abbrev r_S1x5120 : Rect S1x5120 := Rect.unit (s := S1x5120) ![0, 0] S1x5120.size inb_S1x5120_S1x5120_0_0
abbrev r_S1024x4096 : Rect S1024x4096 := Rect.unit (s := S1024x4096) ![0, 0] S1024x4096.size inb_S1024x4096_S1024x4096_0_0
abbrev r_S1x4096 : Rect S1x4096 := Rect.unit (s := S1x4096) ![0, 0] S1x4096.size inb_S1x4096_S1x4096_0_0
abbrev r_S1x3072 : Rect S1x3072 := Rect.unit (s := S1x3072) ![0, 0] S1x3072.size inb_S1x3072_S1x3072_0_0
abbrev r_S1x1024 : Rect S1x1024 := Rect.unit (s := S1x1024) ![0, 0] S1x1024.size inb_S1x1024_S1x1024_0_0
abbrev rAct : Rect S128x1024 := r_S128x1024

/-- The stored value, from the sixteen loaded blocks. -/
def body (x0 : Vec F S128x1024 .f32) (x1 : Vec F S128x1024 .f32) (x2 : Vec F S1024x5120 .bf16) (x3 : Vec F S1x5120 .f32) (x4 : Vec F S1024x4096 .bf16) (x5 : Vec F S1x4096 .f32) (x6 : Vec F S1x3072 .f32) (x7 : Vec F S1x3072 .f32) (x8 : Vec F S1x3072 .f32) (x9 : Vec F S1x3072 .f32) (x10 : Vec F S1x1024 .f32) (x11 : Vec F S1x1024 .f32) (x12 : Vec F S1x1024 .f32) (x13 : Vec F S1x1024 .f32) (x14 : Vec F S1x1024 .f32) (x15 : Vec F S1x1024 .f32) : FVec F S128x1024 .f32 :=
  let v18 := k0_pay3 x0 x2 x3
  let v19 := k0_pay4 x0 x2 x3
  let v20 := k0_pay5 x0 x2 x3
  let v21 := k0_pay6 x1 x4 x5
  let v22 := k0_pay7 x1 x4 x5
  let v24 := k0_pay8 x6
  let v26 := k0_pay9 x7
  let v30 := k0_pay10 x0 x2 x3
  let v35 := k0_pay11 x0 x2 x3
  let v36 := k0_pay12 x0 x2 x3
  let v77 := k0_pay14 v18 v21 v24 v26 v30 v35 v36 x8 x9
  let v78 := k0_pay15 v18 v21 v24 v26 v30 v35 v36 x8 x9
  let v79 := k0_pay16 v18 v21 v24 v26 v30 v35 v36 x8 x9
  let v81 := k0_pay17 x10
  let v105 := k0_pay18 v19 v81 x11
  let v109 := k0_pay19 x13
  let v127 := k0_pay20 v20
  let v128 := k0_pay21 x12
  k0_pay22 x1 v22 v77 v78 v79 v105 v109 v127 v128 x14 x15

end Cert.KernelIdeal.HFrame

end
-- ==== Proof.FrameKI.lean ====
/-
  The frame of the program: it runs to the end, faults nowhere, and leaves its argument arrays as launched.

  The program is twenty-three host operations (transposes, concatenations, format changes and reshapes that
  lay the weights, biases and normalisation parameters out as the kernel wants them), then one region on a
  grid of 128 points. At point t the region hands the body rows 128·t … 128·t + 127 of the two activations, the
  whole of each of the fourteen parameter arrays, and a buffer for rows 128·t … of the result. The body loads
  every input whole, computes, and stores the whole result block; so after the body each input buffer holds
  what it held and the result buffer holds `body` of the sixteen input blocks. With that, the library's
  launch theorem gives the run, and the run's post gives the frame.
-/
import proofs.«124813_j51427938402962_2_alg».proof.Proof.Gen.KernelIdeal.Launch
import proofs.«124813_j51427938402962_2_alg».proof.Proof.Gen.KernelIdeal.Skeleton
import proofs.«124813_j51427938402962_2_alg».proof.Proof.Gen.KernelIdeal.Points
import proofs.«124813_j51427938402962_2_alg».proof.Proof.BodyKI
import Idealize.ShloMosaic.Lib.Pipeline.FrameBody
import Idealize.ShloMosaic.Lib.Ring
import Idealize.ShloMosaic.Lib.Tactic

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the launch contents after the host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 20: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 21: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current buffer holds its block at every point, whether the point fetched it or an earlier one did
    (the parameter arrays are fetched once: their block index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- A run ending with every staged array at what the proof data says and every other buffer as the region found it
    ends with the argument arrays as launched: the two activations are staged inputs, the other twenty arguments are
    read by host operations only. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c)⟩) h

/-! ## The body -/

/-- The result buffer after the body: its one store, which is of the whole buffer. -/
def out0_16 (x0 : Vec F S128x1024 .f32) (x1 : Vec F S128x1024 .f32) (x2 : Vec F S1024x5120 .bf16) (x3 : Vec F S1x5120 .f32) (x4 : Vec F S1024x4096 .bf16) (x5 : Vec F S1x4096 .f32) (x6 : Vec F S1x3072 .f32) (x7 : Vec F S1x3072 .f32) (x8 : Vec F S1x3072 .f32) (x9 : Vec F S1x3072 .f32) (x10 : Vec F S1x1024 .f32) (x11 : Vec F S1x1024 .f32) (x12 : Vec F S1x1024 .f32) (x13 : Vec F S1x1024 .f32) (x14 : Vec F S1x1024 .f32) (x15 : Vec F S1x1024 .f32) : Vec F S128x1024 .f32 :=
  View.canon [⟨rAct, body (View.ld x0 r_S128x1024) (View.ld x1 r_S128x1024) (View.ld x2 r_S1024x5120) (View.ld x3 r_S1x5120) (View.ld x4 r_S1024x4096) (View.ld x5 r_S1x4096) (View.ld x6 r_S1x3072) (View.ld x7 r_S1x3072) (View.ld x8 r_S1x3072) (View.ld x9 r_S1x3072) (View.ld x10 r_S1x1024) (View.ld x11 r_S1x1024) (View.ld x12 r_S1x1024) (View.ld x13 r_S1x1024) (View.ld x14 r_S1x1024) (View.ld x15 r_S1x1024)⟩]

theorem cover0_16 (p0 : Vec F S128x1024 .f32) (y : S128x1024.Idx) :
    ∃ pc ∈ ([⟨rAct, p0⟩] : List (View.Piece (Elt F) S128x1024 .f32)), y ∈ pc.1.set :=
  View.cover_of_tiled [⟨rAct, p0⟩] S128x1024.size (by rfl) y

set_option maxHeartbeats 4000000 in
/-- The body on whole buffers, the inputs at contents `xW` and the result buffer at anything, runs to its end with the inputs
    as they were and the result buffer at `out0_16`. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S1024x5120 .bf16) (harg3 : arg3.IsWhole) (arg4 : Memref sig .tc .vmem S1x5120 .f32) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S1x3072 .f32) (harg7 : arg7.IsWhole) (arg8 : Memref sig .tc .vmem S1x3072 .f32) (harg8 : arg8.IsWhole) (arg9 : Memref sig .tc .vmem S1x3072 .f32) (harg9 : arg9.IsWhole) (arg10 : Memref sig .tc .vmem S1x3072 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole)
    (x0 : Vec F S128x1024 .f32) (x1 : Vec F S128x1024 .f32) (x2 : Vec F S1024x5120 .bf16) (x3 : Vec F S1x5120 .f32) (x4 : Vec F S1024x4096 .bf16) (x5 : Vec F S1x4096 .f32) (x6 : Vec F S1x3072 .f32) (x7 : Vec F S1x3072 .f32) (x8 : Vec F S1x3072 .f32) (x9 : Vec F S1x3072 .f32) (x10 : Vec F S1x1024 .f32) (x11 : Vec F S1x1024 .f32) (x12 : Vec F S1x1024 .f32) (x13 : Vec F S1x1024 .f32) (x14 : Vec F S1x1024 .f32) (x15 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out0_16 x0 x1 x2 x3 x4 x5 x6 x7 x8 x9 x10 x11 x12 x13 x14 x15)) -∗ K ⟨⟩))
      ⊢ wp frame (wpE (defs₀ (F := F)) Variants.none c none) E (cc0__lau_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__lau_kernel_eq_skeleton]; unfold cc0__lau_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  exact View.read_writes_eq_canon _ _ _ (cover0_16 _)

/-! ## The proof data -/

/-- The arrays as the region finds them; after the body at point `t` each input buffer at its block and the result buffer at
    `out0_16` of the input blocks; nothing else kept, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 17, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates, every staged array at what the proof data computes and every other unscoped
    buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

end Cert.KernelIdeal.HFrame

end
-- ==== Proof.LauSpec.lean ====
/-
  The mathematics of the cell, as one function of the twenty-two argument arrays.

  Every row i of the batch is treated alone. A linear layer's entry (i, j) is the row x[i, :] against the
  row W[j, :] plus the bias b[j]. A layer normalisation of a row v of length n with divisor d (the literal n)
  subtracts the mean (Σ v) / d, multiplies by (var + eps)^(-1/2), scales by g and shifts by be. The variance
  is a parameter `V` of the specification, because the two programs compute it in two ways:
  `var1` is the mean of the squares minus the square of the mean, `var2` the mean of the squared deviations.
  The gate's squashing function is a parameter `σ` too: one program applies the logistic function, the other
  spells it 1 / (1 + e^(-v)).
  The cell: with r, z, g the three thirds of σ (LN(x·Wigᵀ + big) + LN(h·Whgᵀ + bhg)),
  Hx = LN(x·Wiiᵀ + bii), xh = LN(x·Wihᵀ + bih), hh = LN(h·Whhᵀ + bhh),
  hm = tanh ((1 - r)·xh + r·hh) and out = ((1 - z)·h + z·hm)·(1 - g) + g·Hx.
-/
import Idealize.ShloMosaic.PureOps.Ideal
import Idealize.ShloMosaic.Lib.ValueIdx

noncomputable section

namespace Cert.LauSpec

open Idealize.ShloMosaic Idealize.ShloMosaic.ValueIdx

/-- A matrix and a vector of extended reals, indexed as the printed programs index them. -/
abbrev Mat (a b : Nat) : Type := (⟨2, ![a, b]⟩ : Shape).Idx → EReal
abbrev Row (a : Nat) : Type := (⟨1, ![a]⟩ : Shape).Idx → EReal

/-- The literals both programs share, kept as their binary words: eps, the two row lengths, one. -/
def eps : EReal := Ideal.ofBits .f32 0x3727C5AC#32
def c3072 : EReal := Ideal.ofBits .f32 0x45400000#32
def c1024 : EReal := Ideal.ofBits .f32 0x44800000#32
def one : EReal := Ideal.ofBits .f32 0x3F800000#32

/-- The twenty-two argument arrays, in the order of the programs' parameters. -/
structure Args where
  inp : Mat 16384 1024
  hid : Mat 16384 1024
  Wig : Mat 3072 1024
  big : Row 3072
  Whg : Mat 3072 1024
  bhg : Row 3072
  Wii : Mat 1024 1024
  bii : Row 1024
  Wih : Mat 1024 1024
  bih : Row 1024
  Whh : Mat 1024 1024
  bhh : Row 1024
  gig : Row 3072
  beig : Row 3072
  ghg : Row 3072
  behg : Row 3072
  gii : Row 1024
  beii : Row 1024
  gih : Row 1024
  beih : Row 1024
  ghh : Row 1024
  behh : Row 1024

/-- Entry (i, j) of x·Wᵀ + b. -/
def lin {B K n : Nat} (x : Mat B K) (W : Mat n K) (b : Row n) (i : Fin B) (j : Fin n) : EReal :=
  (∑ k : Fin K, x (ix2 i k) * W (ix2 j k)) + b (ix1 j)

/-- The mean of a row, with the divisor a parameter (the programs divide by a literal). -/
def mean {n : Nat} (d : EReal) (v : Fin n → EReal) : EReal := Ideal.div (∑ k : Fin n, v k) d

/-- The variance in one pass: the mean of the squares minus the square of the mean. -/
def var1 {n : Nat} (d : EReal) (v : Fin n → EReal) : EReal :=
  Ideal.div (∑ k : Fin n, v k * v k) d - mean d v * mean d v

/-- The variance in two passes: the mean of the squared deviations from the mean. -/
def var2 {n : Nat} (d : EReal) (v : Fin n → EReal) : EReal :=
  Ideal.div (∑ k : Fin n, (v k - mean d v) * (v k - mean d v)) d

/-- The squashing function spelt out: 1 / (1 + e^(-v)), the ones the literal words. -/
def sigSpelt (v : EReal) : EReal := Ideal.div one (one + Ideal.exp (-v))

section
variable (V : {n : Nat} → EReal → (Fin n → EReal) → EReal) (σ : EReal → EReal)

/-- Layer normalisation of a row, at column j, over the variance `V`. -/
def ln {n : Nat} (d : EReal) (v : Fin n → EReal) (g be : Row n) (j : Fin n) : EReal :=
  (v j - mean d v) * Ideal.rsqrt (V d v + eps) * g (ix1 j) + be (ix1 j)

/-- The gate before squashing, at row i and column j of 3072. -/
def gatePre (A : Args) (i : Fin 16384) (j : Fin 3072) : EReal :=
  ln V c3072 (lin A.inp A.Wig A.big i) A.gig A.beig j + ln V c3072 (lin A.hid A.Whg A.bhg i) A.ghg A.behg j

/-- The cell's output at row i and column j. -/
def out (A : Args) (i : Fin 16384) (j : Fin 1024) : EReal :=
  ((one - σ (gatePre V A i ⟨j.val + 1024, by omega⟩)) * A.hid (ix2 i j)
      + σ (gatePre V A i ⟨j.val + 1024, by omega⟩)
        * Ideal.tanh ((one - σ (gatePre V A i ⟨j.val, by omega⟩)) * ln V c1024 (lin A.inp A.Wih A.bih i) A.gih A.beih j
            + σ (gatePre V A i ⟨j.val, by omega⟩) * ln V c1024 (lin A.hid A.Whh A.bhh i) A.ghh A.behh j))
    * (one - σ (gatePre V A i ⟨j.val + 2048, by omega⟩))
    + σ (gatePre V A i ⟨j.val + 2048, by omega⟩) * ln V c1024 (lin A.inp A.Wii A.bii i) A.gii A.beii j

/-- The whole result array. -/
def G (A : Args) : Mat 16384 1024 := fun idx => out V σ A (idx 0) (idx 1)

end

/-- What the kernel computes: one-pass variance, the logistic function. -/
def Gkernel (A : Args) : Mat 16384 1024 := G (fun {n} => var1 (n := n)) Ideal.logistic A

/-- What the reference computes: two-pass variance, the logistic function spelt out. -/
def Greference (A : Args) : Mat 16384 1024 := G (fun {n} => var2 (n := n)) sigSpelt A

/-- Every entry of every argument is a real number. -/
structure Args.Real (A : Args) : Prop where
  inp : ∀ i, ∃ r : ℝ, A.inp i = (r : EReal)
  hid : ∀ i, ∃ r : ℝ, A.hid i = (r : EReal)
  Wig : ∀ i, ∃ r : ℝ, A.Wig i = (r : EReal)
  big : ∀ i, ∃ r : ℝ, A.big i = (r : EReal)
  Whg : ∀ i, ∃ r : ℝ, A.Whg i = (r : EReal)
  bhg : ∀ i, ∃ r : ℝ, A.bhg i = (r : EReal)
  Wii : ∀ i, ∃ r : ℝ, A.Wii i = (r : EReal)
  bii : ∀ i, ∃ r : ℝ, A.bii i = (r : EReal)
  Wih : ∀ i, ∃ r : ℝ, A.Wih i = (r : EReal)
  bih : ∀ i, ∃ r : ℝ, A.bih i = (r : EReal)
  Whh : ∀ i, ∃ r : ℝ, A.Whh i = (r : EReal)
  bhh : ∀ i, ∃ r : ℝ, A.bhh i = (r : EReal)
  gig : ∀ i, ∃ r : ℝ, A.gig i = (r : EReal)
  beig : ∀ i, ∃ r : ℝ, A.beig i = (r : EReal)
  ghg : ∀ i, ∃ r : ℝ, A.ghg i = (r : EReal)
  behg : ∀ i, ∃ r : ℝ, A.behg i = (r : EReal)
  gii : ∀ i, ∃ r : ℝ, A.gii i = (r : EReal)
  beii : ∀ i, ∃ r : ℝ, A.beii i = (r : EReal)
  gih : ∀ i, ∃ r : ℝ, A.gih i = (r : EReal)
  beih : ∀ i, ∃ r : ℝ, A.beih i = (r : EReal)
  ghh : ∀ i, ∃ r : ℝ, A.ghh i = (r : EReal)
  behh : ∀ i, ∃ r : ℝ, A.behh i = (r : EReal)

end Cert.LauSpec

end
-- ==== Proof.LauArgs.lean ====
/-
  The two programs' argument arrays on a device, gathered as the specification's record of twenty-two arrays.
-/
import proofs.«124813_j51427938402962_2_alg».proof.Defs
import proofs.«124813_j51427938402962_2_alg».proof.Proof.LauSpec

noncomputable section

namespace Cert.LauSpec

open Idealize.ShloMosaic Idealize.SL.Sem

/-- The idealized kernel's argument arrays on device `c`, in a memory `m`. -/
def kArgs (m : (ℓ : Loc Cert.KernelIdeal.nD Cert.KernelIdeal.τ Cert.KernelIdeal.sig) → Buf (Elt Ideal) ℓ)
    (c : Dev Cert.KernelIdeal.nD) : Args where
  inp := m ((c.tc : Thread Cert.KernelIdeal.nD Cert.KernelIdeal.τ).loc Cert.KernelIdeal.main_arg0)
  hid := m ((c.tc : Thread Cert.KernelIdeal.nD Cert.KernelIdeal.τ).loc Cert.KernelIdeal.main_arg1)
  Wig := m ((c.tc : Thread Cert.KernelIdeal.nD Cert.KernelIdeal.τ).loc Cert.KernelIdeal.main_arg2)
  big := m ((c.tc : Thread Cert.KernelIdeal.nD Cert.KernelIdeal.τ).loc Cert.KernelIdeal.main_arg3)
  Whg := m ((c.tc : Thread Cert.KernelIdeal.nD Cert.KernelIdeal.τ).loc Cert.KernelIdeal.main_arg4)
  bhg := m ((c.tc : Thread Cert.KernelIdeal.nD Cert.KernelIdeal.τ).loc Cert.KernelIdeal.main_arg5)
  Wii := m ((c.tc : Thread Cert.KernelIdeal.nD Cert.KernelIdeal.τ).loc Cert.KernelIdeal.main_arg6)
  bii := m ((c.tc : Thread Cert.KernelIdeal.nD Cert.KernelIdeal.τ).loc Cert.KernelIdeal.main_arg7)
  Wih := m ((c.tc : Thread Cert.KernelIdeal.nD Cert.KernelIdeal.τ).loc Cert.KernelIdeal.main_arg8)
  bih := m ((c.tc : Thread Cert.KernelIdeal.nD Cert.KernelIdeal.τ).loc Cert.KernelIdeal.main_arg9)
  Whh := m ((c.tc : Thread Cert.KernelIdeal.nD Cert.KernelIdeal.τ).loc Cert.KernelIdeal.main_arg10)
  bhh := m ((c.tc : Thread Cert.KernelIdeal.nD Cert.KernelIdeal.τ).loc Cert.KernelIdeal.main_arg11)
  gig := m ((c.tc : Thread Cert.KernelIdeal.nD Cert.KernelIdeal.τ).loc Cert.KernelIdeal.main_arg12)
  beig := m ((c.tc : Thread Cert.KernelIdeal.nD Cert.KernelIdeal.τ).loc Cert.KernelIdeal.main_arg13)
  ghg := m ((c.tc : Thread Cert.KernelIdeal.nD Cert.KernelIdeal.τ).loc Cert.KernelIdeal.main_arg14)
  behg := m ((c.tc : Thread Cert.KernelIdeal.nD Cert.KernelIdeal.τ).loc Cert.KernelIdeal.main_arg15)
  gii := m ((c.tc : Thread Cert.KernelIdeal.nD Cert.KernelIdeal.τ).loc Cert.KernelIdeal.main_arg16)
  beii := m ((c.tc : Thread Cert.KernelIdeal.nD Cert.KernelIdeal.τ).loc Cert.KernelIdeal.main_arg17)
  gih := m ((c.tc : Thread Cert.KernelIdeal.nD Cert.KernelIdeal.τ).loc Cert.KernelIdeal.main_arg18)
  beih := m ((c.tc : Thread Cert.KernelIdeal.nD Cert.KernelIdeal.τ).loc Cert.KernelIdeal.main_arg19)
  ghh := m ((c.tc : Thread Cert.KernelIdeal.nD Cert.KernelIdeal.τ).loc Cert.KernelIdeal.main_arg20)
  behh := m ((c.tc : Thread Cert.KernelIdeal.nD Cert.KernelIdeal.τ).loc Cert.KernelIdeal.main_arg21)

/-- The idealized reference's argument arrays on device `c`, in a memory `m'`. -/
def rArgs (m' : (ℓ : Loc Cert.ReferenceIdeal.nD Cert.ReferenceIdeal.τ Cert.ReferenceIdeal.sig) → Buf (Elt Ideal) ℓ)
    (c : Dev Cert.ReferenceIdeal.nD) : Args where
  inp := m' ((c.tc : Thread Cert.ReferenceIdeal.nD Cert.ReferenceIdeal.τ).loc Cert.ReferenceIdeal.main_arg0)
  hid := m' ((c.tc : Thread Cert.ReferenceIdeal.nD Cert.ReferenceIdeal.τ).loc Cert.ReferenceIdeal.main_arg1)
  Wig := m' ((c.tc : Thread Cert.ReferenceIdeal.nD Cert.ReferenceIdeal.τ).loc Cert.ReferenceIdeal.main_arg2)
  big := m' ((c.tc : Thread Cert.ReferenceIdeal.nD Cert.ReferenceIdeal.τ).loc Cert.ReferenceIdeal.main_arg3)
  Whg := m' ((c.tc : Thread Cert.ReferenceIdeal.nD Cert.ReferenceIdeal.τ).loc Cert.ReferenceIdeal.main_arg4)
  bhg := m' ((c.tc : Thread Cert.ReferenceIdeal.nD Cert.ReferenceIdeal.τ).loc Cert.ReferenceIdeal.main_arg5)
  Wii := m' ((c.tc : Thread Cert.ReferenceIdeal.nD Cert.ReferenceIdeal.τ).loc Cert.ReferenceIdeal.main_arg6)
  bii := m' ((c.tc : Thread Cert.ReferenceIdeal.nD Cert.ReferenceIdeal.τ).loc Cert.ReferenceIdeal.main_arg7)
  Wih := m' ((c.tc : Thread Cert.ReferenceIdeal.nD Cert.ReferenceIdeal.τ).loc Cert.ReferenceIdeal.main_arg8)
  bih := m' ((c.tc : Thread Cert.ReferenceIdeal.nD Cert.ReferenceIdeal.τ).loc Cert.ReferenceIdeal.main_arg9)
  Whh := m' ((c.tc : Thread Cert.ReferenceIdeal.nD Cert.ReferenceIdeal.τ).loc Cert.ReferenceIdeal.main_arg10)
  bhh := m' ((c.tc : Thread Cert.ReferenceIdeal.nD Cert.ReferenceIdeal.τ).loc Cert.ReferenceIdeal.main_arg11)
  gig := m' ((c.tc : Thread Cert.ReferenceIdeal.nD Cert.ReferenceIdeal.τ).loc Cert.ReferenceIdeal.main_arg12)
  beig := m' ((c.tc : Thread Cert.ReferenceIdeal.nD Cert.ReferenceIdeal.τ).loc Cert.ReferenceIdeal.main_arg13)
  ghg := m' ((c.tc : Thread Cert.ReferenceIdeal.nD Cert.ReferenceIdeal.τ).loc Cert.ReferenceIdeal.main_arg14)
  behg := m' ((c.tc : Thread Cert.ReferenceIdeal.nD Cert.ReferenceIdeal.τ).loc Cert.ReferenceIdeal.main_arg15)
  gii := m' ((c.tc : Thread Cert.ReferenceIdeal.nD Cert.ReferenceIdeal.τ).loc Cert.ReferenceIdeal.main_arg16)
  beii := m' ((c.tc : Thread Cert.ReferenceIdeal.nD Cert.ReferenceIdeal.τ).loc Cert.ReferenceIdeal.main_arg17)
  gih := m' ((c.tc : Thread Cert.ReferenceIdeal.nD Cert.ReferenceIdeal.τ).loc Cert.ReferenceIdeal.main_arg18)
  beih := m' ((c.tc : Thread Cert.ReferenceIdeal.nD Cert.ReferenceIdeal.τ).loc Cert.ReferenceIdeal.main_arg19)
  ghh := m' ((c.tc : Thread Cert.ReferenceIdeal.nD Cert.ReferenceIdeal.τ).loc Cert.ReferenceIdeal.main_arg20)
  behh := m' ((c.tc : Thread Cert.ReferenceIdeal.nD Cert.ReferenceIdeal.τ).loc Cert.ReferenceIdeal.main_arg21)

end Cert.LauSpec

end
-- ==== Proof.LibLogistic.lean ====
/-
  The logistic function on the extended reals, in the two spellings float programs use:
      ½·(tanh(½·v) + 1)      (one transcendental, no division)     and     1 / (1 + e^{-v}),
  with the literals `0.5` and `1.0` as f32 patterns. They are ONE function on every extended real: at +∞ both are 1,
  at −∞ both are 0 (tanh(±∞) = ±1, e^{-∞} = 0, 1/(+∞) = 0), and on the reals it is the identity
  tanh(r/2) = (1 − e^{-r})/(1 + e^{-r}). The second spelling is the ideal instance's own `logistic`.
-/
import Idealize.ShloMosaic.PureOps.Ideal

noncomputable section

namespace Logistic

open Idealize.ShloMosaic

/-! ## The two float literals of the spelling through the hyperbolic tangent -/

/-- The pattern of `0.5`. -/
abbrev cHalf : EReal := Ideal.ofBits .f32 0x3F000000#32
/-- The pattern of `1.0`. -/
abbrev cOne : EReal := Ideal.ofBits .f32 0x3F800000#32

/-- `0.5` denotes the real one half. -/
theorem cHalf_val : cHalf = ((1 / 2 : ℝ) : EReal) := by
  show Ideal.ofBits .f32 0x3F000000#32 = _
  simp [Ideal.ofBits, Ideal.ieee, -EReal.coe_mul]; norm_num

/-- `1.0` denotes one. -/
theorem cOne_val : cOne = 1 := by
  show Ideal.ofBits .f32 0x3F800000#32 = _
  simp [Ideal.ofBits, Ideal.ieee, -EReal.coe_mul]; norm_num

/-! ## The logistic function, twice -/

/-- The logistic function through the hyperbolic tangent: ½·(tanh(½·v) + 1). -/
def sigT (v : EReal) : EReal := cHalf * (Ideal.tanh (cHalf * v) + cOne)

/-- The logistic function through the exponential: 1 / (1 + e^{-v}). -/
def sigE (v : EReal) : EReal := Ideal.div cOne (cOne + Ideal.exp (-v))

/-- On the reals: ½·(tanh(r/2) + 1) = 1/(1 + e^{-r}). With b = e^{-r/2}, tanh(r/2) = (b⁻¹ − b)/(b⁻¹ + b) and
    e^{-r} = b². -/
theorem real_sigmoid (r : ℝ) : (1 / 2 : ℝ) * (Real.tanh ((1 / 2 : ℝ) * r) + 1) = (1 + Real.exp (-r))⁻¹ := by
  have hb : 0 < Real.exp (-((1 / 2 : ℝ) * r)) := Real.exp_pos _
  have hab : Real.exp ((1 / 2 : ℝ) * r) * Real.exp (-((1 / 2 : ℝ) * r)) = 1 := by
    rw [← Real.exp_add, add_neg_cancel, Real.exp_zero]
  have hb2 : Real.exp (-r) = Real.exp (-((1 / 2 : ℝ) * r)) * Real.exp (-((1 / 2 : ℝ) * r)) := by
    rw [← Real.exp_add]; congr 1; ring
  rw [Real.tanh_eq_sinh_div_cosh, Real.sinh_eq, Real.cosh_eq, hb2]
  generalize Real.exp (-((1 / 2 : ℝ) * r)) = b at *
  have ha : Real.exp ((1 / 2 : ℝ) * r) = b⁻¹ := eq_inv_of_mul_eq_one_left hab
  rw [ha]
  have h1 : b ≠ 0 := hb.ne'
  have h2 : (1 + b * b) ≠ 0 := by positivity
  have h3 : b⁻¹ + b ≠ 0 := by positivity
  field_simp
  ring

/-- The two spellings are one function on every extended real. -/
theorem sigT_eq_sigE (v : EReal) : sigT v = sigE v := by
  have hE : sigE v = Ideal.logistic v := by
    unfold sigE; rw [cOne_val]; rfl
  rw [hE]; unfold sigT; rw [cHalf_val, cOne_val]
  induction v using EReal.rec
  · -- −∞: ½·(tanh(−∞) + 1) = ½·(−1 + 1) = 0
    rw [EReal.coe_mul_bot_of_pos (by norm_num), Ideal.tanh_bot, Ideal.logistic_bot]
    have h0 : (-1 : EReal) + 1 = 0 := by
      rw [show (-1 : EReal) = ((-1 : ℝ) : EReal) by norm_num, ← EReal.coe_one, ← EReal.coe_add]; norm_num
    rw [h0, mul_zero]
  · -- a real
    rename_i r
    rw [← EReal.coe_mul, Ideal.tanh_coe, Ideal.logistic_coe, ← EReal.coe_one, ← EReal.coe_add, ← EReal.coe_mul,
      real_sigmoid]
  · -- +∞: ½·(tanh(+∞) + 1) = ½·2 = 1
    rw [EReal.coe_mul_top_of_pos (by norm_num), Ideal.tanh_top, Ideal.logistic_top]
    rw [← EReal.coe_one, ← EReal.coe_add, ← EReal.coe_mul]; norm_num

/-- The spelling through the exponential is the ideal instance's `logistic`. -/
theorem sigE_eq_logistic (v : EReal) : sigE v = Ideal.logistic v := by
  unfold sigE; rw [cOne_val]; rfl

end Logistic

end
-- ==== Proof.LauAlgebra.lean ====
/-
  The two specifications of the cell agree on real arguments.

  The two programs differ in two places only. The variance of a row is taken in one pass (the mean of the
  squares minus the square of the mean) or in two (the mean of the squared deviations); and the gate's
  squashing function is the logistic function or its spelling 1 / (1 + e^(-v)). The spelling is the logistic
  function on every extended real. The two variances agree on a row of real numbers divided by its own length
  n: with S = Σ v, Q = Σ v², μ = S / n,
      Σ (v - μ)² = Q - 2·μ·S + n·μ² = Q - S²/n,    so    (Σ (v - μ)²) / n = Q / n - μ².
  Every row the cell normalises is a row of a linear layer, a finite sum of products of reals plus a real,
  hence real, and the divisors are the literals 3072 and 1024, the lengths of those rows.
-/
import proofs.«124813_j51427938402962_2_alg».proof.Proof.LauSpec
import proofs.«124813_j51427938402962_2_alg».proof.Proof.LibLogistic
import Mathlib

noncomputable section

namespace Cert.LauSpec

open Idealize.ShloMosaic Idealize.ShloMosaic.ValueIdx

/-! ## The literals -/

/-- The word of `1.0` denotes one. -/
theorem one_val : one = 1 := Logistic.cOne_val

/-- The word of `3072.0` denotes the real 3072. -/
theorem c3072_val : c3072 = ((3072 : ℝ) : EReal) := by
  show Ideal.ofBits .f32 0x45400000#32 = _
  simp [Ideal.ofBits, Ideal.ieee, -EReal.coe_mul]; norm_num

/-- The word of `1024.0` denotes the real 1024. -/
theorem c1024_val : c1024 = ((1024 : ℝ) : EReal) := by
  show Ideal.ofBits .f32 0x44800000#32 = _
  simp [Ideal.ofBits, Ideal.ieee, -EReal.coe_mul]; norm_num

/-! ## The squashing function -/

/-- 1 / (1 + e^(-v)) with the literal ones is the logistic function, on every extended real. -/
theorem sigSpelt_eq_logistic (v : EReal) : sigSpelt v = Ideal.logistic v :=
  Logistic.sigE_eq_logistic v

/-! ## Finite sums of reals -/

/-- The coercion of a finite sum of reals is the sum of the coercions. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A linear layer of real arrays has real entries. -/
theorem lin_real {B K n : Nat} (x : Mat B K) (W : Mat n K) (b : Row n)
    (hx : ∀ i, ∃ r : ℝ, x i = (r : EReal)) (hW : ∀ i, ∃ r : ℝ, W i = (r : EReal))
    (hb : ∀ i, ∃ r : ℝ, b i = (r : EReal)) (i : Fin B) (j : Fin n) :
    ∃ r : ℝ, lin x W b i j = (r : EReal) := by
  choose fx hfx using hx
  choose fW hfW using hW
  choose fb hfb using hb
  refine ⟨(∑ k : Fin K, fx (ix2 i k) * fW (ix2 j k)) + fb (ix1 j), ?_⟩
  unfold lin
  rw [EReal.coe_add, coe_sum]
  simp only [hfx, hfW, hfb, EReal.coe_mul]

/-! ## The two variances -/

/-- Over the reals: the mean of the squared deviations is the mean of the squares minus the squared mean. -/
theorem real_var {n : Nat} (hn : (n : ℝ) ≠ 0) (f : Fin n → ℝ) :
    (∑ k : Fin n, f k * f k) * (1 / (n : ℝ))
        - (∑ k : Fin n, f k) * (1 / (n : ℝ)) * ((∑ k : Fin n, f k) * (1 / (n : ℝ)))
      = (∑ k : Fin n, (f k - (∑ k : Fin n, f k) * (1 / (n : ℝ))) * (f k - (∑ k : Fin n, f k) * (1 / (n : ℝ))))
          * (1 / (n : ℝ)) := by
  generalize hS : (∑ k : Fin n, f k) = S
  generalize hμ : S * (1 / (n : ℝ)) = μ
  have hexp : ∀ k, (f k - μ) * (f k - μ) = f k * f k - 2 * μ * f k + μ * μ := fun k => by ring
  have hsum : (∑ k : Fin n, (f k - μ) * (f k - μ)) = (∑ k : Fin n, f k * f k) - 2 * μ * S + (n : ℝ) * (μ * μ) := by
    simp only [hexp]
    rw [Finset.sum_add_distrib, Finset.sum_sub_distrib, ← Finset.mul_sum, hS, Finset.sum_const, Finset.card_univ,
      Fintype.card_fin, nsmul_eq_mul]
  rw [hsum, ← hμ]
  field_simp
  ring

/-- On a row of reals divided by its own length, the one-pass and the two-pass variance agree. -/
theorem var1_eq_var2 {n : Nat} (hn : n ≠ 0) (d : EReal) (hd : d = ((n : ℝ) : EReal)) (v : Fin n → EReal)
    (hv : ∀ k, ∃ r : ℝ, v k = (r : EReal)) : var1 d v = var2 d v := by
  choose f hf using hv
  obtain rfl : v = fun k => (f k : EReal) := funext hf
  have hn' : (n : ℝ) ≠ 0 := by exact_mod_cast hn
  have hS : (∑ k : Fin n, ((f k : ℝ) : EReal)) = ((∑ k : Fin n, f k : ℝ) : EReal) := (coe_sum _ _).symm
  have hQ : (∑ k : Fin n, ((f k : ℝ) : EReal) * ((f k : ℝ) : EReal)) = ((∑ k : Fin n, f k * f k : ℝ) : EReal) := by
    rw [coe_sum]; simp only [EReal.coe_mul]
  have hmean : mean d (fun k => ((f k : ℝ) : EReal)) = (((∑ k : Fin n, f k) * (1 / (n : ℝ)) : ℝ) : EReal) := by
    unfold mean; rw [hd, Ideal.div_coe hn', hS, ← EReal.coe_mul]
  have hD : (∑ k : Fin n, (((f k : ℝ) : EReal) - (((∑ k : Fin n, f k) * (1 / (n : ℝ)) : ℝ) : EReal))
        * (((f k : ℝ) : EReal) - (((∑ k : Fin n, f k) * (1 / (n : ℝ)) : ℝ) : EReal)))
      = ((∑ k : Fin n, (f k - (∑ k : Fin n, f k) * (1 / (n : ℝ))) * (f k - (∑ k : Fin n, f k) * (1 / (n : ℝ))) : ℝ) : EReal) := by
    rw [coe_sum]; simp only [EReal.coe_mul, EReal.coe_sub]
  unfold var1 var2
  rw [hmean, hD, hd, Ideal.div_coe hn', Ideal.div_coe hn', hQ, ← EReal.coe_mul, ← EReal.coe_mul, ← EReal.coe_mul,
    ← EReal.coe_sub, real_var hn' f]

/-! ## The cell -/

section
variable (σ : EReal → EReal)

/-- A layer normalisation of a real row by its own length does not depend on which variance is used. -/
theorem ln_var {n : Nat} (hn : n ≠ 0) (d : EReal) (hd : d = ((n : ℝ) : EReal)) (v : Fin n → EReal)
    (hv : ∀ k, ∃ r : ℝ, v k = (r : EReal)) (g be : Row n) (j : Fin n) :
    ln (fun {n} => var1 (n := n)) d v g be j = ln (fun {n} => var2 (n := n)) d v g be j := by
  show (v j - mean d v) * Ideal.rsqrt (var1 d v + eps) * g (ix1 j) + be (ix1 j)
    = (v j - mean d v) * Ideal.rsqrt (var2 d v + eps) * g (ix1 j) + be (ix1 j)
  rw [var1_eq_var2 hn d hd v hv]

/-- The gate before squashing does not depend on which variance is used. -/
theorem gatePre_var (A : Args) (hA : A.Real) (i : Fin 16384) (j : Fin 3072) :
    gatePre (fun {n} => var1 (n := n)) A i j = gatePre (fun {n} => var2 (n := n)) A i j := by
  unfold gatePre
  rw [ln_var (by norm_num) c3072 (by rw [c3072_val]; norm_num) _ (lin_real _ _ _ hA.inp hA.Wig hA.big i),
    ln_var (by norm_num) c3072 (by rw [c3072_val]; norm_num) _ (lin_real _ _ _ hA.hid hA.Whg hA.bhg i)]

/-- The cell's output does not depend on which variance is used. -/
theorem out_var (A : Args) (hA : A.Real) (i : Fin 16384) (j : Fin 1024) :
    out (fun {n} => var1 (n := n)) σ A i j = out (fun {n} => var2 (n := n)) σ A i j := by
  unfold out
  simp only [gatePre_var A hA]
  rw [ln_var (by norm_num) c1024 (by rw [c1024_val]; norm_num) _ (lin_real _ _ _ hA.inp hA.Wih hA.bih i),
    ln_var (by norm_num) c1024 (by rw [c1024_val]; norm_num) _ (lin_real _ _ _ hA.hid hA.Whh hA.bhh i),
    ln_var (by norm_num) c1024 (by rw [c1024_val]; norm_num) _ (lin_real _ _ _ hA.inp hA.Wii hA.bii i)]

end

/-- On real arguments the kernel's specification and the reference's are the same array. -/
theorem Gkernel_eq_Greference (A : Args) (hA : A.Real) : Gkernel A = Greference A := by
  have hσ : sigSpelt = Ideal.logistic := funext sigSpelt_eq_logistic
  unfold Gkernel Greference
  rw [hσ]
  funext idx
  exact out_var Ideal.logistic A hA (idx 0) (idx 1)

end Cert.LauSpec

end
-- ==== Proof.LauFinite.lean ====
/-
  The precondition makes every argument a real number.

  The precondition states that a printed predicate of the twenty-two argument arrays is all ones. The predicate
  is a conjunction, one conjunct per array: the test |x| < +∞ at every entry, reduced by `and` over all axes.
  A conjunction that is 1 has every conjunct 1; a reduction by `and` over all axes that is 1 had a 1 at every
  entry; and an extended real x with max x (-x) < +∞ is neither -∞ nor +∞, so it is a real number.
-/
import proofs.«124813_j51427938402962_2_alg».proof.Defs
import proofs.«124813_j51427938402962_2_alg».proof.Proof.LauArgs
import Idealize.ShloMosaic.Lib.ReduceAll
import Mathlib

noncomputable section

namespace Cert.LauSpec

open Idealize.ShloMosaic Idealize.ShloMosaic.ValueIdx Idealize.SL.Sem Cert.Pre_finite_inputs

/-! ## One element -/

/-- The word 0x7F800000 denotes +∞. -/
theorem inf_val : Ideal.ofBits .f32 0x7F800000#32 = (⊤ : EReal) := by
  simp [Ideal.ofBits, Ideal.ieee]

/-- An extended real whose absolute value max x (-x) is below +∞ is a real number: at -∞ and at +∞ the
    absolute value is +∞ itself. -/
theorem real_of_abs_lt_inf (x : EReal)
    (h : Ideal.cmp .olt (max x (-x)) (Ideal.ofBits .f32 0x7F800000#32) = 1#1) : ∃ r : ℝ, x = (r : EReal) := by
  rw [inf_val] at h
  induction x using EReal.rec with
  | bot => simp [Ideal.cmp] at h
  | coe r => exact ⟨r, rfl⟩
  | top => simp [Ideal.cmp] at h

/-! ## One array -/

/-- The scalar shape has one index. -/
instance subsingleton_scalar_idx : Subsingleton S_.Idx := ⟨fun a b => funext fun d => d.elim0⟩

/-- An array of any shape whose test "every |x| < +∞", reduced by `and` over all axes, is 1 has only real
    entries. -/
theorem real_of_all_finite {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
        (cmpf .olt (Host.absf x) (broadcastInDim s ![] hb (constant (F := Ideal) S_ .f32 0x7F800000#32)))
        (constantI S_ 1 1#1) hr hu j = 1#1)
    (i : s.Idx) : ∃ r : ℝ, x i = (r : EReal) :=
  real_of_abs_lt_inf (x i) (Host.reduce_andi_all _ _ hr hu j e i)

/-- A conjunction of two one-bit arrays is 1 at an index exactly when both are. -/
theorem andi_apply_eq_one {s : Shape} (x y : IVec s 1) (i : s.Idx) :
    andi x y i = 1#1 ↔ x i = 1#1 ∧ y i = 1#1 := IntOp.andi_eq_one

/-! ## The twenty-two arrays -/

/-- If the printed predicate of twenty-two arrays is all ones, every entry of every array is real. -/
theorem real_of_fn [Facts] (a0 : FVec Ideal S16384x1024 .f32) (a1 : FVec Ideal S16384x1024 .f32) (a2 : FVec Ideal S3072x1024 .f32) (a3 : FVec Ideal S3072 .f32) (a4 : FVec Ideal S3072x1024 .f32) (a5 : FVec Ideal S3072 .f32) (a6 : FVec Ideal S1024x1024 .f32) (a7 : FVec Ideal S1024 .f32) (a8 : FVec Ideal S1024x1024 .f32) (a9 : FVec Ideal S1024 .f32) (a10 : FVec Ideal S1024x1024 .f32) (a11 : FVec Ideal S1024 .f32) (a12 : FVec Ideal S3072 .f32) (a13 : FVec Ideal S3072 .f32) (a14 : FVec Ideal S3072 .f32) (a15 : FVec Ideal S3072 .f32) (a16 : FVec Ideal S1024 .f32) (a17 : FVec Ideal S1024 .f32) (a18 : FVec Ideal S1024 .f32) (a19 : FVec Ideal S1024 .f32) (a20 : FVec Ideal S1024 .f32) (a21 : FVec Ideal S1024 .f32)
    (h : fn (F := Ideal) a0 a1 a2 a3 a4 a5 a6 a7 a8 a9 a10 a11 a12 a13 a14 a15 a16 a17 a18 a19 a20 a21 = (fun _ => 1#1)) :
    Args.Real ⟨a0, a1, a2, a3, a4, a5, a6, a7, a8, a9, a10, a11, a12, a13, a14, a15, a16, a17, a18, a19, a20, a21⟩ := by
  have h0 := congrFun h ix0
  dsimp only [fn, fn_part1, fn_part2, fn_part3, fn_part4, fn_part5, fn_part6] at h0
  simp only [andi_apply_eq_one] at h0
  obtain ⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩ := h0
  exact {
    inp := fun i => real_of_all_finite a0 Facts.bcast_S_S16384x1024 Facts.reducesTo_S16384x1024_S_d0_1 Facts.h_S_ ix0 h0 i
    hid := fun i => real_of_all_finite a1 Facts.bcast_S_S16384x1024 Facts.reducesTo_S16384x1024_S_d0_1 Facts.h_S_ ix0 h1 i
    Wig := fun i => real_of_all_finite a2 Facts.bcast_S_S3072x1024 Facts.reducesTo_S3072x1024_S_d0_1 Facts.h_S_ ix0 h2 i
    big := fun i => real_of_all_finite a3 Facts.bcast_S_S3072 Facts.reducesTo_S3072_S_d0 Facts.h_S_ ix0 h3 i
    Whg := fun i => real_of_all_finite a4 Facts.bcast_S_S3072x1024 Facts.reducesTo_S3072x1024_S_d0_1 Facts.h_S_ ix0 h4 i
    bhg := fun i => real_of_all_finite a5 Facts.bcast_S_S3072 Facts.reducesTo_S3072_S_d0 Facts.h_S_ ix0 h5 i
    Wii := fun i => real_of_all_finite a6 Facts.bcast_S_S1024x1024 Facts.reducesTo_S1024x1024_S_d0_1 Facts.h_S_ ix0 h6 i
    bii := fun i => real_of_all_finite a7 Facts.bcast_S_S1024 Facts.reducesTo_S1024_S_d0 Facts.h_S_ ix0 h7 i
    Wih := fun i => real_of_all_finite a8 Facts.bcast_S_S1024x1024 Facts.reducesTo_S1024x1024_S_d0_1 Facts.h_S_ ix0 h8 i
    bih := fun i => real_of_all_finite a9 Facts.bcast_S_S1024 Facts.reducesTo_S1024_S_d0 Facts.h_S_ ix0 h9 i
    Whh := fun i => real_of_all_finite a10 Facts.bcast_S_S1024x1024 Facts.reducesTo_S1024x1024_S_d0_1 Facts.h_S_ ix0 h10 i
    bhh := fun i => real_of_all_finite a11 Facts.bcast_S_S1024 Facts.reducesTo_S1024_S_d0 Facts.h_S_ ix0 h11 i
    gig := fun i => real_of_all_finite a12 Facts.bcast_S_S3072 Facts.reducesTo_S3072_S_d0 Facts.h_S_ ix0 h12 i
    beig := fun i => real_of_all_finite a13 Facts.bcast_S_S3072 Facts.reducesTo_S3072_S_d0 Facts.h_S_ ix0 h13 i
    ghg := fun i => real_of_all_finite a14 Facts.bcast_S_S3072 Facts.reducesTo_S3072_S_d0 Facts.h_S_ ix0 h14 i
    behg := fun i => real_of_all_finite a15 Facts.bcast_S_S3072 Facts.reducesTo_S3072_S_d0 Facts.h_S_ ix0 h15 i
    gii := fun i => real_of_all_finite a16 Facts.bcast_S_S1024 Facts.reducesTo_S1024_S_d0 Facts.h_S_ ix0 h16 i
    beii := fun i => real_of_all_finite a17 Facts.bcast_S_S1024 Facts.reducesTo_S1024_S_d0 Facts.h_S_ ix0 h17 i
    gih := fun i => real_of_all_finite a18 Facts.bcast_S_S1024 Facts.reducesTo_S1024_S_d0 Facts.h_S_ ix0 h18 i
    beih := fun i => real_of_all_finite a19 Facts.bcast_S_S1024 Facts.reducesTo_S1024_S_d0 Facts.h_S_ ix0 h19 i
    ghh := fun i => real_of_all_finite a20 Facts.bcast_S_S1024 Facts.reducesTo_S1024_S_d0 Facts.h_S_ ix0 h20 i
    behh := fun i => real_of_all_finite a21 Facts.bcast_S_S1024 Facts.reducesTo_S1024_S_d0 Facts.h_S_ ix0 h21 i }

/-! ## The kernel's arguments -/

/-- Under the precondition every entry of every argument array of the kernel is real, on every device. -/
theorem kArgs_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : (kArgs m c).Real :=
  real_of_fn _ _ _ _ _ _ _ _ _ _ _ _ _ _ _ _ _ _ _ _ _ _ (h c)

end Cert.LauSpec

end
-- ==== Proof.LauAssemble.lean ====
/-
  The claim, assembled.

  The certificate claims five things. Three are frames: each of the three programs runs to the end, faults nowhere
  and leaves its argument arrays as launched; the kernel's two are the frame theorems of the kernel at the two
  instances of the float operations, the reference's is its run with the result forgotten. The fourth, that the
  idealized kernel is the kernel's own text read at the extended reals, is stated as `True`. The fifth says that
  from memories agreeing on the arguments the idealized kernel and the idealized reference end with equal results:
  the kernel ends at the specification's cell in its one-pass spelling of the arguments it was launched with, the
  reference at the cell in its two-pass spelling of its own arguments; the arguments agree, the precondition makes
  them real, and on real arguments the two spellings are one array.
-/
import proofs.«124813_j51427938402962_2_alg».proof.Defs
import proofs.«124813_j51427938402962_2_alg».proof.Proof.Gen.Kernel
import proofs.«124813_j51427938402962_2_alg».proof.Proof.Gen.KernelIdeal
import proofs.«124813_j51427938402962_2_alg».proof.Proof.Gen.ReferenceIdeal
import proofs.«124813_j51427938402962_2_alg».proof.Proof.Gen.ReferenceIdeal.Run
import proofs.«124813_j51427938402962_2_alg».proof.Proof.Gen.Pre_finite_inputs
import proofs.«124813_j51427938402962_2_alg».proof.Proof.FrameK
import proofs.«124813_j51427938402962_2_alg».proof.Proof.FrameKI
import proofs.«124813_j51427938402962_2_alg».proof.Proof.LauArgs
import proofs.«124813_j51427938402962_2_alg».proof.Proof.LauAlgebra
import proofs.«124813_j51427938402962_2_alg».proof.Proof.LauFinite

noncomputable section

namespace Cert.Proof.Lau

open Idealize.ShloMosaic Idealize.ShloMosaic.TcCoe Idealize.SL.Sem Cert.LauSpec

/-! ## The two value runs the fifth claim rests on -/

/-- The idealized kernel's run: every weakly fair execution terminates with the result buffer at the cell in its
    one-pass spelling of the argument arrays, and the arguments unchanged. -/
abbrev KernelRun : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v23) = Cert.LauSpec.Gkernel (Cert.LauSpec.kArgs m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

/-- The idealized reference's run: every weakly fair execution terminates with the result buffer at the cell in its
    two-pass spelling of the argument arrays, and the arguments unchanged. -/
abbrev ReferenceRun : Prop :=
  ∀ (m' : (ℓ : Loc Cert.ReferenceIdeal.nD Cert.ReferenceIdeal.τ Cert.ReferenceIdeal.sig) → Buf (Elt Ideal) ℓ) (ρ' : Dev Cert.ReferenceIdeal.nD → PrngReg),
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v170) = Cert.LauSpec.Greference (Cert.LauSpec.rArgs m' c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

/-! ## The frames and the idealization -/

theorem frame_k : Cert.frame_Kernel := fun m ρ _ => Cert.Kernel.HFrame.frame (F := Bits) m ρ

theorem frame_ki : Cert.frame_KernelIdeal := fun m ρ _ => Cert.KernelIdeal.HFrame.frame (F := Ideal) m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-! ## Equal results -/

/-- Memories that agree on the twenty-two argument arrays on a device give the specification the same record. -/
theorem rArgs_eq_kArgs
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    rArgs m' c = kArgs m c := by
  obtain ⟨h0, h1, h2, h3, h4, h5, h6, h7, h8, h9, h10, h11, h12, h13, h14, h15, h16, h17, h18, h19, h20, h21⟩ := hagree
  unfold rArgs kArgs
  rw [h0, h1, h2, h3, h4, h5, h6, h7, h8, h9, h10, h11, h12, h13, h14, h15, h16, h17, h18, h19, h20, h21]

/-- From memories agreeing on the arguments, the idealized kernel and the idealized reference end with equal
    results: the witness is the cell in its one-pass spelling of the kernel's arguments. -/
theorem algebraic (hK : KernelRun) (hR : ReferenceRun) : Cert.algebraic_KernelIdeal_ReferenceIdeal := by
  intro m ρ m' ρ' hpre hagree
  refine ⟨fun c => Gkernel (kArgs m c), hK m ρ, ?_⟩
  refine (θ_run Cert.ReferenceIdeal.defs _ _).mono (fun _ h c => ⟨(h c).1.trans ?_, (h c).2⟩) (hR m' ρ')
  rw [rArgs_eq_kArgs m m' c (hagree c)]
  exact (Gkernel_eq_Greference (kArgs m c) (kArgs_real m hpre c)).symm

/-! ## The claim -/

/-- Everything the certificate claims, given the two value runs. -/
theorem claim_of (hK : KernelRun) (hR : ReferenceRun) : Cert.Claim :=
  ⟨Cert.Kernel.Gen.facts, Cert.KernelIdeal.Gen.facts, Cert.ReferenceIdeal.Gen.facts, Cert.Pre_finite_inputs.Gen.facts,
    frame_k, frame_ki, frame_ri, preserves, algebraic hK hR⟩

end Cert.Proof.Lau

end
-- ==== Proof.LibPlainDot.lean ====
/-
  A matrix product "rows by columns" read at an index, at the ideal instance.

  For dimension numbers that contract the left operand's second axis with the right operand's first one and
  have no batch axis — an `M×K` matrix times a `K×N` matrix —, the element `(r, c)` of the product is
  `∑ k : Fin K, A (r, k) * B (k, c)`:
  * for the host's `dot_general` (no accumulator), and
  * for the matrix unit's `matmul` into the all-zero accumulator.
  Both are the same sum over the ONE coordinate `k` of the contracted axis, so a product computed in row
  blocks and a product computed whole agree element by element. General in `M`, `K`, `N`, the dimension-number
  record (any record whose six lists are the plain ones) and the operands' float formats.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract the left operand's axis 1 with the right operand's
    axis 0; the result's axes are the left operand's axis 0, then the right operand's axis 1; no batch axis. -/
structure Plain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- The left operand's row coordinate is the result's row coordinate. -/
theorem lhs_row (d : DotDims ⟨2, ![M, K]⟩ ⟨2, ![K, N]⟩ ⟨2, ![M, N]⟩) (P : Plain d)
    (j : (⟨2, ![M, N]⟩ : Shape).Idx) (q : d.contr.Idx) : (d.lhsIdx j q 0).val = (j 0).val := by
  unfold DotDims.lhsIdx
  rw [dif_neg (show ¬ (0 : Fin (⟨2, ![M, K]⟩ : Shape).rank) ∈ d.lhsBatch by rw [P.lb]; simp),
    dif_pos (show (0 : Fin (⟨2, ![M, K]⟩ : Shape).rank) ∈ d.lhsNonContracting by rw [P.ln]; simp)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [P.lb, P.ln])

/-- The right operand's column coordinate is the result's column coordinate. -/
theorem rhs_col (d : DotDims ⟨2, ![M, K]⟩ ⟨2, ![K, N]⟩ ⟨2, ![M, N]⟩) (P : Plain d)
    (j : (⟨2, ![M, N]⟩ : Shape).Idx) (q : d.contr.Idx) : (d.rhsIdx j q 1).val = (j 1).val := by
  unfold DotDims.rhsIdx
  rw [dif_neg (show ¬ (1 : Fin (⟨2, ![K, N]⟩ : Shape).rank) ∈ d.rhsBatch by rw [P.rb]; simp),
    dif_pos (show (1 : Fin (⟨2, ![K, N]⟩ : Shape).rank) ∈ d.rhsNonContracting by rw [P.rn]; simp)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [P.lb, P.ln, P.rn])

/-- The left operand is read at (row of the result, the contracted coordinate). -/
theorem lhsIdx_eq (d : DotDims ⟨2, ![M, K]⟩ ⟨2, ![K, N]⟩ ⟨2, ![M, N]⟩) (P : Plain d)
    (hr : d.contr.rank = 1) (hs : d.contr.size ⟨0, by omega⟩ = K)
    (j : (⟨2, ![M, N]⟩ : Shape).Idx) (k : Fin K) :
    d.lhsIdx j ((contrEquiv1 d K hr hs).symm k) = ix2 (j 0) k := by
  have hk := contrEquiv1_symm_val d K hr hs k
  funext a
  apply Fin.ext
  match a with
  | ⟨0, _⟩ => exact lhs_row d P j _
  | ⟨1, _⟩ => exact (d.lhsIdx_val_of_single P.lc j _).trans hk

/-- The right operand is read at (the contracted coordinate, column of the result). -/
theorem rhsIdx_eq (d : DotDims ⟨2, ![M, K]⟩ ⟨2, ![K, N]⟩ ⟨2, ![M, N]⟩) (P : Plain d)
    (hr : d.contr.rank = 1) (hs : d.contr.size ⟨0, by omega⟩ = K)
    (j : (⟨2, ![M, N]⟩ : Shape).Idx) (k : Fin K) :
    d.rhsIdx j ((contrEquiv1 d K hr hs).symm k) = ix2 k (j 1) := by
  have hk := contrEquiv1_symm_val d K hr hs k
  funext a
  apply Fin.ext
  match a with
  | ⟨0, _⟩ => exact (d.rhsIdx_val_of_single P.rc j _).trans hk
  | ⟨1, _⟩ => exact rhs_col d P j _

/-- The sum over the contraction index, re-indexed by the contracted axis's one coordinate. -/
theorem sum_contr (d : DotDims ⟨2, ![M, K]⟩ ⟨2, ![K, N]⟩ ⟨2, ![M, N]⟩) (P : Plain d)
    (hr : d.contr.rank = 1) (hs : d.contr.size ⟨0, by omega⟩ = K)
    {φ₁ φ₂ : FTy} (A : FVec Ideal ⟨2, ![M, K]⟩ φ₁) (B : FVec Ideal ⟨2, ![K, N]⟩ φ₂)
    (j : (⟨2, ![M, N]⟩ : Shape).Idx) :
    (∑ q : d.contr.Idx, A (d.lhsIdx j q) * B (d.rhsIdx j q)) = ∑ k : Fin K, A (ix2 (j 0) k) * B (ix2 k (j 1)) := by
  rw [← Equiv.sum_comp (contrEquiv1 d K hr hs).symm]
  refine Finset.sum_congr rfl fun k _ => ?_
  rw [lhsIdx_eq d P hr hs j k, rhsIdx_eq d P hr hs j k]
  rfl

/-- The host's product at an index: the sum over the contracted coordinate. -/
theorem dotGeneral_apply (d : DotDims ⟨2, ![M, K]⟩ ⟨2, ![K, N]⟩ ⟨2, ![M, N]⟩) (P : Plain d)
    (hr : d.contr.rank = 1) (hs : d.contr.size ⟨0, by omega⟩ = K)
    {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral d prec sched A B j = ∑ k : Fin K, A (ix2 (j 0) k) * B (ix2 k (j 1)) := by
  rw [Ideal.dotGeneral_apply]
  exact sum_contr d P hr hs A B j

/-- The matrix unit's product into the zero accumulator at an index: the same sum. -/
theorem matmul_zero_apply (d : DotDims ⟨2, ![M, K]⟩ ⟨2, ![K, N]⟩ ⟨2, ![M, N]⟩) (P : Plain d)
    (hr : d.contr.rank = 1) (hs : d.contr.size ⟨0, by omega⟩ = K)
    {φ₁ φ₂ : FTy} (prec : Option ContractPrecision)
    (A : FVec Ideal ⟨2, ![M, K]⟩ φ₁) (B : FVec Ideal ⟨2, ![K, N]⟩ φ₂) (j : (⟨2, ![M, N]⟩ : Shape).Idx) :
    FloatOps.matmul d prec A B (constant ⟨2, ![M, N]⟩ .f32 0x00000000#32) j
      = ∑ k : Fin K, A (ix2 (j 0) k) * B (ix2 k (j 1)) := by
  rw [Ideal.matmul_constant_zero_apply]
  exact sum_contr d P hr hs A B j

end PlainDot

end
-- ==== Proof.LibRowReduce.lean ====
/-
  Reductions of a matrix `[a, b]` over its column axis, read at a row `p`, at the ideal float values: a
  `vector.multi_reduction <add>` is the sum over the row's entries, a `vector.multi_reduction <maximumf>` and the host's
  `stablehlo.reduce` with a maximum body are the fold of `max` over the row's entries from the initial value; and `−∞`
  (the f32 pattern `0xFF800000`) is neutral for `max` on the extended reals. General in both extents.
-/
import Idealize.ShloMosaic.PureOps.Ideal.Laws
import Idealize.ShloMosaic.Lib.ValueIdx

noncomputable section

open Idealize.ShloMosaic Idealize.ShloMosaic.ValueIdx

namespace RowReduce

variable {a b : ℕ}

/-- The row index `p` with column `k` put back on the reduced axis is `(p, k)`. -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A lane sum over the columns, at row `p`: the sum of the row's entries. -/
theorem multiReduction_add_row {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- A lane maximum over the columns, at row `p`: the fold of `max` over the row's entries from the accumulator's value. -/
theorem multiReduction_max_row {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  rw [Ideal.multiReduction_maximumf_single]
  have hf : (src ∘ h.lift (ix1 p)) = fun k : Fin b => src (ix2 p k) := funext fun k => congrArg src (lift_row h p k)
  exact congrArg (fun f => Finset.fold max (Ideal.ofBits φ acc) f (Finset.univ : Finset (Fin b))) hf

/-- The host's reduce with a maximum body over the columns, at row `p`: the same fold from the initial value. -/
theorem hostReduce_max_row {φ : FTy} {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- `−∞` is neutral for the maximum of extended reals. -/
theorem max_negInf (y : EReal) : max (Ideal.ofBits .f32 0xFF800000#32) y = y := by
  simp [Ideal.ofBits, Ideal.ieee]

end RowReduce

end
-- ==== Proof.RefValueOps.lean ====
/-
  The host operations of one layer of the cell, read at an index (i, j), at the ideal values and over generic extents.

  * A vector laid along every row (two broadcasts), a column `[B, 1]` laid along every column, a vector cast to a
    column, and a scalar laid everywhere, each read at (i, j).
  * The host's sum of a matrix over its column axis from the zero word, read at row i: the sum of the row's entries.
  * A linear layer: x times the transpose of W plus the bias laid along the rows, at (i, j), is
    (∑ k, x (i, k) * W (j, k)) + b j.
  * The mean column: the row sums divided by a literal, at (i, 0), is the specification's `mean`.
-/
import Idealize.ShloMosaic.Lib.ValueLayout
import Idealize.ShloMosaic.Lib.IdealHost
import Idealize.ShloMosaic.Lib.KernelVsHost
import proofs.«124813_j51427938402962_2_alg».proof.Proof.LibPlainDot
import proofs.«124813_j51427938402962_2_alg».proof.Proof.LibRowReduce
import proofs.«124813_j51427938402962_2_alg».proof.Proof.LauSpec

noncomputable section

open scoped BigOperators

namespace Cert.ReferenceIdeal.RefValue

open Idealize.ShloMosaic Idealize.ShloMosaic.ValueIdx Cert.LauSpec

variable {B K n : ℕ} {α : Type}

/-! ## Layout operations at an index -/

/-- A vector `[n]` laid as the one row `[1, n]` and then along each of `B` rows reads, at (i, j), the vector at j. -/
theorem rowVec_apply (hb1 : (⟨1, ![n]⟩ : Shape).BroadcastsInDim ⟨2, ![1, n]⟩ ![1])
    (hb2 : (⟨2, ![1, n]⟩ : Shape).BroadcastsInDim ⟨2, ![B, n]⟩ ![0, 1]) (b : (⟨1, ![n]⟩ : Shape).Idx → α)
    (i : Fin B) (j : Fin n) :
    broadcastInDim ⟨2, ![B, n]⟩ ![0, 1] hb2 (broadcastInDim ⟨2, ![1, n]⟩ ![1] hb1 b) (ix2 i j) = b (ix1 j) := by
  rw [broadcastInDim_oneRow_apply hb2 _ i j]
  refine broadcastInDim_apply ![1] hb1 b (ix2 (0 : Fin 1) j) (ix1 j) fun a => ?_
  match a with
  | ⟨0, _⟩ =>
    show j.val = if n = 1 then 0 else j.val
    split
    · have := j.isLt; omega
    · rfl

/-- A column `[B, 1]` laid along each of `n` columns reads, at (i, j), the column at row i. -/
theorem col_apply (hb : (⟨2, ![B, 1]⟩ : Shape).BroadcastsInDim ⟨2, ![B, n]⟩ ![0, 1])
    (m : (⟨2, ![B, 1]⟩ : Shape).Idx → α) (i : Fin B) (j : Fin n) :
    broadcastInDim ⟨2, ![B, n]⟩ ![0, 1] hb m (ix2 i j) = m (ix2 i (0 : Fin 1)) := by
  refine broadcastInDim_apply ![0, 1] hb m (ix2 i j) (ix2 i (0 : Fin 1)) fun a => ?_
  match a with
  | ⟨0, _⟩ =>
    show i.val = if B = 1 then 0 else i.val
    split
    · have := i.isLt; omega
    · rfl
  | ⟨1, _⟩ =>
    show 0 = if (1 : ℕ) = 1 then 0 else j.val
    rw [if_pos rfl]

/-- A vector `[B]` cast to the column `[B, 1]` reads, at (i, u), the vector at i. -/
theorem vecCol_apply (hb : (⟨1, ![B]⟩ : Shape).BroadcastsInDim ⟨2, ![B, 1]⟩ ![0])
    (r : (⟨1, ![B]⟩ : Shape).Idx → α) (i : Fin B) (u : Fin 1) :
    broadcastInDim ⟨2, ![B, 1]⟩ ![0] hb r (ix2 i u) = r (ix1 i) := by
  refine broadcastInDim_apply ![0] hb r (ix2 i u) (ix1 i) fun a => ?_
  match a with
  | ⟨0, _⟩ =>
    show i.val = if B = 1 then 0 else i.val
    split
    · have := i.isLt; omega
    · rfl

/-- A float literal laid over a whole array reads its word's value everywhere. -/
theorem lit_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w := by
  rw [broadcastInDim_scalar_apply]; rfl

/-! ## The row sum -/

/-- Dropping the column axis into a vector: the host's shape fact gives the vector unit's. -/
theorem reduces_of_reducesTo (h' : (⟨2, ![B, n]⟩ : Shape).ReducesTo [1] ⟨1, ![B]⟩) :
    (⟨2, ![B, n]⟩ : Shape).Reduces [1] ⟨1, ![B]⟩ :=
  let ⟨h, hb⟩ := h'; ⟨h, Nat.one_pos, hb⟩

/-- The host's sum over the columns from the zero word, at row i: the sum of the row's entries. -/
theorem rowSum_apply (h' : (⟨2, ![B, n]⟩ : Shape).ReducesTo [1] ⟨1, ![B]⟩) (hu : 0 < (⟨0, ![]⟩ : Shape).numel)
    (v : FVec Ideal ⟨2, ![B, n]⟩ .f32) (i : Fin B) :
    Host.reduceAdd v (constant ⟨0, ![]⟩ .f32 0x00000000#32) h' hu (ix1 i) = ∑ k : Fin n, v (ix2 i k) := by
  rw [hostReduceAdd_apply, Ideal.hostReduceAdd_single h' (reduces_of_reducesTo h'), constant_apply,
    Ideal.ofBits_zero_f32, zero_add]
  exact Finset.sum_congr rfl fun k _ => congrArg v (RowReduce.lift_row (reduces_of_reducesTo h') i k)

/-! ## A linear layer -/

/-- x times the transpose of W, plus the bias laid along every row, at (i, j): the specification's `lin`. -/
theorem lin_apply (d : DotDims ⟨2, ![B, K]⟩ ⟨2, ![K, n]⟩ ⟨2, ![B, n]⟩) (P : PlainDot.Plain d)
    (hr : d.contr.rank = 1) (hs : d.contr.size ⟨0, by omega⟩ = K)
    (ht : (⟨2, ![n, K]⟩ : Shape).Transposes [1, 0] ⟨2, ![K, n]⟩)
    (hb1 : (⟨1, ![n]⟩ : Shape).BroadcastsInDim ⟨2, ![1, n]⟩ ![1])
    (hb2 : (⟨2, ![1, n]⟩ : Shape).BroadcastsInDim ⟨2, ![B, n]⟩ ![0, 1])
    (x : FVec Ideal ⟨2, ![B, K]⟩ .f32) (W : FVec Ideal ⟨2, ![n, K]⟩ .f32) (b : FVec Ideal ⟨1, ![n]⟩ .f32)
    (i : Fin B) (j : Fin n) :
    addf (Host.dotGeneral d none x (transpose ⟨2, ![K, n]⟩ [1, 0] W ht))
        (broadcastInDim ⟨2, ![B, n]⟩ ![0, 1] hb2 (broadcastInDim ⟨2, ![1, n]⟩ ![1] hb1 b)) (ix2 i j)
      = lin x W b i j := by
  rw [addf_apply, rowVec_apply hb1 hb2 b i j]
  unfold lin
  congr 1
  simp only [Host.dotGeneral]
  rw [PlainDot.dotGeneral_apply d P hr hs]
  exact Finset.sum_congr rfl fun k _ => by
    show x (ix2 i k) * transpose ⟨2, ![K, n]⟩ [1, 0] W ht (ix2 k j) = _
    rw [transpose_ix2_apply W ht k j]

/-! ## The mean column -/

/-- The row sums cast to a column and divided by a literal laid over the column, at (i, u): the `mean` of row i. -/
theorem meanCol_apply (h' : (⟨2, ![B, n]⟩ : Shape).ReducesTo [1] ⟨1, ![B]⟩) (hu : 0 < (⟨0, ![]⟩ : Shape).numel)
    (hb0 : (⟨1, ![B]⟩ : Shape).BroadcastsInDim ⟨2, ![B, 1]⟩ ![0])
    (hbs : (⟨0, ![]⟩ : Shape).BroadcastsInDim ⟨2, ![B, 1]⟩ ![]) (w : BitVec 32)
    (v : FVec Ideal ⟨2, ![B, n]⟩ .f32) (i : Fin B) (u : Fin 1) :
    Host.divf (broadcastInDim ⟨2, ![B, 1]⟩ ![0] hb0 (Host.reduceAdd v (constant ⟨0, ![]⟩ .f32 0x00000000#32) h' hu))
        (broadcastInDim ⟨2, ![B, 1]⟩ ![] hbs (constant ⟨0, ![]⟩ .f32 w)) (ix2 i u)
      = mean (Ideal.ofBits .f32 w) (fun k : Fin n => v (ix2 i k)) := by
  rw [hostDivf_apply, vecCol_apply hb0 _ i u, rowSum_apply h' hu v i, lit_apply hbs w]
  rfl

end Cert.ReferenceIdeal.RefValue

end
-- ==== Proof.RefValueLayer.lean ====
/-
  One layer normalisation, the squashing of the gate and the final mixing of the cell, read at an index (i, j), at the
  ideal values and over generic extents.

  * The layer normalisation of a matrix v, row by row: subtract the mean column, multiply by the column
    (mean of the squared deviations + eps)^(-1/2), scale by g and shift by be, both laid along the rows. At (i, j) this
    is the specification's `ln` of row i over the two-pass variance.
  * The squashing 1 / (1 + e^(-(a + b))) with the ones the literal words: the specification's `sigSpelt`.
  * The mixing ((1 - z)·h + z·tanh((1 - r)·xh + r·hh))·(1 - g) + g·Hx with r, z, g the three column blocks of one matrix.
-/
import proofs.«124813_j51427938402962_2_alg».proof.Proof.RefValueOps

noncomputable section

open scoped BigOperators

namespace Cert.ReferenceIdeal.RefValue

open Idealize.ShloMosaic Idealize.ShloMosaic.ValueIdx Cert.LauSpec

variable {B n : ℕ}

/-! ## The host's unary functions at an index -/

theorem hostRsqrt_apply {s : Shape} (a : FVec Ideal s .f32) (i : s.Idx) : Host.rsqrt a i = Ideal.rsqrt (a i) := rfl
theorem hostTanh_apply {s : Shape} (a : FVec Ideal s .f32) (i : s.Idx) : Host.tanh a i = Ideal.tanh (a i) := rfl
theorem hostExp_apply {s : Shape} (a : FVec Ideal s .f32) (i : s.Idx) : Host.exp a i = Ideal.exp (a i) := rfl
theorem hostNegf_apply {s : Shape} (a : FVec Ideal s .f32) (i : s.Idx) : Host.negf a i = -(a i) := rfl

/-! ## The layer normalisation -/

section LN

variable (h' : (⟨2, ![B, n]⟩ : Shape).ReducesTo [1] ⟨1, ![B]⟩) (hu : 0 < (⟨0, ![]⟩ : Shape).numel)
  (hb0 : (⟨1, ![B]⟩ : Shape).BroadcastsInDim ⟨2, ![B, 1]⟩ ![0])
  (hbs : (⟨0, ![]⟩ : Shape).BroadcastsInDim ⟨2, ![B, 1]⟩ ![])
  (hbc : (⟨2, ![B, 1]⟩ : Shape).BroadcastsInDim ⟨2, ![B, n]⟩ ![0, 1])
  (hb1 : (⟨1, ![n]⟩ : Shape).BroadcastsInDim ⟨2, ![1, n]⟩ ![1])
  (hb2 : (⟨2, ![1, n]⟩ : Shape).BroadcastsInDim ⟨2, ![B, n]⟩ ![0, 1])
  (w : BitVec 32)

/-- A matrix less its mean column laid along the columns, at (i, j): the entry less the mean of its row. -/
theorem center_apply (v : FVec Ideal ⟨2, ![B, n]⟩ .f32) (i : Fin B) (j : Fin n) :
    subf v (broadcastInDim ⟨2, ![B, n]⟩ ![0, 1] hbc
        (Host.divf (broadcastInDim ⟨2, ![B, 1]⟩ ![0] hb0 (Host.reduceAdd v (constant ⟨0, ![]⟩ .f32 0x00000000#32) h' hu))
          (broadcastInDim ⟨2, ![B, 1]⟩ ![] hbs (constant ⟨0, ![]⟩ .f32 w)))) (ix2 i j)
      = v (ix2 i j) - mean (Ideal.ofBits .f32 w) (fun k : Fin n => v (ix2 i k)) := by
  rw [subf_apply, col_apply hbc _ i j, meanCol_apply h' hu hb0 hbs w v i 0]

/-- The layer normalisation at (i, j): the specification's `ln` of row i over the two-pass variance. -/
theorem ln_apply (v : FVec Ideal ⟨2, ![B, n]⟩ .f32) (g be : FVec Ideal ⟨1, ![n]⟩ .f32) (i : Fin B) (j : Fin n) :
    addf (mulf (mulf
        (subf v (broadcastInDim ⟨2, ![B, n]⟩ ![0, 1] hbc
          (Host.divf (broadcastInDim ⟨2, ![B, 1]⟩ ![0] hb0 (Host.reduceAdd v (constant ⟨0, ![]⟩ .f32 0x00000000#32) h' hu))
            (broadcastInDim ⟨2, ![B, 1]⟩ ![] hbs (constant ⟨0, ![]⟩ .f32 w)))))
        (broadcastInDim ⟨2, ![B, n]⟩ ![0, 1] hbc (Host.rsqrt (addf
          (Host.divf (broadcastInDim ⟨2, ![B, 1]⟩ ![0] hb0 (Host.reduceAdd
              (mulf
                (subf v (broadcastInDim ⟨2, ![B, n]⟩ ![0, 1] hbc
                  (Host.divf (broadcastInDim ⟨2, ![B, 1]⟩ ![0] hb0 (Host.reduceAdd v (constant ⟨0, ![]⟩ .f32 0x00000000#32) h' hu))
                    (broadcastInDim ⟨2, ![B, 1]⟩ ![] hbs (constant ⟨0, ![]⟩ .f32 w)))))
                (subf v (broadcastInDim ⟨2, ![B, n]⟩ ![0, 1] hbc
                  (Host.divf (broadcastInDim ⟨2, ![B, 1]⟩ ![0] hb0 (Host.reduceAdd v (constant ⟨0, ![]⟩ .f32 0x00000000#32) h' hu))
                    (broadcastInDim ⟨2, ![B, 1]⟩ ![] hbs (constant ⟨0, ![]⟩ .f32 w))))))
              (constant ⟨0, ![]⟩ .f32 0x00000000#32) h' hu))
            (broadcastInDim ⟨2, ![B, 1]⟩ ![] hbs (constant ⟨0, ![]⟩ .f32 w)))
          (broadcastInDim ⟨2, ![B, 1]⟩ ![] hbs (constant ⟨0, ![]⟩ .f32 0x3727C5AC#32))))))
        (broadcastInDim ⟨2, ![B, n]⟩ ![0, 1] hb2 (broadcastInDim ⟨2, ![1, n]⟩ ![1] hb1 g)))
      (broadcastInDim ⟨2, ![B, n]⟩ ![0, 1] hb2 (broadcastInDim ⟨2, ![1, n]⟩ ![1] hb1 be)) (ix2 i j)
      = ln (fun {n} => var2 (n := n)) (Ideal.ofBits .f32 w) (fun k : Fin n => v (ix2 i k)) g be j := by
  rw [addf_apply, mulf_apply, mulf_apply, rowVec_apply hb1 hb2 g i j, rowVec_apply hb1 hb2 be i j,
    center_apply h' hu hb0 hbs hbc w v i j, col_apply hbc _ i j, hostRsqrt_apply, addf_apply, hostDivf_apply,
    vecCol_apply hb0 _ i 0, rowSum_apply h' hu _ i, lit_apply hbs w, lit_apply hbs 0x3727C5AC#32]
  simp only [mulf_apply, center_apply h' hu hb0 hbs hbc w v i]
  rfl

end LN

/-! ## The gate's squashing -/

/-- 1 / (1 + e^(-(a + b))), the ones the literal word laid over the array, at an index: `sigSpelt` of the sum. -/
theorem gate_apply {T : Shape} (hb : (⟨0, ![]⟩ : Shape).BroadcastsInDim T ![]) (a b : FVec Ideal T .f32) (idx : T.Idx) :
    Host.divf (broadcastInDim T ![] hb (constant ⟨0, ![]⟩ .f32 0x3F800000#32))
        (addf (broadcastInDim T ![] hb (constant ⟨0, ![]⟩ .f32 0x3F800000#32)) (Host.exp (Host.negf (addf a b)))) idx
      = sigSpelt (a idx + b idx) := by
  rw [hostDivf_apply, addf_apply, lit_apply hb, hostExp_apply, hostNegf_apply, addf_apply]
  rfl

/-! ## The mixing -/

/-- The cell's last line at (i, j), with r, z, g the column blocks of `s` at offsets 0, o₁, o₂. -/
theorem cell_apply {N : ℕ} (o₁ o₂ : ℕ) (hb : (⟨0, ![]⟩ : Shape).BroadcastsInDim ⟨2, ![B, n]⟩ ![])
    (hs0 : (⟨2, ![B, N]⟩ : Shape).Slices ![0, 0] ⟨2, ![B, n]⟩)
    (hs1 : (⟨2, ![B, N]⟩ : Shape).Slices ![0, o₁] ⟨2, ![B, n]⟩)
    (hs2 : (⟨2, ![B, N]⟩ : Shape).Slices ![0, o₂] ⟨2, ![B, n]⟩)
    (s : FVec Ideal ⟨2, ![B, N]⟩ .f32) (h xh hh Hx : FVec Ideal ⟨2, ![B, n]⟩ .f32) (i : Fin B) (j : Fin n)
    (j0 j1 j2 : Fin N) (e0 : j0.val = j.val) (e1 : j1.val = j.val + o₁) (e2 : j2.val = j.val + o₂) :
    addf (mulf (addf
          (mulf (subf (broadcastInDim ⟨2, ![B, n]⟩ ![] hb (constant ⟨0, ![]⟩ .f32 0x3F800000#32))
              (extractStridedSlice ⟨2, ![B, n]⟩ ![0, o₁] s hs1)) h)
          (mulf (extractStridedSlice ⟨2, ![B, n]⟩ ![0, o₁] s hs1) (Host.tanh (addf
            (mulf (subf (broadcastInDim ⟨2, ![B, n]⟩ ![] hb (constant ⟨0, ![]⟩ .f32 0x3F800000#32))
              (extractStridedSlice ⟨2, ![B, n]⟩ ![0, 0] s hs0)) xh)
            (mulf (extractStridedSlice ⟨2, ![B, n]⟩ ![0, 0] s hs0) hh)))))
        (subf (broadcastInDim ⟨2, ![B, n]⟩ ![] hb (constant ⟨0, ![]⟩ .f32 0x3F800000#32))
          (extractStridedSlice ⟨2, ![B, n]⟩ ![0, o₂] s hs2)))
      (mulf (extractStridedSlice ⟨2, ![B, n]⟩ ![0, o₂] s hs2) Hx) (ix2 i j)
      = ((one - s (ix2 i j1)) * h (ix2 i j)
          + s (ix2 i j1) * Ideal.tanh ((one - s (ix2 i j0)) * xh (ix2 i j) + s (ix2 i j0) * hh (ix2 i j)))
        * (one - s (ix2 i j2))
        + s (ix2 i j2) * Hx (ix2 i j) := by
  have r0 : extractStridedSlice ⟨2, ![B, n]⟩ ![0, 0] s hs0 (ix2 i j) = s (ix2 i j0) :=
    slice2_axis1_apply 0 s hs0 i j j0 (by omega)
  have r1 : extractStridedSlice ⟨2, ![B, n]⟩ ![0, o₁] s hs1 (ix2 i j) = s (ix2 i j1) :=
    slice2_axis1_apply o₁ s hs1 i j j1 (by omega)
  have r2 : extractStridedSlice ⟨2, ![B, n]⟩ ![0, o₂] s hs2 (ix2 i j) = s (ix2 i j2) :=
    slice2_axis1_apply o₂ s hs2 i j j2 (by omega)
  simp only [addf_apply, mulf_apply, subf_apply, hostTanh_apply, lit_apply hb, r0, r1, r2]
  rfl

end Cert.ReferenceIdeal.RefValue

end
-- ==== Proof.RefValueTerm.lean ====
/-
  The reference's operations at the program's literal shapes, as functions of variable operands, each read at an
  index (i, j); then the whole cell as one function `refT` of the twenty-two argument arrays, equal to the
  specification's `Greference`.

  * `lin3`, `lin1`: a linear layer of width 3072, of width 1024 (transpose, product, bias laid along the rows).
  * `mean3`, `mean1`: the mean column; `cen3`, `cen1`: the matrix less its mean column.
  * `ln3`, `ln1`: the layer normalisation, its variance the mean of the squared deviations.
  * `gate3`: 1 / (1 + e^(-(a + b))) over the 3072 columns.
  * `cellT`: the final mixing, reading the gate's three column blocks.
-/
import proofs.«124813_j51427938402962_2_alg».proof.Proof.Gen.ReferenceIdeal
import proofs.«124813_j51427938402962_2_alg».proof.Proof.RefValueLayer

noncomputable section

open scoped BigOperators

namespace Cert.ReferenceIdeal.RefValue

open Cert.ReferenceIdeal Cert.ReferenceIdeal.Gen Idealize.ShloMosaic Idealize.ShloMosaic.ValueIdx Cert.LauSpec

/-! ## The two products' dimension numbers are plain -/

theorem plain3 : PlainDot.Plain (M := 16384) (K := 1024) (N := 3072) dot_S16384x1024_S1024x3072_S16384x3072_1_0_0_1_n_n :=
  ⟨rfl, rfl, rfl, rfl, rfl, rfl⟩
theorem rank3 : (dot_S16384x1024_S1024x3072_S16384x3072_1_0_0_1_n_n).contr.rank = 1 := rfl
theorem size3 : (dot_S16384x1024_S1024x3072_S16384x3072_1_0_0_1_n_n).contr.size ⟨0, by rw [rank3]; omega⟩ = 1024 := rfl

theorem plain1 : PlainDot.Plain (M := 16384) (K := 1024) (N := 1024) dot_S16384x1024_S1024x1024_S16384x1024_1_0_0_1_n_n :=
  ⟨rfl, rfl, rfl, rfl, rfl, rfl⟩
theorem rank1 : (dot_S16384x1024_S1024x1024_S16384x1024_1_0_0_1_n_n).contr.rank = 1 := rfl
theorem size1 : (dot_S16384x1024_S1024x1024_S16384x1024_1_0_0_1_n_n).contr.size ⟨0, by rw [rank1]; omega⟩ = 1024 := rfl

/-! ## The linear layers -/

/-- x·Wᵀ + b over 3072 columns, as the program spells it. -/
def lin3 (x : FVec Ideal S16384x1024 .f32) (W : FVec Ideal S3072x1024 .f32) (b : FVec Ideal S3072 .f32) :
    FVec Ideal S16384x3072 .f32 :=
  addf (Host.dotGeneral dot_S16384x1024_S1024x3072_S16384x3072_1_0_0_1_n_n none x (transpose S1024x3072 [1, 0] W transposes_S3072x1024_S1024x3072_1_0)) (broadcastInDim S16384x3072 ![0, 1] bcast_S1x3072_S16384x3072_0_1 (broadcastInDim S1x3072 ![1] bcast_S3072_S1x3072_1 b))

/-- x·Wᵀ + b over 1024 columns, as the program spells it. -/
def lin1 (x : FVec Ideal S16384x1024 .f32) (W : FVec Ideal S1024x1024 .f32) (b : FVec Ideal S1024 .f32) :
    FVec Ideal S16384x1024 .f32 :=
  addf (Host.dotGeneral dot_S16384x1024_S1024x1024_S16384x1024_1_0_0_1_n_n none x (transpose S1024x1024 [1, 0] W transposes_S1024x1024_S1024x1024_1_0)) (broadcastInDim S16384x1024 ![0, 1] bcast_S1x1024_S16384x1024_0_1 (broadcastInDim S1x1024 ![1] bcast_S1024_S1x1024_1 b))

theorem lin3_apply (x : FVec Ideal S16384x1024 .f32) (W : FVec Ideal S3072x1024 .f32) (b : FVec Ideal S3072 .f32)
    (i : Fin 16384) (j : Fin 3072) : lin3 x W b (ix2 i j) = lin x W b i j :=
  lin_apply (B := 16384) (K := 1024) (n := 3072) _ plain3 rank3 size3 _ _ _ x W b i j

theorem lin1_apply (x : FVec Ideal S16384x1024 .f32) (W : FVec Ideal S1024x1024 .f32) (b : FVec Ideal S1024 .f32)
    (i : Fin 16384) (j : Fin 1024) : lin1 x W b (ix2 i j) = lin x W b i j :=
  lin_apply (B := 16384) (K := 1024) (n := 1024) _ plain1 rank1 size1 _ _ _ x W b i j

/-! ## The mean column and the centred matrix -/

def mean3 (v : FVec Ideal S16384x3072 .f32) : FVec Ideal S16384x1 .f32 :=
  Host.divf (broadcastInDim S16384x1 ![0] bcast_S16384_S16384x1_0 (Host.reduceAdd v (constant S_ .f32 0x00000000#32) reducesTo_S16384x3072_S16384_d1 h_S_)) (broadcastInDim S16384x1 ![] bcast_S_S16384x1 (constant S_ .f32 0x45400000#32))

def mean1 (v : FVec Ideal S16384x1024 .f32) : FVec Ideal S16384x1 .f32 :=
  Host.divf (broadcastInDim S16384x1 ![0] bcast_S16384_S16384x1_0 (Host.reduceAdd v (constant S_ .f32 0x00000000#32) reducesTo_S16384x1024_S16384_d1 h_S_)) (broadcastInDim S16384x1 ![] bcast_S_S16384x1 (constant S_ .f32 0x44800000#32))

def cen3 (v : FVec Ideal S16384x3072 .f32) : FVec Ideal S16384x3072 .f32 :=
  subf v (broadcastInDim S16384x3072 ![0, 1] bcast_S16384x1_S16384x3072_0_1 (mean3 v))

def cen1 (v : FVec Ideal S16384x1024 .f32) : FVec Ideal S16384x1024 .f32 :=
  subf v (broadcastInDim S16384x1024 ![0, 1] bcast_S16384x1_S16384x1024_0_1 (mean1 v))

/-! ## The layer normalisations -/

def ln3 (v : FVec Ideal S16384x3072 .f32) (g be : FVec Ideal S3072 .f32) : FVec Ideal S16384x3072 .f32 :=
  addf (mulf (mulf (subf v (broadcastInDim S16384x3072 ![0, 1] bcast_S16384x1_S16384x3072_0_1 (mean3 v))) (broadcastInDim S16384x3072 ![0, 1] bcast_S16384x1_S16384x3072_0_1 (Host.rsqrt (addf (Host.divf (broadcastInDim S16384x1 ![0] bcast_S16384_S16384x1_0 (Host.reduceAdd (mulf (cen3 v) (cen3 v)) (constant S_ .f32 0x00000000#32) reducesTo_S16384x3072_S16384_d1 h_S_)) (broadcastInDim S16384x1 ![] bcast_S_S16384x1 (constant S_ .f32 0x45400000#32))) (broadcastInDim S16384x1 ![] bcast_S_S16384x1 (constant S_ .f32 0x3727C5AC#32)))))) (broadcastInDim S16384x3072 ![0, 1] bcast_S1x3072_S16384x3072_0_1 (broadcastInDim S1x3072 ![1] bcast_S3072_S1x3072_1 g))) (broadcastInDim S16384x3072 ![0, 1] bcast_S1x3072_S16384x3072_0_1 (broadcastInDim S1x3072 ![1] bcast_S3072_S1x3072_1 be))

def ln1 (v : FVec Ideal S16384x1024 .f32) (g be : FVec Ideal S1024 .f32) : FVec Ideal S16384x1024 .f32 :=
  addf (mulf (mulf (subf v (broadcastInDim S16384x1024 ![0, 1] bcast_S16384x1_S16384x1024_0_1 (mean1 v))) (broadcastInDim S16384x1024 ![0, 1] bcast_S16384x1_S16384x1024_0_1 (Host.rsqrt (addf (Host.divf (broadcastInDim S16384x1 ![0] bcast_S16384_S16384x1_0 (Host.reduceAdd (mulf (cen1 v) (cen1 v)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) (broadcastInDim S16384x1024 ![0, 1] bcast_S1x1024_S16384x1024_0_1 (broadcastInDim S1x1024 ![1] bcast_S1024_S1x1024_1 be))

theorem ln3_apply (v : FVec Ideal S16384x3072 .f32) (g be : FVec Ideal S3072 .f32) (i : Fin 16384) (j : Fin 3072) :
    ln3 v g be (ix2 i j) = ln (fun {n} => var2 (n := n)) c3072 (fun k : Fin 3072 => v (ix2 i k)) g be j :=
  ln_apply (B := 16384) (n := 3072) reducesTo_S16384x3072_S16384_d1 h_S_ bcast_S16384_S16384x1_0 bcast_S_S16384x1
    bcast_S16384x1_S16384x3072_0_1 bcast_S3072_S1x3072_1 bcast_S1x3072_S16384x3072_0_1 0x45400000#32 v g be i j

theorem ln1_apply (v : FVec Ideal S16384x1024 .f32) (g be : FVec Ideal S1024 .f32) (i : Fin 16384) (j : Fin 1024) :
    ln1 v g be (ix2 i j) = ln (fun {n} => var2 (n := n)) c1024 (fun k : Fin 1024 => v (ix2 i k)) g be j :=
  ln_apply (B := 16384) (n := 1024) reducesTo_S16384x1024_S16384_d1 h_S_ bcast_S16384_S16384x1_0 bcast_S_S16384x1
    bcast_S16384x1_S16384x1024_0_1 bcast_S1024_S1x1024_1 bcast_S1x1024_S16384x1024_0_1 0x44800000#32 v g be i j

/-! ## The gate -/

def gate3 (a b : FVec Ideal S16384x3072 .f32) : FVec Ideal S16384x3072 .f32 :=
  Host.divf (broadcastInDim S16384x3072 ![] bcast_S_S16384x3072 (constant S_ .f32 0x3F800000#32)) (addf (broadcastInDim S16384x3072 ![] bcast_S_S16384x3072 (constant S_ .f32 0x3F800000#32)) (Host.exp (Host.negf (addf a b))))

theorem gate3_apply (a b : FVec Ideal S16384x3072 .f32) (idx : S16384x3072.Idx) :
    gate3 a b idx = sigSpelt (a idx + b idx) :=
  gate_apply bcast_S_S16384x3072 a b idx

/-! ## The mixing -/

def cellT (s : FVec Ideal S16384x3072 .f32) (h xh hh Hx : FVec Ideal S16384x1024 .f32) : FVec Ideal S16384x1024 .f32 :=
  addf (mulf (addf (mulf (subf (broadcastInDim S16384x1024 ![] bcast_S_S16384x1024 (constant S_ .f32 0x3F800000#32)) (extractStridedSlice S16384x1024 ![0, 1024] s slices_S16384x3072_S16384x1024_0_1024)) h) (mulf (extractStridedSlice S16384x1024 ![0, 1024] s slices_S16384x3072_S16384x1024_0_1024) (Host.tanh (addf (mulf (subf (broadcastInDim S16384x1024 ![] bcast_S_S16384x1024 (constant S_ .f32 0x3F800000#32)) (extractStridedSlice S16384x1024 ![0, 0] s slices_S16384x3072_S16384x1024_0_0)) xh) (mulf (extractStridedSlice S16384x1024 ![0, 0] s slices_S16384x3072_S16384x1024_0_0) hh))))) (subf (broadcastInDim S16384x1024 ![] bcast_S_S16384x1024 (constant S_ .f32 0x3F800000#32)) (extractStridedSlice S16384x1024 ![0, 2048] s slices_S16384x3072_S16384x1024_0_2048))) (mulf (extractStridedSlice S16384x1024 ![0, 2048] s slices_S16384x3072_S16384x1024_0_2048) Hx)

theorem cellT_apply (s : FVec Ideal S16384x3072 .f32) (h xh hh Hx : FVec Ideal S16384x1024 .f32) (i : Fin 16384) (j : Fin 1024) :
    cellT s h xh hh Hx (ix2 i j)
      = ((one - s (ix2 i ⟨j.val + 1024, by omega⟩)) * h (ix2 i j)
          + s (ix2 i ⟨j.val + 1024, by omega⟩)
            * Ideal.tanh ((one - s (ix2 i ⟨j.val, by omega⟩)) * xh (ix2 i j) + s (ix2 i ⟨j.val, by omega⟩) * hh (ix2 i j)))
        * (one - s (ix2 i ⟨j.val + 2048, by omega⟩))
        + s (ix2 i ⟨j.val + 2048, by omega⟩) * Hx (ix2 i j) :=
  cell_apply (B := 16384) (n := 1024) (N := 3072) 1024 2048 bcast_S_S16384x1024 slices_S16384x3072_S16384x1024_0_0
    slices_S16384x3072_S16384x1024_0_1024 slices_S16384x3072_S16384x1024_0_2048 s h xh hh Hx i j _ _ _ rfl rfl rfl

/-! ## The whole cell -/

/-- The reference's result as one function of the twenty-two arrays, in the program's own spelling. -/
def refT (A : Args) : Mat 16384 1024 :=
  cellT (gate3 (ln3 (lin3 A.inp A.Wig A.big) A.gig A.beig) (ln3 (lin3 A.hid A.Whg A.bhg) A.ghg A.behg)) A.hid
    (ln1 (lin1 A.inp A.Wih A.bih) A.gih A.beih) (ln1 (lin1 A.hid A.Whh A.bhh) A.ghh A.behh)
    (ln1 (lin1 A.inp A.Wii A.bii) A.gii A.beii)

/-- Index by index the program's spelling is the specification's cell over the two-pass variance and the spelt-out
    logistic function. -/
theorem refT_eq (A : Args) : refT A = Greference A := by
  funext idx
  obtain ⟨i, j, rfl⟩ : ∃ (i : Fin 16384) (j : Fin 1024), idx = ix2 i j := ⟨idx 0, idx 1, eq_ix2 idx⟩
  show refT A (ix2 i j) = out (fun {n} => var2 (n := n)) sigSpelt A i j
  unfold refT
  rw [cellT_apply]
  simp only [gate3_apply, ln3_apply, ln1_apply, lin3_apply, lin1_apply]
  rfl

end Cert.ReferenceIdeal.RefValue

end
-- ==== Proof.RefValue.lean ====
/-
  The reference's run ends at the specification's cell.

  The generated run of the reference states that every weakly fair execution terminates with the result buffer at the
  composed term of the program's host operations applied to the argument arrays, the arguments unchanged. That term,
  with its named intermediate arrays unfolded, is `refT` of the arguments gathered as the specification's record
  (the two spell the same operations in the same order), and `refT` is `Greference` index by index.
-/
import proofs.«124813_j51427938402962_2_alg».proof.Proof.Gen.ReferenceIdeal.Run
import proofs.«124813_j51427938402962_2_alg».proof.Proof.LauArgs
import proofs.«124813_j51427938402962_2_alg».proof.Proof.RefValueTerm

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo Cert.LauSpec

set_option maxRecDepth 8192 in
/-- The result buffer's composed term, over the launch's arrays on device `c`, is the program's spelling of the cell
    over those arrays: the named intermediate arrays unfold to the same operations. -/
theorem v170_eq_refT (m' : (ℓ : Loc nD τ sig) → Buf (Elt Ideal) ℓ) (c : Dev nD) :
    val4 (launchContents m' c) (Proc.devRef .tc main_v170) = refT (rArgs m' c) :=
  (val4_main_v170 (F := Ideal) (launchContents m' c)).trans rfl

set_option maxRecDepth 8192 in
/-- Every weakly fair execution of the idealized reference terminates with the result buffer at `Greference` of the
    argument arrays, and the arguments unchanged. -/
theorem run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v170) = Cert.LauSpec.Greference (Cert.LauSpec.rArgs m' c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)) :=
  (θ_run (Cert.ReferenceIdeal.defs (F := Ideal)) _ _).mono
    (fun _ h c => ⟨(h c).1.trans (((val4_main_v170 (F := Ideal) (launchContents m' c)).symm.trans (v170_eq_refT m' c)).trans (refT_eq _)), (h c).2⟩)
    (Cert.ReferenceIdeal.Value.run (F := Ideal) m' ρ')

end Cert.ReferenceIdeal.RefValue

end
-- ==== Proof.KerBlocks.lean ====
/-
  How the sixteen blocks the body loads at one grid point sit in the twenty-two argument arrays, for one row.
  Row p of the point's activation blocks is row i of the arrays. The fused input-side weight block x2 has, in
  column c, row c of W_i2gate for c < 3072, row c − 3072 of W_i2i for 3072 ≤ c < 4096 and row c − 4096 of W_i2h
  above that (the host concatenated the transposes along the columns); its bias x3 is laid out the same way.
  The fused hidden-side block x4 has W_h2gate's rows then W_h2h's, and x5 their biases. The normalisation
  parameters x6 … x15 are the arrays themselves as one-row matrices.
-/
import proofs.«124813_j51427938402962_2_alg».proof.Proof.LauSpec

noncomputable section

namespace Cert.LauSpec

open Idealize.ShloMosaic Idealize.ShloMosaic.ValueIdx

structure BlocksOf (A : Args) (i : Fin 16384) (p : Fin 128)
    (x0 x1 : Mat 128 1024) (x2 : Mat 1024 5120) (x3 : Mat 1 5120) (x4 : Mat 1024 4096) (x5 : Mat 1 4096)
    (x6 x7 x8 x9 : Mat 1 3072) (x10 x11 x12 x13 x14 x15 : Mat 1 1024) : Prop where
  inp : ∀ k : Fin 1024, x0 (ix2 p k) = A.inp (ix2 i k)
  hid : ∀ k : Fin 1024, x1 (ix2 p k) = A.hid (ix2 i k)
  wx_ig : ∀ (k : Fin 1024) (j : Fin 3072), x2 (ix2 k (⟨j.val, by omega⟩ : Fin 5120)) = A.Wig (ix2 j k)
  wx_ii : ∀ (k : Fin 1024) (j : Fin 1024), x2 (ix2 k (⟨j.val + 3072, by omega⟩ : Fin 5120)) = A.Wii (ix2 j k)
  wx_ih : ∀ (k : Fin 1024) (j : Fin 1024), x2 (ix2 k (⟨j.val + 4096, by omega⟩ : Fin 5120)) = A.Wih (ix2 j k)
  bx_ig : ∀ j : Fin 3072, x3 (ix2 (0 : Fin 1) (⟨j.val, by omega⟩ : Fin 5120)) = A.big (ix1 j)
  bx_ii : ∀ j : Fin 1024, x3 (ix2 (0 : Fin 1) (⟨j.val + 3072, by omega⟩ : Fin 5120)) = A.bii (ix1 j)
  bx_ih : ∀ j : Fin 1024, x3 (ix2 (0 : Fin 1) (⟨j.val + 4096, by omega⟩ : Fin 5120)) = A.bih (ix1 j)
  wh_hg : ∀ (k : Fin 1024) (j : Fin 3072), x4 (ix2 k (⟨j.val, by omega⟩ : Fin 4096)) = A.Whg (ix2 j k)
  wh_hh : ∀ (k : Fin 1024) (j : Fin 1024), x4 (ix2 k (⟨j.val + 3072, by omega⟩ : Fin 4096)) = A.Whh (ix2 j k)
  bh_hg : ∀ j : Fin 3072, x5 (ix2 (0 : Fin 1) (⟨j.val, by omega⟩ : Fin 4096)) = A.bhg (ix1 j)
  bh_hh : ∀ j : Fin 1024, x5 (ix2 (0 : Fin 1) (⟨j.val + 3072, by omega⟩ : Fin 4096)) = A.bhh (ix1 j)
  gig : ∀ j : Fin 3072, x6 (ix2 (0 : Fin 1) j) = A.gig (ix1 j)
  beig : ∀ j : Fin 3072, x7 (ix2 (0 : Fin 1) j) = A.beig (ix1 j)
  ghg : ∀ j : Fin 3072, x8 (ix2 (0 : Fin 1) j) = A.ghg (ix1 j)
  behg : ∀ j : Fin 3072, x9 (ix2 (0 : Fin 1) j) = A.behg (ix1 j)
  gii : ∀ j : Fin 1024, x10 (ix2 (0 : Fin 1) j) = A.gii (ix1 j)
  beii : ∀ j : Fin 1024, x11 (ix2 (0 : Fin 1) j) = A.beii (ix1 j)
  gih : ∀ j : Fin 1024, x12 (ix2 (0 : Fin 1) j) = A.gih (ix1 j)
  beih : ∀ j : Fin 1024, x13 (ix2 (0 : Fin 1) j) = A.beih (ix1 j)
  ghh : ∀ j : Fin 1024, x14 (ix2 (0 : Fin 1) j) = A.ghh (ix1 j)
  behh : ∀ j : Fin 1024, x15 (ix2 (0 : Fin 1) j) = A.behh (ix1 j)

end Cert.LauSpec

end
-- ==== Proof.LibNary3.lean ====
/-
  A host operation of three operands printed with its operands as a literal family `![x, a, b]` (a concatenation of
  three arrays): its result holds the operation's function of the three operands' contents, each AT ITS OWN
  reference — so that a reader of a literal list of host operations can go on reading each operand's contents.
  `host_results` reads a goal `after ops V r = …` over such a list, operation by operation, outermost first.
-/
import Idealize.ShloMosaic.Lib.StableHlo.Run

noncomputable section

namespace Idealize.ShloMosaic.StableHlo

variable {τ : Topo} {sig : RefSig} {Val : EltTy → Type}
variable {x a b y : Ref sig .tc}

/-- The three-operand form of the library's four-operand lemma: the operands' contents as a literal `Fin.cons` chain. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Reads `after ops V r` for a literal list of host operations, three-operand ones included. -/
macro "host_results" : tactic =>
  `(tactic| (simp only [after_cons, after_nil]
             repeat (first
               | rw [nullary_result] | rw [unary_result] | rw [binary_result] | rw [ternary_result] | rw [quaternary_result]
               | rw [reshape_result] | rw [nary3_result] | rw [nary4_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Idealize.ShloMosaic.StableHlo

end
-- ==== Proof.LibConcatParts.lean ====
/-
  Concatenations read piece by piece, over generic extents.

  * Three matrices with the same rows set side by side along the column axis: at (p, k) the result is the first at
    (p, k) for k below its width, the second at (p, k − b₁) for k in the next b₂ columns, the third at
    (p, k − b₁ − b₂) above that.
  * Three vectors, and two vectors, laid end to end: the same reading along the one axis.
-/
import Idealize.ShloMosaic.Lib.Pipeline.Value
import Idealize.ShloMosaic.Lib.ValueIdx

noncomputable section

open Idealize.ShloMosaic Idealize.ShloMosaic.ValueIdx

namespace KerHostLayout

variable {α : Type}

/-! ## Three matrices side by side -/

section Cols3
variable {a b₁ b₂ b₃ b : ℕ} (x₁ : (⟨2, ![a, b₁]⟩ : Shape).Idx → α) (x₂ : (⟨2, ![a, b₂]⟩ : Shape).Idx → α)
  (x₃ : (⟨2, ![a, b₃]⟩ : Shape).Idx → α)
  (h : Shape.Concatenates [(⟨2, ![a, b₁]⟩ : Shape), ⟨2, ![a, b₂]⟩, ⟨2, ![a, b₃]⟩] ⟨2, ![a, b]⟩ 1)

/-- `[x₁ | x₂ | x₃]` read at a column of the first part. -/
theorem concat3_cols_fst (p : Fin a) (k : Fin b) (q : Fin b₁) (hq : q.val = k.val) :
    concatenate ⟨2, ![a, b]⟩ 1 [⟨⟨2, ![a, b₁]⟩, x₁⟩, ⟨⟨2, ![a, b₂]⟩, x₂⟩, ⟨⟨2, ![a, b₃]⟩, x₃⟩] h (ix2 p k) = x₁ (ix2 p q) :=
  concatenate_apply_piece 1 [⟨⟨2, ![a, b₁]⟩, x₁⟩, ⟨⟨2, ![a, b₂]⟩, x₂⟩, ⟨⟨2, ![a, b₃]⟩, x₃⟩] h (ix2 p k) 0 (by show 0 < 3; omega)
    ⟨2, ![a, b₁]⟩ x₁ rfl rfl 0 rfl (ix2 p q)
    (fun c hc => by
      match c with
      | ⟨0, _⟩ => rfl
      | ⟨1, _⟩ => exact absurd rfl hc)
    (by show 0 + q.val = k.val; omega)

/-- `[x₁ | x₂ | x₃]` read at a column of the second part. -/
theorem concat3_cols_snd (p : Fin a) (k : Fin b) (q : Fin b₂) (hq : b₁ + q.val = k.val) :
    concatenate ⟨2, ![a, b]⟩ 1 [⟨⟨2, ![a, b₁]⟩, x₁⟩, ⟨⟨2, ![a, b₂]⟩, x₂⟩, ⟨⟨2, ![a, b₃]⟩, x₃⟩] h (ix2 p k) = x₂ (ix2 p q) :=
  concatenate_apply_piece 1 [⟨⟨2, ![a, b₁]⟩, x₁⟩, ⟨⟨2, ![a, b₂]⟩, x₂⟩, ⟨⟨2, ![a, b₃]⟩, x₃⟩] h (ix2 p k) 1 (by show 1 < 3; omega)
    ⟨2, ![a, b₂]⟩ x₂ rfl rfl b₁ (by simp) (ix2 p q)
    (fun c hc => by
      match c with
      | ⟨0, _⟩ => rfl
      | ⟨1, _⟩ => exact absurd rfl hc)
    (by show b₁ + q.val = k.val; omega)

/-- `[x₁ | x₂ | x₃]` read at a column of the third part. -/
theorem concat3_cols_trd (p : Fin a) (k : Fin b) (q : Fin b₃) (hq : b₁ + b₂ + q.val = k.val) :
    concatenate ⟨2, ![a, b]⟩ 1 [⟨⟨2, ![a, b₁]⟩, x₁⟩, ⟨⟨2, ![a, b₂]⟩, x₂⟩, ⟨⟨2, ![a, b₃]⟩, x₃⟩] h (ix2 p k) = x₃ (ix2 p q) :=
  concatenate_apply_piece 1 [⟨⟨2, ![a, b₁]⟩, x₁⟩, ⟨⟨2, ![a, b₂]⟩, x₂⟩, ⟨⟨2, ![a, b₃]⟩, x₃⟩] h (ix2 p k) 2 (by show 2 < 3; omega)
    ⟨2, ![a, b₃]⟩ x₃ rfl rfl (b₁ + b₂) (by simp) (ix2 p q)
    (fun c hc => by
      match c with
      | ⟨0, _⟩ => rfl
      | ⟨1, _⟩ => exact absurd rfl hc)
    (by show b₁ + b₂ + q.val = k.val; omega)

end Cols3

/-! ## Two matrices side by side -/

section Cols2
variable {a b₁ b₂ b : ℕ} (x₁ : (⟨2, ![a, b₁]⟩ : Shape).Idx → α) (x₂ : (⟨2, ![a, b₂]⟩ : Shape).Idx → α)
  (h : Shape.Concatenates [(⟨2, ![a, b₁]⟩ : Shape), ⟨2, ![a, b₂]⟩] ⟨2, ![a, b]⟩ 1)

/-- `[x₁ | x₂]` read at a column of the first part. -/
theorem concat2_cols_fst (p : Fin a) (k : Fin b) (q : Fin b₁) (hq : q.val = k.val) :
    concatenate ⟨2, ![a, b]⟩ 1 [⟨⟨2, ![a, b₁]⟩, x₁⟩, ⟨⟨2, ![a, b₂]⟩, x₂⟩] h (ix2 p k) = x₁ (ix2 p q) :=
  concatenate_apply_piece 1 [⟨⟨2, ![a, b₁]⟩, x₁⟩, ⟨⟨2, ![a, b₂]⟩, x₂⟩] h (ix2 p k) 0 (by show 0 < 2; omega)
    ⟨2, ![a, b₁]⟩ x₁ rfl rfl 0 rfl (ix2 p q)
    (fun c hc => by
      match c with
      | ⟨0, _⟩ => rfl
      | ⟨1, _⟩ => exact absurd rfl hc)
    (by show 0 + q.val = k.val; omega)

/-- `[x₁ | x₂]` read at a column of the second part. -/
theorem concat2_cols_snd (p : Fin a) (k : Fin b) (q : Fin b₂) (hq : b₁ + q.val = k.val) :
    concatenate ⟨2, ![a, b]⟩ 1 [⟨⟨2, ![a, b₁]⟩, x₁⟩, ⟨⟨2, ![a, b₂]⟩, x₂⟩] h (ix2 p k) = x₂ (ix2 p q) :=
  concatenate_apply_piece 1 [⟨⟨2, ![a, b₁]⟩, x₁⟩, ⟨⟨2, ![a, b₂]⟩, x₂⟩] h (ix2 p k) 1 (by show 1 < 2; omega)
    ⟨2, ![a, b₂]⟩ x₂ rfl rfl b₁ (by simp) (ix2 p q)
    (fun c hc => by
      match c with
      | ⟨0, _⟩ => rfl
      | ⟨1, _⟩ => exact absurd rfl hc)
    (by show b₁ + q.val = k.val; omega)

end Cols2

/-! ## Three vectors end to end -/

section Vec3
variable {b₁ b₂ b₃ b : ℕ} (x₁ : (⟨1, ![b₁]⟩ : Shape).Idx → α) (x₂ : (⟨1, ![b₂]⟩ : Shape).Idx → α)
  (x₃ : (⟨1, ![b₃]⟩ : Shape).Idx → α)
  (h : Shape.Concatenates [(⟨1, ![b₁]⟩ : Shape), ⟨1, ![b₂]⟩, ⟨1, ![b₃]⟩] ⟨1, ![b]⟩ 0)

theorem concat3_vec_fst (k : Fin b) (q : Fin b₁) (hq : q.val = k.val) :
    concatenate ⟨1, ![b]⟩ 0 [⟨⟨1, ![b₁]⟩, x₁⟩, ⟨⟨1, ![b₂]⟩, x₂⟩, ⟨⟨1, ![b₃]⟩, x₃⟩] h (ix1 k) = x₁ (ix1 q) :=
  concatenate_apply_piece 0 [⟨⟨1, ![b₁]⟩, x₁⟩, ⟨⟨1, ![b₂]⟩, x₂⟩, ⟨⟨1, ![b₃]⟩, x₃⟩] h (ix1 k) 0 (by show 0 < 3; omega)
    ⟨1, ![b₁]⟩ x₁ rfl rfl 0 rfl (ix1 q)
    (fun c hc => by
      match c with
      | ⟨0, _⟩ => exact absurd rfl hc)
    (by show 0 + q.val = k.val; omega)

theorem concat3_vec_snd (k : Fin b) (q : Fin b₂) (hq : b₁ + q.val = k.val) :
    concatenate ⟨1, ![b]⟩ 0 [⟨⟨1, ![b₁]⟩, x₁⟩, ⟨⟨1, ![b₂]⟩, x₂⟩, ⟨⟨1, ![b₃]⟩, x₃⟩] h (ix1 k) = x₂ (ix1 q) :=
  concatenate_apply_piece 0 [⟨⟨1, ![b₁]⟩, x₁⟩, ⟨⟨1, ![b₂]⟩, x₂⟩, ⟨⟨1, ![b₃]⟩, x₃⟩] h (ix1 k) 1 (by show 1 < 3; omega)
    ⟨1, ![b₂]⟩ x₂ rfl rfl b₁ (by simp) (ix1 q)
    (fun c hc => by
      match c with
      | ⟨0, _⟩ => exact absurd rfl hc)
    (by show b₁ + q.val = k.val; omega)

theorem concat3_vec_trd (k : Fin b) (q : Fin b₃) (hq : b₁ + b₂ + q.val = k.val) :
    concatenate ⟨1, ![b]⟩ 0 [⟨⟨1, ![b₁]⟩, x₁⟩, ⟨⟨1, ![b₂]⟩, x₂⟩, ⟨⟨1, ![b₃]⟩, x₃⟩] h (ix1 k) = x₃ (ix1 q) :=
  concatenate_apply_piece 0 [⟨⟨1, ![b₁]⟩, x₁⟩, ⟨⟨1, ![b₂]⟩, x₂⟩, ⟨⟨1, ![b₃]⟩, x₃⟩] h (ix1 k) 2 (by show 2 < 3; omega)
    ⟨1, ![b₃]⟩ x₃ rfl rfl (b₁ + b₂) (by simp) (ix1 q)
    (fun c hc => by
      match c with
      | ⟨0, _⟩ => exact absurd rfl hc)
    (by show b₁ + b₂ + q.val = k.val; omega)

end Vec3

/-! ## Two vectors end to end -/

section Vec2
variable {b₁ b₂ b : ℕ} (x₁ : (⟨1, ![b₁]⟩ : Shape).Idx → α) (x₂ : (⟨1, ![b₂]⟩ : Shape).Idx → α)
  (h : Shape.Concatenates [(⟨1, ![b₁]⟩ : Shape), ⟨1, ![b₂]⟩] ⟨1, ![b]⟩ 0)

theorem concat2_vec_fst (k : Fin b) (q : Fin b₁) (hq : q.val = k.val) :
    concatenate ⟨1, ![b]⟩ 0 [⟨⟨1, ![b₁]⟩, x₁⟩, ⟨⟨1, ![b₂]⟩, x₂⟩] h (ix1 k) = x₁ (ix1 q) :=
  concatenate_apply_piece 0 [⟨⟨1, ![b₁]⟩, x₁⟩, ⟨⟨1, ![b₂]⟩, x₂⟩] h (ix1 k) 0 (by show 0 < 2; omega)
    ⟨1, ![b₁]⟩ x₁ rfl rfl 0 rfl (ix1 q)
    (fun c hc => by
      match c with
      | ⟨0, _⟩ => exact absurd rfl hc)
    (by show 0 + q.val = k.val; omega)

theorem concat2_vec_snd (k : Fin b) (q : Fin b₂) (hq : b₁ + q.val = k.val) :
    concatenate ⟨1, ![b]⟩ 0 [⟨⟨1, ![b₁]⟩, x₁⟩, ⟨⟨1, ![b₂]⟩, x₂⟩] h (ix1 k) = x₂ (ix1 q) :=
  concatenate_apply_piece 0 [⟨⟨1, ![b₁]⟩, x₁⟩, ⟨⟨1, ![b₂]⟩, x₂⟩] h (ix1 k) 1 (by show 1 < 2; omega)
    ⟨1, ![b₂]⟩ x₂ rfl rfl b₁ (by simp) (ix1 q)
    (fun c hc => by
      match c with
      | ⟨0, _⟩ => exact absurd rfl hc)
    (by show b₁ + q.val = k.val; omega)

end Vec2

end KerHostLayout

end
-- ==== Proof.KerHostArrays.lean ====
/-
  The arrays the region is handed, as functions of the launched argument arrays, and each read at an index.

  Before the region the program lays the weights out for the kernel: W_i2gate, W_i2i, W_i2h are transposed, set side by
  side along the columns and narrowed to the matrix unit's operand format (at the ideal values the narrowing changes
  nothing); W_h2gate and W_h2h likewise; the three input-side biases, and the two hidden-side ones, are laid end to end
  and cast to a one-row matrix; each normalisation parameter is cast to a one-row matrix.
-/
import proofs.«124813_j51427938402962_2_alg».proof.Proof.FrameKI
import proofs.«124813_j51427938402962_2_alg».proof.Proof.LibNary3
import proofs.«124813_j51427938402962_2_alg».proof.Proof.LibConcatParts
import Idealize.ShloMosaic.PureOps.Ideal
import Idealize.ShloMosaic.Lib.Pipeline.Value
import Idealize.ShloMosaic.Lib.ValueLayout

noncomputable section

namespace Cert.KernelIdeal.KHost

open Cert.KernelIdeal Cert.KernelIdeal.Gen Cert.KernelIdeal.HFrame
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-! ## The staged arrays as terms of the launched arrays -/

set_option maxHeartbeats 2000000 in
/-- The fused input-side weights. -/
theorem V_v4 : (V m c main_v4 : S1024x5120.Idx → EReal)
    = (truncf (F := Ideal) .bf16 (concatenate S1024x5120 1 [⟨S1024x3072, transpose S1024x3072 [1, 0] (m (c, Proc.devRef .tc main_arg2) : S3072x1024.Idx → EReal) transposes_S3072x1024_S1024x3072_1_0⟩, ⟨S1024x1024, transpose S1024x1024 [1, 0] (m (c, Proc.devRef .tc main_arg6) : S1024x1024.Idx → EReal) transposes_S1024x1024_S1024x1024_1_0⟩, ⟨S1024x1024, transpose S1024x1024 [1, 0] (m (c, Proc.devRef .tc main_arg8) : S1024x1024.Idx → EReal) transposes_S1024x1024_S1024x1024_1_0⟩] concatenates_S1024x3072_S1024x1024_S1024x1024_S1024x5120_d1) bitsLt_bf16_f32 : S1024x5120.Idx → EReal) := by
  dsimp only [V, hostOps0]
  host_results
  all_goals rfl

set_option maxHeartbeats 2000000 in
/-- The fused hidden-side weights. -/
theorem V_v8 : (V m c main_v8 : S1024x4096.Idx → EReal)
    = (truncf (F := Ideal) .bf16 (concatenate S1024x4096 1 [⟨S1024x3072, transpose S1024x3072 [1, 0] (m (c, Proc.devRef .tc main_arg4) : S3072x1024.Idx → EReal) transposes_S3072x1024_S1024x3072_1_0⟩, ⟨S1024x1024, transpose S1024x1024 [1, 0] (m (c, Proc.devRef .tc main_arg10) : S1024x1024.Idx → EReal) transposes_S1024x1024_S1024x1024_1_0⟩] concatenates_S1024x3072_S1024x1024_S1024x4096_d1) bitsLt_bf16_f32 : S1024x4096.Idx → EReal) := by
  dsimp only [V, hostOps0]
  host_results
  all_goals rfl

set_option maxHeartbeats 2000000 in
/-- The fused input-side biases, as one row. -/
theorem V_v10 : (V m c main_v10 : S1x5120.Idx → EReal)
    = shapeCast S1x5120 (concatenate S5120 0 [⟨S3072, (m (c, Proc.devRef .tc main_arg3) : S3072.Idx → EReal)⟩, ⟨S1024, (m (c, Proc.devRef .tc main_arg7) : S1024.Idx → EReal)⟩, ⟨S1024, (m (c, Proc.devRef .tc main_arg9) : S1024.Idx → EReal)⟩] concatenates_S3072_S1024_S1024_S5120_d0) shapeCasts_S5120_S1x5120 := by
  dsimp only [V, hostOps0]
  host_results
  all_goals rfl

set_option maxHeartbeats 2000000 in
/-- The fused hidden-side biases, as one row. -/
theorem V_v12 : (V m c main_v12 : S1x4096.Idx → EReal)
    = shapeCast S1x4096 (concatenate S4096 0 [⟨S3072, (m (c, Proc.devRef .tc main_arg5) : S3072.Idx → EReal)⟩, ⟨S1024, (m (c, Proc.devRef .tc main_arg11) : S1024.Idx → EReal)⟩] concatenates_S3072_S1024_S4096_d0) shapeCasts_S4096_S1x4096 := by
  dsimp only [V, hostOps0]
  host_results
  all_goals rfl

set_option maxHeartbeats 2000000 in
theorem V_v13 : (V m c main_v13 : S1x3072.Idx → EReal) = shapeCast S1x3072 (m (c, Proc.devRef .tc main_arg12) : S3072.Idx → EReal) shapeCasts_S3072_S1x3072 := by
  dsimp only [V, hostOps0]
  host_results
  all_goals rfl

set_option maxHeartbeats 2000000 in
theorem V_v14 : (V m c main_v14 : S1x3072.Idx → EReal) = shapeCast S1x3072 (m (c, Proc.devRef .tc main_arg13) : S3072.Idx → EReal) shapeCasts_S3072_S1x3072 := by
  dsimp only [V, hostOps0]
  host_results
  all_goals rfl

set_option maxHeartbeats 2000000 in
theorem V_v15 : (V m c main_v15 : S1x3072.Idx → EReal) = shapeCast S1x3072 (m (c, Proc.devRef .tc main_arg14) : S3072.Idx → EReal) shapeCasts_S3072_S1x3072 := by
  dsimp only [V, hostOps0]
  host_results
  all_goals rfl

set_option maxHeartbeats 2000000 in
theorem V_v16 : (V m c main_v16 : S1x3072.Idx → EReal) = shapeCast S1x3072 (m (c, Proc.devRef .tc main_arg15) : S3072.Idx → EReal) shapeCasts_S3072_S1x3072 := by
  dsimp only [V, hostOps0]
  host_results
  all_goals rfl

set_option maxHeartbeats 2000000 in
theorem V_v17 : (V m c main_v17 : S1x1024.Idx → EReal) = shapeCast S1x1024 (m (c, Proc.devRef .tc main_arg16) : S1024.Idx → EReal) shapeCasts_S1024_S1x1024 := by
  dsimp only [V, hostOps0]
  host_results
  all_goals rfl

set_option maxHeartbeats 2000000 in
theorem V_v18 : (V m c main_v18 : S1x1024.Idx → EReal) = shapeCast S1x1024 (m (c, Proc.devRef .tc main_arg17) : S1024.Idx → EReal) shapeCasts_S1024_S1x1024 := by
  dsimp only [V, hostOps0]
  host_results
  all_goals rfl

set_option maxHeartbeats 2000000 in
theorem V_v19 : (V m c main_v19 : S1x1024.Idx → EReal) = shapeCast S1x1024 (m (c, Proc.devRef .tc main_arg18) : S1024.Idx → EReal) shapeCasts_S1024_S1x1024 := by
  dsimp only [V, hostOps0]
  host_results
  all_goals rfl

set_option maxHeartbeats 2000000 in
theorem V_v20 : (V m c main_v20 : S1x1024.Idx → EReal) = shapeCast S1x1024 (m (c, Proc.devRef .tc main_arg19) : S1024.Idx → EReal) shapeCasts_S1024_S1x1024 := by
  dsimp only [V, hostOps0]
  host_results
  all_goals rfl

set_option maxHeartbeats 2000000 in
theorem V_v21 : (V m c main_v21 : S1x1024.Idx → EReal) = shapeCast S1x1024 (m (c, Proc.devRef .tc main_arg20) : S1024.Idx → EReal) shapeCasts_S1024_S1x1024 := by
  dsimp only [V, hostOps0]
  host_results
  all_goals rfl

set_option maxHeartbeats 2000000 in
theorem V_v22 : (V m c main_v22 : S1x1024.Idx → EReal) = shapeCast S1x1024 (m (c, Proc.devRef .tc main_arg21) : S1024.Idx → EReal) shapeCasts_S1024_S1x1024 := by
  dsimp only [V, hostOps0]
  host_results
  all_goals rfl

end Cert.KernelIdeal.KHost

end
-- ==== Proof.KerHostReads.lean ====
/-
  The staged arrays read at an index: each column block of the fused weights is a weight matrix's rows, each stretch of
  the fused biases a bias vector, each normalisation parameter's one row the parameter.
-/
import proofs.«124813_j51427938402962_2_alg».proof.Proof.KerHostArrays

noncomputable section

namespace Cert.KernelIdeal.KHost

open Cert.KernelIdeal Cert.KernelIdeal.Gen Cert.KernelIdeal.HFrame
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-! ## The fused weights, column block by column block -/

/-- Columns 0 … 3071 of the input-side block are W_i2gate's rows. -/
theorem v4_ig (k : Fin 1024) (j : Fin 3072) :
    (V m c main_v4 : S1024x5120.Idx → EReal) (ix2 k (⟨j.val, by omega⟩ : Fin 5120)) = (m (c, Proc.devRef .tc main_arg2) : S3072x1024.Idx → EReal) (ix2 j k) := by
  rw [V_v4, truncf_apply, KerHostLayout.concat3_cols_fst _ _ _ _ k (⟨j.val, by omega⟩ : Fin 5120) j rfl, transpose_ix2_apply]

/-- Columns 3072 … 4095 of the input-side block are W_i2i's rows. -/
theorem v4_ii (k : Fin 1024) (j : Fin 1024) :
    (V m c main_v4 : S1024x5120.Idx → EReal) (ix2 k (⟨j.val + 3072, by omega⟩ : Fin 5120)) = (m (c, Proc.devRef .tc main_arg6) : S1024x1024.Idx → EReal) (ix2 j k) := by
  rw [V_v4, truncf_apply, KerHostLayout.concat3_cols_snd _ _ _ _ k (⟨j.val + 3072, by omega⟩ : Fin 5120) j (Nat.add_comm _ _), transpose_ix2_apply]

/-- Columns 4096 … 5119 of the input-side block are W_i2h's rows. -/
theorem v4_ih (k : Fin 1024) (j : Fin 1024) :
    (V m c main_v4 : S1024x5120.Idx → EReal) (ix2 k (⟨j.val + 4096, by omega⟩ : Fin 5120)) = (m (c, Proc.devRef .tc main_arg8) : S1024x1024.Idx → EReal) (ix2 j k) := by
  rw [V_v4, truncf_apply, KerHostLayout.concat3_cols_trd _ _ _ _ k (⟨j.val + 4096, by omega⟩ : Fin 5120) j (by show 3072 + 1024 + j.val = j.val + 4096; omega), transpose_ix2_apply]

/-- Columns 0 … 3071 of the hidden-side block are W_h2gate's rows. -/
theorem v8_hg (k : Fin 1024) (j : Fin 3072) :
    (V m c main_v8 : S1024x4096.Idx → EReal) (ix2 k (⟨j.val, by omega⟩ : Fin 4096)) = (m (c, Proc.devRef .tc main_arg4) : S3072x1024.Idx → EReal) (ix2 j k) := by
  rw [V_v8, truncf_apply, KerHostLayout.concat2_cols_fst _ _ _ k (⟨j.val, by omega⟩ : Fin 4096) j rfl, transpose_ix2_apply]

/-- Columns 3072 … 4095 of the hidden-side block are W_h2h's rows. -/
theorem v8_hh (k : Fin 1024) (j : Fin 1024) :
    (V m c main_v8 : S1024x4096.Idx → EReal) (ix2 k (⟨j.val + 3072, by omega⟩ : Fin 4096)) = (m (c, Proc.devRef .tc main_arg10) : S1024x1024.Idx → EReal) (ix2 j k) := by
  rw [V_v8, truncf_apply, KerHostLayout.concat2_cols_snd _ _ _ k (⟨j.val + 3072, by omega⟩ : Fin 4096) j (Nat.add_comm _ _), transpose_ix2_apply]

/-! ## The fused biases -/

theorem v10_ig (j : Fin 3072) :
    (V m c main_v10 : S1x5120.Idx → EReal) (ix2 (0 : Fin 1) (⟨j.val, by omega⟩ : Fin 5120)) = (m (c, Proc.devRef .tc main_arg3) : S3072.Idx → EReal) (ix1 j) := by
  rw [V_v10, shapeCast_a_1a_apply, KerHostLayout.concat3_vec_fst _ _ _ _ (⟨j.val, by omega⟩ : Fin 5120) j rfl]

theorem v10_ii (j : Fin 1024) :
    (V m c main_v10 : S1x5120.Idx → EReal) (ix2 (0 : Fin 1) (⟨j.val + 3072, by omega⟩ : Fin 5120)) = (m (c, Proc.devRef .tc main_arg7) : S1024.Idx → EReal) (ix1 j) := by
  rw [V_v10, shapeCast_a_1a_apply, KerHostLayout.concat3_vec_snd _ _ _ _ (⟨j.val + 3072, by omega⟩ : Fin 5120) j (Nat.add_comm _ _)]

theorem v10_ih (j : Fin 1024) :
    (V m c main_v10 : S1x5120.Idx → EReal) (ix2 (0 : Fin 1) (⟨j.val + 4096, by omega⟩ : Fin 5120)) = (m (c, Proc.devRef .tc main_arg9) : S1024.Idx → EReal) (ix1 j) := by
  rw [V_v10, shapeCast_a_1a_apply, KerHostLayout.concat3_vec_trd _ _ _ _ (⟨j.val + 4096, by omega⟩ : Fin 5120) j (by show 3072 + 1024 + j.val = j.val + 4096; omega)]

theorem v12_hg (j : Fin 3072) :
    (V m c main_v12 : S1x4096.Idx → EReal) (ix2 (0 : Fin 1) (⟨j.val, by omega⟩ : Fin 4096)) = (m (c, Proc.devRef .tc main_arg5) : S3072.Idx → EReal) (ix1 j) := by
  rw [V_v12, shapeCast_a_1a_apply, KerHostLayout.concat2_vec_fst _ _ _ (⟨j.val, by omega⟩ : Fin 4096) j rfl]

theorem v12_hh (j : Fin 1024) :
    (V m c main_v12 : S1x4096.Idx → EReal) (ix2 (0 : Fin 1) (⟨j.val + 3072, by omega⟩ : Fin 4096)) = (m (c, Proc.devRef .tc main_arg11) : S1024.Idx → EReal) (ix1 j) := by
  rw [V_v12, shapeCast_a_1a_apply, KerHostLayout.concat2_vec_snd _ _ _ (⟨j.val + 3072, by omega⟩ : Fin 4096) j (Nat.add_comm _ _)]

/-! ## The normalisation parameters -/

theorem v13_row (j : Fin 3072) : (V m c main_v13 : S1x3072.Idx → EReal) (ix2 (0 : Fin 1) j) = (m (c, Proc.devRef .tc main_arg12) : S3072.Idx → EReal) (ix1 j) := by
  rw [V_v13, shapeCast_a_1a_apply]

theorem v14_row (j : Fin 3072) : (V m c main_v14 : S1x3072.Idx → EReal) (ix2 (0 : Fin 1) j) = (m (c, Proc.devRef .tc main_arg13) : S3072.Idx → EReal) (ix1 j) := by
  rw [V_v14, shapeCast_a_1a_apply]

theorem v15_row (j : Fin 3072) : (V m c main_v15 : S1x3072.Idx → EReal) (ix2 (0 : Fin 1) j) = (m (c, Proc.devRef .tc main_arg14) : S3072.Idx → EReal) (ix1 j) := by
  rw [V_v15, shapeCast_a_1a_apply]

theorem v16_row (j : Fin 3072) : (V m c main_v16 : S1x3072.Idx → EReal) (ix2 (0 : Fin 1) j) = (m (c, Proc.devRef .tc main_arg15) : S3072.Idx → EReal) (ix1 j) := by
  rw [V_v16, shapeCast_a_1a_apply]

theorem v17_row (j : Fin 1024) : (V m c main_v17 : S1x1024.Idx → EReal) (ix2 (0 : Fin 1) j) = (m (c, Proc.devRef .tc main_arg16) : S1024.Idx → EReal) (ix1 j) := by
  rw [V_v17, shapeCast_a_1a_apply]

theorem v18_row (j : Fin 1024) : (V m c main_v18 : S1x1024.Idx → EReal) (ix2 (0 : Fin 1) j) = (m (c, Proc.devRef .tc main_arg17) : S1024.Idx → EReal) (ix1 j) := by
  rw [V_v18, shapeCast_a_1a_apply]

theorem v19_row (j : Fin 1024) : (V m c main_v19 : S1x1024.Idx → EReal) (ix2 (0 : Fin 1) j) = (m (c, Proc.devRef .tc main_arg18) : S1024.Idx → EReal) (ix1 j) := by
  rw [V_v19, shapeCast_a_1a_apply]

theorem v20_row (j : Fin 1024) : (V m c main_v20 : S1x1024.Idx → EReal) (ix2 (0 : Fin 1) j) = (m (c, Proc.devRef .tc main_arg19) : S1024.Idx → EReal) (ix1 j) := by
  rw [V_v20, shapeCast_a_1a_apply]

theorem v21_row (j : Fin 1024) : (V m c main_v21 : S1x1024.Idx → EReal) (ix2 (0 : Fin 1) j) = (m (c, Proc.devRef .tc main_arg20) : S1024.Idx → EReal) (ix1 j) := by
  rw [V_v21, shapeCast_a_1a_apply]

theorem v22_row (j : Fin 1024) : (V m c main_v22 : S1x1024.Idx → EReal) (ix2 (0 : Fin 1) j) = (m (c, Proc.devRef .tc main_arg21) : S1024.Idx → EReal) (ix1 j) := by
  rw [V_v22, shapeCast_a_1a_apply]

end Cert.KernelIdeal.KHost

end
-- ==== Proof.KerHost.lean ====
/-
  The sixteen blocks the body loads at a grid point, in the launched argument arrays.

  At point t the two activation windows hold rows 128·t … 128·t + 127 of the activations, and every other input
  window holds the whole of its array, whatever the point. With the arrays' readings at an index this gives, for
  row p of the point, the specification's `BlocksOf` at row 128·t + p.
-/
import proofs.«124813_j51427938402962_2_alg».proof.Proof.KerHostReads
import proofs.«124813_j51427938402962_2_alg».proof.Proof.KerBlocks
import proofs.«124813_j51427938402962_2_alg».proof.Proof.LauArgs

noncomputable section

namespace Cert.KernelIdeal.KHost

open Cert.KernelIdeal Cert.KernelIdeal.Gen Cert.KernelIdeal.HFrame
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-! ## The windows' block indices -/

/-- The printed index maps, decided over the grid: the activations' block row is the point, every other block index
    is zero. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = 0
    ∧ win0_15.index t (1 : Fin 2) = 0 :=
  (by decide +kernel : ∀ t : Fin grid0.N, _)

/-! ## The blocks read at an index -/

/-- Row p of the first activation's block at point t is row 128·t + p of the activation. -/
theorem iblk0_apply (t : Fin cfg0.N) (p : Fin 128) (k : Fin 1024) (hi : t.val * 128 + p.val < 16384) :
    (iblk m c 0 t : S128x1024.Idx → EReal) (ix2 p k)
      = (m ((c.tc : Thread nD τ).loc main_arg0) : S16384x1024.Idx → EReal) (ix2 ⟨t.val * 128 + p.val, hi⟩ k) := by
  rw [← V_main_arg0 m c]
  show (V m c main_arg0 : S16384x1024.Idx → EReal) (((cfg0.win 0).blk t).view.emb (ix2 p k)) = _
  congr 1; funext a; apply Fin.ext
  match a with
  | ⟨0, _⟩ =>
    show win0_0.index t (0 : Fin 2) * 128 + 1 * p.val = t.val * 128 + p.val
    rw [(idx_facts t).1]; omega
  | ⟨1, _⟩ =>
    show win0_0.index t (1 : Fin 2) * 1024 + 1 * k.val = k.val
    rw [(idx_facts t).2.1]; omega

/-- Row p of the second activation's block at point t is row 128·t + p of the activation. -/
theorem iblk1_apply (t : Fin cfg0.N) (p : Fin 128) (k : Fin 1024) (hi : t.val * 128 + p.val < 16384) :
    (iblk m c 1 t : S128x1024.Idx → EReal) (ix2 p k)
      = (m ((c.tc : Thread nD τ).loc main_arg1) : S16384x1024.Idx → EReal) (ix2 ⟨t.val * 128 + p.val, hi⟩ k) := by
  rw [← V_main_arg1 m c]
  show (V m c main_arg1 : S16384x1024.Idx → EReal) (((cfg0.win 1).blk t).view.emb (ix2 p k)) = _
  congr 1; funext a; apply Fin.ext
  match a with
  | ⟨0, _⟩ =>
    show win0_1.index t (0 : Fin 2) * 128 + 1 * p.val = t.val * 128 + p.val
    rw [(idx_facts t).2.2.1]; omega
  | ⟨1, _⟩ =>
    show win0_1.index t (1 : Fin 2) * 1024 + 1 * k.val = k.val
    rw [(idx_facts t).2.2.2.1]; omega

/-- Window 2's block is the whole of its array at every point. -/
theorem iblk2_apply (t : Fin cfg0.N) (y : S1024x5120.Idx) :
    (iblk m c 2 t : S1024x5120.Idx → EReal) y = (V m c main_v4 : S1024x5120.Idx → EReal) y := by
  show (V m c main_v4 : S1024x5120.Idx → EReal) (((cfg0.win 2).blk t).view.emb y) = _
  congr 1; funext a; apply Fin.ext
  match a with
  | ⟨0, _⟩ =>
    show win0_2.index t (0 : Fin 2) * 1024 + 1 * (y 0).val = (y 0).val
    rw [(idx_facts t).2.2.2.2.1]; omega
  | ⟨1, _⟩ =>
    show win0_2.index t (1 : Fin 2) * 5120 + 1 * (y 1).val = (y 1).val
    rw [(idx_facts t).2.2.2.2.2.1]; omega

/-- Window 3's block is the whole of its array at every point. -/
theorem iblk3_apply (t : Fin cfg0.N) (y : S1x5120.Idx) :
    (iblk m c 3 t : S1x5120.Idx → EReal) y = (V m c main_v10 : S1x5120.Idx → EReal) y := by
  show (V m c main_v10 : S1x5120.Idx → EReal) (((cfg0.win 3).blk t).view.emb y) = _
  congr 1; funext a; apply Fin.ext
  match a with
  | ⟨0, _⟩ =>
    show win0_3.index t (0 : Fin 2) * 1 + 1 * (y 0).val = (y 0).val
    rw [(idx_facts t).2.2.2.2.2.2.1]; omega
  | ⟨1, _⟩ =>
    show win0_3.index t (1 : Fin 2) * 5120 + 1 * (y 1).val = (y 1).val
    rw [(idx_facts t).2.2.2.2.2.2.2.1]; omega

/-- Window 4's block is the whole of its array at every point. -/
theorem iblk4_apply (t : Fin cfg0.N) (y : S1024x4096.Idx) :
    (iblk m c 4 t : S1024x4096.Idx → EReal) y = (V m c main_v8 : S1024x4096.Idx → EReal) y := by
  show (V m c main_v8 : S1024x4096.Idx → EReal) (((cfg0.win 4).blk t).view.emb y) = _
  congr 1; funext a; apply Fin.ext
  match a with
  | ⟨0, _⟩ =>
    show win0_4.index t (0 : Fin 2) * 1024 + 1 * (y 0).val = (y 0).val
    rw [(idx_facts t).2.2.2.2.2.2.2.2.1]; omega
  | ⟨1, _⟩ =>
    show win0_4.index t (1 : Fin 2) * 4096 + 1 * (y 1).val = (y 1).val
    rw [(idx_facts t).2.2.2.2.2.2.2.2.2.1]; omega

/-- Window 5's block is the whole of its array at every point. -/
theorem iblk5_apply (t : Fin cfg0.N) (y : S1x4096.Idx) :
    (iblk m c 5 t : S1x4096.Idx → EReal) y = (V m c main_v12 : S1x4096.Idx → EReal) y := by
  show (V m c main_v12 : S1x4096.Idx → EReal) (((cfg0.win 5).blk t).view.emb y) = _
  congr 1; funext a; apply Fin.ext
  match a with
  | ⟨0, _⟩ =>
    show win0_5.index t (0 : Fin 2) * 1 + 1 * (y 0).val = (y 0).val
    rw [(idx_facts t).2.2.2.2.2.2.2.2.2.2.1]; omega
  | ⟨1, _⟩ =>
    show win0_5.index t (1 : Fin 2) * 4096 + 1 * (y 1).val = (y 1).val
    rw [(idx_facts t).2.2.2.2.2.2.2.2.2.2.2.1]; omega

/-- Window 6's block is the whole of its array at every point. -/
theorem iblk6_apply (t : Fin cfg0.N) (y : S1x3072.Idx) :
    (iblk m c 6 t : S1x3072.Idx → EReal) y = (V m c main_v13 : S1x3072.Idx → EReal) y := by
  show (V m c main_v13 : S1x3072.Idx → EReal) (((cfg0.win 6).blk t).view.emb y) = _
  congr 1; funext a; apply Fin.ext
  match a with
  | ⟨0, _⟩ =>
    show win0_6.index t (0 : Fin 2) * 1 + 1 * (y 0).val = (y 0).val
    rw [(idx_facts t).2.2.2.2.2.2.2.2.2.2.2.2.1]; omega
  | ⟨1, _⟩ =>
    show win0_6.index t (1 : Fin 2) * 3072 + 1 * (y 1).val = (y 1).val
    rw [(idx_facts t).2.2.2.2.2.2.2.2.2.2.2.2.2.1]; omega

/-- Window 7's block is the whole of its array at every point. -/
theorem iblk7_apply (t : Fin cfg0.N) (y : S1x3072.Idx) :
    (iblk m c 7 t : S1x3072.Idx → EReal) y = (V m c main_v14 : S1x3072.Idx → EReal) y := by
  show (V m c main_v14 : S1x3072.Idx → EReal) (((cfg0.win 7).blk t).view.emb y) = _
  congr 1; funext a; apply Fin.ext
  match a with
  | ⟨0, _⟩ =>
    show win0_7.index t (0 : Fin 2) * 1 + 1 * (y 0).val = (y 0).val
    rw [(idx_facts t).2.2.2.2.2.2.2.2.2.2.2.2.2.2.1]; omega
  | ⟨1, _⟩ =>
    show win0_7.index t (1 : Fin 2) * 3072 + 1 * (y 1).val = (y 1).val
    rw [(idx_facts t).2.2.2.2.2.2.2.2.2.2.2.2.2.2.2.1]; omega

/-- Window 8's block is the whole of its array at every point. -/
theorem iblk8_apply (t : Fin cfg0.N) (y : S1x3072.Idx) :
    (iblk m c 8 t : S1x3072.Idx → EReal) y = (V m c main_v15 : S1x3072.Idx → EReal) y := by
  show (V m c main_v15 : S1x3072.Idx → EReal) (((cfg0.win 8).blk t).view.emb y) = _
  congr 1; funext a; apply Fin.ext
  match a with
  | ⟨0, _⟩ =>
    show win0_8.index t (0 : Fin 2) * 1 + 1 * (y 0).val = (y 0).val
    rw [(idx_facts t).2.2.2.2.2.2.2.2.2.2.2.2.2.2.2.2.1]; omega
  | ⟨1, _⟩ =>
    show win0_8.index t (1 : Fin 2) * 3072 + 1 * (y 1).val = (y 1).val
    rw [(idx_facts t).2.2.2.2.2.2.2.2.2.2.2.2.2.2.2.2.2.1]; omega

/-- Window 9's block is the whole of its array at every point. -/
theorem iblk9_apply (t : Fin cfg0.N) (y : S1x3072.Idx) :
    (iblk m c 9 t : S1x3072.Idx → EReal) y = (V m c main_v16 : S1x3072.Idx → EReal) y := by
  show (V m c main_v16 : S1x3072.Idx → EReal) (((cfg0.win 9).blk t).view.emb y) = _
  congr 1; funext a; apply Fin.ext
  match a with
  | ⟨0, _⟩ =>
    show win0_9.index t (0 : Fin 2) * 1 + 1 * (y 0).val = (y 0).val
    rw [(idx_facts t).2.2.2.2.2.2.2.2.2.2.2.2.2.2.2.2.2.2.1]; omega
  | ⟨1, _⟩ =>
    show win0_9.index t (1 : Fin 2) * 3072 + 1 * (y 1).val = (y 1).val
    rw [(idx_facts t).2.2.2.2.2.2.2.2.2.2.2.2.2.2.2.2.2.2.2.1]; omega

/-- Window 10's block is the whole of its array at every point. -/
theorem iblk10_apply (t : Fin cfg0.N) (y : S1x1024.Idx) :
    (iblk m c 10 t : S1x1024.Idx → EReal) y = (V m c main_v17 : S1x1024.Idx → EReal) y := by
  show (V m c main_v17 : S1x1024.Idx → EReal) (((cfg0.win 10).blk t).view.emb y) = _
  congr 1; funext a; apply Fin.ext
  match a with
  | ⟨0, _⟩ =>
    show win0_10.index t (0 : Fin 2) * 1 + 1 * (y 0).val = (y 0).val
    rw [(idx_facts t).2.2.2.2.2.2.2.2.2.2.2.2.2.2.2.2.2.2.2.2.1]; omega
  | ⟨1, _⟩ =>
    show win0_10.index t (1 : Fin 2) * 1024 + 1 * (y 1).val = (y 1).val
    rw [(idx_facts t).2.2.2.2.2.2.2.2.2.2.2.2.2.2.2.2.2.2.2.2.2.1]; omega

/-- Window 11's block is the whole of its array at every point. -/
theorem iblk11_apply (t : Fin cfg0.N) (y : S1x1024.Idx) :
    (iblk m c 11 t : S1x1024.Idx → EReal) y = (V m c main_v18 : S1x1024.Idx → EReal) y := by
  show (V m c main_v18 : S1x1024.Idx → EReal) (((cfg0.win 11).blk t).view.emb y) = _
  congr 1; funext a; apply Fin.ext
  match a with
  | ⟨0, _⟩ =>
    show win0_11.index t (0 : Fin 2) * 1 + 1 * (y 0).val = (y 0).val
    rw [(idx_facts t).2.2.2.2.2.2.2.2.2.2.2.2.2.2.2.2.2.2.2.2.2.2.1]; omega
  | ⟨1, _⟩ =>
    show win0_11.index t (1 : Fin 2) * 1024 + 1 * (y 1).val = (y 1).val
    rw [(idx_facts t).2.2.2.2.2.2.2.2.2.2.2.2.2.2.2.2.2.2.2.2.2.2.2.1]; omega

/-- Window 12's block is the whole of its array at every point. -/
theorem iblk12_apply (t : Fin cfg0.N) (y : S1x1024.Idx) :
    (iblk m c 12 t : S1x1024.Idx → EReal) y = (V m c main_v19 : S1x1024.Idx → EReal) y := by
  show (V m c main_v19 : S1x1024.Idx → EReal) (((cfg0.win 12).blk t).view.emb y) = _
  congr 1; funext a; apply Fin.ext
  match a with
  | ⟨0, _⟩ =>
    show win0_12.index t (0 : Fin 2) * 1 + 1 * (y 0).val = (y 0).val
    rw [(idx_facts t).2.2.2.2.2.2.2.2.2.2.2.2.2.2.2.2.2.2.2.2.2.2.2.2.1]; omega
  | ⟨1, _⟩ =>
    show win0_12.index t (1 : Fin 2) * 1024 + 1 * (y 1).val = (y 1).val
    rw [(idx_facts t).2.2.2.2.2.2.2.2.2.2.2.2.2.2.2.2.2.2.2.2.2.2.2.2.2.1]; omega

/-- Window 13's block is the whole of its array at every point. -/
theorem iblk13_apply (t : Fin cfg0.N) (y : S1x1024.Idx) :
    (iblk m c 13 t : S1x1024.Idx → EReal) y = (V m c main_v20 : S1x1024.Idx → EReal) y := by
  show (V m c main_v20 : S1x1024.Idx → EReal) (((cfg0.win 13).blk t).view.emb y) = _
  congr 1; funext a; apply Fin.ext
  match a with
  | ⟨0, _⟩ =>
    show win0_13.index t (0 : Fin 2) * 1 + 1 * (y 0).val = (y 0).val
    rw [(idx_facts t).2.2.2.2.2.2.2.2.2.2.2.2.2.2.2.2.2.2.2.2.2.2.2.2.2.2.1]; omega
  | ⟨1, _⟩ =>
    show win0_13.index t (1 : Fin 2) * 1024 + 1 * (y 1).val = (y 1).val
    rw [(idx_facts t).2.2.2.2.2.2.2.2.2.2.2.2.2.2.2.2.2.2.2.2.2.2.2.2.2.2.2.1]; omega

/-- Window 14's block is the whole of its array at every point. -/
theorem iblk14_apply (t : Fin cfg0.N) (y : S1x1024.Idx) :
    (iblk m c 14 t : S1x1024.Idx → EReal) y = (V m c main_v21 : S1x1024.Idx → EReal) y := by
  show (V m c main_v21 : S1x1024.Idx → EReal) (((cfg0.win 14).blk t).view.emb y) = _
  congr 1; funext a; apply Fin.ext
  match a with
  | ⟨0, _⟩ =>
    show win0_14.index t (0 : Fin 2) * 1 + 1 * (y 0).val = (y 0).val
    rw [(idx_facts t).2.2.2.2.2.2.2.2.2.2.2.2.2.2.2.2.2.2.2.2.2.2.2.2.2.2.2.2.1]; omega
  | ⟨1, _⟩ =>
    show win0_14.index t (1 : Fin 2) * 1024 + 1 * (y 1).val = (y 1).val
    rw [(idx_facts t).2.2.2.2.2.2.2.2.2.2.2.2.2.2.2.2.2.2.2.2.2.2.2.2.2.2.2.2.2.1]; omega

/-- Window 15's block is the whole of its array at every point. -/
theorem iblk15_apply (t : Fin cfg0.N) (y : S1x1024.Idx) :
    (iblk m c 15 t : S1x1024.Idx → EReal) y = (V m c main_v22 : S1x1024.Idx → EReal) y := by
  show (V m c main_v22 : S1x1024.Idx → EReal) (((cfg0.win 15).blk t).view.emb y) = _
  congr 1; funext a; apply Fin.ext
  match a with
  | ⟨0, _⟩ =>
    show win0_15.index t (0 : Fin 2) * 1 + 1 * (y 0).val = (y 0).val
    rw [(idx_facts t).2.2.2.2.2.2.2.2.2.2.2.2.2.2.2.2.2.2.2.2.2.2.2.2.2.2.2.2.2.2.1]; omega
  | ⟨1, _⟩ =>
    show win0_15.index t (1 : Fin 2) * 1024 + 1 * (y 1).val = (y 1).val
    rw [(idx_facts t).2.2.2.2.2.2.2.2.2.2.2.2.2.2.2.2.2.2.2.2.2.2.2.2.2.2.2.2.2.2.2]; omega

/-! ## The blocks in the argument arrays -/

/-- At point t and row p the sixteen input blocks sit in the argument arrays as `BlocksOf` says, for row 128·t + p. -/
theorem blocksOf (m : (ℓ : Loc Cert.KernelIdeal.nD Cert.KernelIdeal.τ Cert.KernelIdeal.sig) → Buf (Elt Ideal) ℓ) (c : Dev Cert.KernelIdeal.nD) (t : Fin Cert.KernelIdeal.cfg0.N) (p : Fin 128) (hi : t.val * 128 + p.val < 16384) :
    Cert.LauSpec.BlocksOf (Cert.LauSpec.kArgs m c) ⟨t.val * 128 + p.val, hi⟩ p (Cert.KernelIdeal.HFrame.iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) where
  inp k := iblk0_apply m c t p k hi
  hid k := iblk1_apply m c t p k hi
  wx_ig k j := (iblk2_apply m c t _).trans (v4_ig m c k j)
  wx_ii k j := (iblk2_apply m c t _).trans (v4_ii m c k j)
  wx_ih k j := (iblk2_apply m c t _).trans (v4_ih m c k j)
  bx_ig j := (iblk3_apply m c t _).trans (v10_ig m c j)
  bx_ii j := (iblk3_apply m c t _).trans (v10_ii m c j)
  bx_ih j := (iblk3_apply m c t _).trans (v10_ih m c j)
  wh_hg k j := (iblk4_apply m c t _).trans (v8_hg m c k j)
  wh_hh k j := (iblk4_apply m c t _).trans (v8_hh m c k j)
  bh_hg j := (iblk5_apply m c t _).trans (v12_hg m c j)
  bh_hh j := (iblk5_apply m c t _).trans (v12_hh m c j)
  gig j := (iblk6_apply m c t _).trans (v13_row m c j)
  beig j := (iblk7_apply m c t _).trans (v14_row m c j)
  ghg j := (iblk8_apply m c t _).trans (v15_row m c j)
  behg j := (iblk9_apply m c t _).trans (v16_row m c j)
  gii j := (iblk10_apply m c t _).trans (v17_row m c j)
  beii j := (iblk11_apply m c t _).trans (v18_row m c j)
  gih j := (iblk12_apply m c t _).trans (v19_row m c j)
  beih j := (iblk13_apply m c t _).trans (v20_row m c j)
  ghh j := (iblk14_apply m c t _).trans (v21_row m c j)
  behh j := (iblk15_apply m c t _).trans (v22_row m c j)

end Cert.KernelIdeal.KHost

end
-- ==== Proof.KerValueLin.lean ====
/-
  The two fused linear layers of the body, read at an index.

  The body multiplies the 128 activation rows of its block by a weight matrix whose columns are the rows of
  several weight arrays set side by side, and adds the fused bias row. Entry (p, c) of the product is the sum
  over k of x(p, k) · w(k, c), plus the bias at column c. A column slice at offset o reads column o + c. With
  the blocks placed in the argument arrays as the block relation says, each slice is one linear layer of the
  specification: row i of the activations against row c of the weight array, plus its bias.
-/
import proofs.«124813_j51427938402962_2_alg».proof.Proof.Gen.KernelIdeal.Skeleton
import proofs.«124813_j51427938402962_2_alg».proof.Proof.KerBlocks
import proofs.«124813_j51427938402962_2_alg».proof.Proof.LibPlainDot
import Idealize.ShloMosaic.Lib.ValueLayout

noncomputable section

namespace Cert.KernelIdeal.KValue

open Cert.KernelIdeal Cert.KernelIdeal.Gen Cert.LauSpec
open Idealize.ShloMosaic Idealize.ShloMosaic.ValueIdx

/-- Both products contract the activations' columns with the weights' rows and have no batch axis. -/
theorem plain_x : PlainDot.Plain dot_S128x1024_S1024x5120_S128x5120_1_0_0_1_n_n := ⟨rfl, rfl, rfl, rfl, rfl, rfl⟩
theorem plain_h : PlainDot.Plain dot_S128x1024_S1024x4096_S128x4096_1_0_0_1_n_n := ⟨rfl, rfl, rfl, rfl, rfl, rfl⟩

/-- The input-side fused layer at (p, c): the row of x0 against column c of x2, plus the bias. -/
theorem pay1_apply (x0 : FVec Ideal S128x1024 .f32) (x2 : FVec Ideal S1024x5120 .bf16) (x3 : FVec Ideal S1x5120 .f32)
    (p : Fin 128) (c : Fin 5120) :
    k0_pay1 (F := Ideal) x0 x2 x3 (ix2 p c)
      = (∑ k : Fin 1024, x0 (ix2 p k) * x2 (ix2 k c)) + x3 (ix2 (0 : Fin 1) c) := by
  unfold k0_pay1
  simp only [addf_apply, shapeCast_self]
  refine congrArg₂ (· + ·) ?_ ?_
  · exact PlainDot.matmul_zero_apply _ plain_x rfl rfl none _ _ (ix2 p c)
  · exact broadcastTo_1b_ab_apply x3 _ p c

/-- The hidden-side fused layer at (p, c). -/
theorem pay2_apply (x1 : FVec Ideal S128x1024 .f32) (x4 : FVec Ideal S1024x4096 .bf16) (x5 : FVec Ideal S1x4096 .f32)
    (p : Fin 128) (c : Fin 4096) :
    k0_pay2 (F := Ideal) x1 x4 x5 (ix2 p c)
      = (∑ k : Fin 1024, x1 (ix2 p k) * x4 (ix2 k c)) + x5 (ix2 (0 : Fin 1) c) := by
  unfold k0_pay2
  simp only [addf_apply, shapeCast_self]
  refine congrArg₂ (· + ·) ?_ ?_
  · exact PlainDot.matmul_zero_apply _ plain_h rfl rfl none _ _ (ix2 p c)
  · exact broadcastTo_1b_ab_apply x5 _ p c

/-- Columns 0 … 3071 of the input-side layer. -/
theorem pay3_apply (x0 : FVec Ideal S128x1024 .f32) (x2 : FVec Ideal S1024x5120 .bf16) (x3 : FVec Ideal S1x5120 .f32)
    (p : Fin 128) (c : Fin 3072) :
    k0_pay3 (F := Ideal) x0 x2 x3 (ix2 p c) = k0_pay1 (F := Ideal) x0 x2 x3 (ix2 p (⟨c.val, by omega⟩ : Fin 5120)) := by
  unfold k0_pay3
  exact slice2_axis1_apply 0 _ slices_S128x5120_o0_0_S128x3072 p c _ (by show c.val = 0 + c.val; omega)

/-- Columns 3072 … 4095 of the input-side layer. -/
theorem pay4_apply (x0 : FVec Ideal S128x1024 .f32) (x2 : FVec Ideal S1024x5120 .bf16) (x3 : FVec Ideal S1x5120 .f32)
    (p : Fin 128) (c : Fin 1024) :
    k0_pay4 (F := Ideal) x0 x2 x3 (ix2 p c) = k0_pay1 (F := Ideal) x0 x2 x3 (ix2 p (⟨c.val + 3072, by omega⟩ : Fin 5120)) := by
  unfold k0_pay4
  exact slice2_axis1_apply 3072 _ slices_S128x5120_o0_3072_S128x1024 p c _ (by show c.val + 3072 = 3072 + c.val; omega)

/-- Columns 4096 … 5119 of the input-side layer. -/
theorem pay5_apply (x0 : FVec Ideal S128x1024 .f32) (x2 : FVec Ideal S1024x5120 .bf16) (x3 : FVec Ideal S1x5120 .f32)
    (p : Fin 128) (c : Fin 1024) :
    k0_pay5 (F := Ideal) x0 x2 x3 (ix2 p c) = k0_pay1 (F := Ideal) x0 x2 x3 (ix2 p (⟨c.val + 4096, by omega⟩ : Fin 5120)) := by
  unfold k0_pay5
  exact slice2_axis1_apply 4096 _ slices_S128x5120_o0_4096_S128x1024 p c _ (by show c.val + 4096 = 4096 + c.val; omega)

/-- Columns 0 … 3071 of the hidden-side layer. -/
theorem pay6_apply (x1 : FVec Ideal S128x1024 .f32) (x4 : FVec Ideal S1024x4096 .bf16) (x5 : FVec Ideal S1x4096 .f32)
    (p : Fin 128) (c : Fin 3072) :
    k0_pay6 (F := Ideal) x1 x4 x5 (ix2 p c) = k0_pay2 (F := Ideal) x1 x4 x5 (ix2 p (⟨c.val, by omega⟩ : Fin 4096)) := by
  unfold k0_pay6
  exact slice2_axis1_apply 0 _ slices_S128x4096_o0_0_S128x3072 p c _ (by show c.val = 0 + c.val; omega)

/-- Columns 3072 … 4095 of the hidden-side layer. -/
theorem pay7_apply (x1 : FVec Ideal S128x1024 .f32) (x4 : FVec Ideal S1024x4096 .bf16) (x5 : FVec Ideal S1x4096 .f32)
    (p : Fin 128) (c : Fin 1024) :
    k0_pay7 (F := Ideal) x1 x4 x5 (ix2 p c) = k0_pay2 (F := Ideal) x1 x4 x5 (ix2 p (⟨c.val + 3072, by omega⟩ : Fin 4096)) := by
  unfold k0_pay7
  exact slice2_axis1_apply 3072 _ slices_S128x4096_o0_3072_S128x1024 p c _ (by show c.val + 3072 = 3072 + c.val; omega)

section Spec
variable {A : Args} {i : Fin 16384} {p : Fin 128}
  {x0 x1 : Mat 128 1024} {x2 : Mat 1024 5120} {x3 : Mat 1 5120} {x4 : Mat 1024 4096} {x5 : Mat 1 4096}
  {x6 x7 x8 x9 : Mat 1 3072} {x10 x11 x12 x13 x14 x15 : Mat 1 1024}

/-- Row p of the first slice is the gate's input projection of row i. -/
theorem pay3_eq_lin (h : BlocksOf A i p x0 x1 x2 x3 x4 x5 x6 x7 x8 x9 x10 x11 x12 x13 x14 x15) (c : Fin 3072) :
    k0_pay3 (F := Ideal) x0 x2 x3 (ix2 p c) = lin A.inp A.Wig A.big i c := by
  rw [pay3_apply, pay1_apply]
  unfold lin
  rw [h.bx_ig c]
  exact congrArg (· + A.big (ix1 c)) (Finset.sum_congr rfl fun k _ => by rw [h.inp k, h.wx_ig k c])

/-- Row p of the second slice is the input-to-input projection of row i. -/
theorem pay4_eq_lin (h : BlocksOf A i p x0 x1 x2 x3 x4 x5 x6 x7 x8 x9 x10 x11 x12 x13 x14 x15) (c : Fin 1024) :
    k0_pay4 (F := Ideal) x0 x2 x3 (ix2 p c) = lin A.inp A.Wii A.bii i c := by
  rw [pay4_apply, pay1_apply]
  unfold lin
  rw [h.bx_ii c]
  exact congrArg (· + A.bii (ix1 c)) (Finset.sum_congr rfl fun k _ => by rw [h.inp k, h.wx_ii k c])

/-- Row p of the third slice is the input-to-hidden projection of row i. -/
theorem pay5_eq_lin (h : BlocksOf A i p x0 x1 x2 x3 x4 x5 x6 x7 x8 x9 x10 x11 x12 x13 x14 x15) (c : Fin 1024) :
    k0_pay5 (F := Ideal) x0 x2 x3 (ix2 p c) = lin A.inp A.Wih A.bih i c := by
  rw [pay5_apply, pay1_apply]
  unfold lin
  rw [h.bx_ih c]
  exact congrArg (· + A.bih (ix1 c)) (Finset.sum_congr rfl fun k _ => by rw [h.inp k, h.wx_ih k c])

/-- Row p of the hidden side's first slice is the gate's hidden projection of row i. -/
theorem pay6_eq_lin (h : BlocksOf A i p x0 x1 x2 x3 x4 x5 x6 x7 x8 x9 x10 x11 x12 x13 x14 x15) (c : Fin 3072) :
    k0_pay6 (F := Ideal) x1 x4 x5 (ix2 p c) = lin A.hid A.Whg A.bhg i c := by
  rw [pay6_apply, pay2_apply]
  unfold lin
  rw [h.bh_hg c]
  exact congrArg (· + A.bhg (ix1 c)) (Finset.sum_congr rfl fun k _ => by rw [h.hid k, h.wh_hg k c])

/-- Row p of the hidden side's second slice is the hidden-to-hidden projection of row i. -/
theorem pay7_eq_lin (h : BlocksOf A i p x0 x1 x2 x3 x4 x5 x6 x7 x8 x9 x10 x11 x12 x13 x14 x15) (c : Fin 1024) :
    k0_pay7 (F := Ideal) x1 x4 x5 (ix2 p c) = lin A.hid A.Whh A.bhh i c := by
  rw [pay7_apply, pay2_apply]
  unfold lin
  rw [h.bh_hh c]
  exact congrArg (· + A.bhh (ix1 c)) (Finset.sum_congr rfl fun k _ => by rw [h.hid k, h.wh_hh k c])

end Spec

end Cert.KernelIdeal.KValue

end
-- ==== Proof.LibRowLayout.lean ====
/-
  Layout operations of matrices read at an index `(p, k)`, in the forms a row-blocked matrix kernel needs: a column
  `[a, 1]` broadcast along its rows to `[a, b]` by a vector broadcast, a vector `[a]` cast to the column `[a, 1]`,
  and two matrices with the same rows set side by side along the column axis, read on the left part and on the right
  part. Each reads the operand at the evident index; stated over generic extents.
-/
import Idealize.ShloMosaic.Lib.Pipeline.Value
import Idealize.ShloMosaic.Lib.ValueIdx

noncomputable section

open Idealize.ShloMosaic Idealize.ShloMosaic.ValueIdx

namespace RowLayout

variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- `[x₁ | x₂]` read at a column of the left part is `x₁` there. -/
theorem concat_cols_left {a b₁ b₂ b : ℕ} (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (p : Fin a) (k : Fin b) (hk : k.val < b₁) :
    concatenate ⟨2, ![a, b]⟩ 1 [⟨⟨2, ![a, b₁]⟩, x₁⟩, ⟨⟨2, ![a, b₂]⟩, x₂⟩] h (ix2 p k) = x₁ (ix2 p ⟨k.val, hk⟩) :=
  concatenate_pair_apply_left 1 x₁ x₂ h (ix2 p k) rfl (ix2 p ⟨k.val, hk⟩) fun c => by
    match c with
    | ⟨0, _⟩ => rfl
    | ⟨1, _⟩ => rfl

/-- `[x₁ | x₂]` read at a column of the right part is `x₂` at that column less the left part's width. -/
theorem concat_cols_right {a b₁ b₂ b : ℕ} (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (p : Fin a) (k : Fin b) (hk : b₁ ≤ k.val)
    (hk₂ : k.val - b₁ < b₂) :
    concatenate ⟨2, ![a, b]⟩ 1 [⟨⟨2, ![a, b₁]⟩, x₁⟩, ⟨⟨2, ![a, b₂]⟩, x₂⟩] h (ix2 p k) = x₂ (ix2 p ⟨k.val - b₁, hk₂⟩) :=
  concatenate_pair_apply_right 1 x₁ x₂ h (ix2 p k) rfl rfl (ix2 p ⟨k.val - b₁, hk₂⟩)
    (fun c hc => by
      match c with
      | ⟨0, _⟩ => rfl
      | ⟨1, _⟩ => exact absurd rfl hc)
    (by show k.val - b₁ + b₁ = k.val; omega)

end RowLayout

end
-- ==== Proof.KerValueLn.lean ====
/-
  One layer normalisation of the body, read at an index.

  For a matrix v with 128 rows the body takes, per row p, the lane sum of the row and of its squares, divides
  each by the literal row length d, and forms
      (v(p, q) − m) · rsqrt ((s − m · m) + eps) · g(q) + be(q),     m = (Σ_k v(p, k)) / d,   s = (Σ_k v(p, k)²) / d,
  with the two statistics kept as one-column matrices and broadcast along the row. This is the specification's
  normalisation of the row over the one-pass variance, in the same order of operations.
-/
import proofs.«124813_j51427938402962_2_alg».proof.Proof.LauSpec
import proofs.«124813_j51427938402962_2_alg».proof.Proof.LibRowReduce
import proofs.«124813_j51427938402962_2_alg».proof.Proof.LibRowLayout
import Idealize.ShloMosaic.Lib.ValueLayout

noncomputable section

namespace Cert.KernelIdeal.KValue

open Cert.LauSpec
open Idealize.ShloMosaic Idealize.ShloMosaic.ValueIdx

/-- The reciprocal square root, the hyperbolic tangent and the logistic function of a vector act entry by entry. -/
theorem rsqrt_apply {s : Shape} {φ : FTy} (a : FVec Ideal s φ) (i : s.Idx) : rsqrt a i = Ideal.rsqrt (a i) := rfl
theorem tanh_apply {s : Shape} {φ : FTy} (a : FVec Ideal s φ) (i : s.Idx) : tanh a i = Ideal.tanh (a i) := rfl
theorem logistic_apply {s : Shape} {φ : FTy} (a : FVec Ideal s φ) (i : s.Idx) : logistic a i = Ideal.logistic (a i) := rfl

/-- The lane sum of a matrix kept as a column and divided by a literal: at row p, the mean of the row. -/
theorem meanCol_apply {b : ℕ} (v : FVec Ideal ⟨2, ![128, b]⟩ .f32)
    (hr : (⟨2, ![128, b]⟩ : Shape).Reduces [1] ⟨1, ![128]⟩) (hφ : FKind.Formats .f32)
    (hacc : (0x00000000#32 : BitVec (FTy.bits .f32)) = FKind.add.neutral .f32 hφ)
    (hsc : (⟨1, ![128]⟩ : Shape).ShapeCasts ⟨2, ![128, 1]⟩) (w : BitVec 32) (p : Fin 128) (u : Fin 1) :
    divf (shapeCast ⟨2, ![128, 1]⟩ (multiReduction .add [1] ⟨1, ![128]⟩ v 0x00000000#32 hr hφ hacc) hsc)
        (broadcast ⟨2, ![128, 1]⟩ (Scalar.ofBits (F := Ideal) .f32 w)) (ix2 p u)
      = mean (Ideal.ofBits .f32 w) (fun k => v (ix2 p k)) :=
  congrArg (fun t => Ideal.div t (Ideal.ofBits .f32 w))
    ((RowLayout.shapeCast_a_a1_apply _ hsc p u).trans (RowReduce.multiReduction_add_row v _ hr hφ hacc p))

/-- The normalisation's chain at (p, q) is the specification's normalisation, over the one-pass variance, of the
    row f that row p of the matrix holds, with the scale and shift rows read from G and BE. -/
theorem ln_apply {b : ℕ} (v : FVec Ideal ⟨2, ![128, b]⟩ .f32) (g be : FVec Ideal ⟨2, ![1, b]⟩ .f32)
    (hr : (⟨2, ![128, b]⟩ : Shape).Reduces [1] ⟨1, ![128]⟩) (hφ : FKind.Formats .f32)
    (hacc : (0x00000000#32 : BitVec (FTy.bits .f32)) = FKind.add.neutral .f32 hφ)
    (hsc : (⟨1, ![128]⟩ : Shape).ShapeCasts ⟨2, ![128, 1]⟩)
    (hb : (⟨2, ![128, 1]⟩ : Shape).Broadcasts ⟨2, ![128, b]⟩) (hg : (⟨2, ![1, b]⟩ : Shape).Broadcasts ⟨2, ![128, b]⟩)
    (w : BitVec 32) (G BE : Row b) (hG : ∀ j : Fin b, g (ix2 (0 : Fin 1) j) = G (ix1 j))
    (hBE : ∀ j : Fin b, be (ix2 (0 : Fin 1) j) = BE (ix1 j)) (p : Fin 128) (f : Fin b → EReal)
    (hv : ∀ k : Fin b, v (ix2 p k) = f k) (q : Fin b) :
    addf (mulf (mulf
          (subf v (broadcastTo ⟨2, ![128, b]⟩
            (divf (shapeCast ⟨2, ![128, 1]⟩ (multiReduction .add [1] ⟨1, ![128]⟩ v 0x00000000#32 hr hφ hacc) hsc)
              (broadcast ⟨2, ![128, 1]⟩ (Scalar.ofBits (F := Ideal) .f32 w))) hb))
          (broadcastTo ⟨2, ![128, b]⟩
            (rsqrt (addf
              (subf
                (divf (shapeCast ⟨2, ![128, 1]⟩ (multiReduction .add [1] ⟨1, ![128]⟩ (mulf v v) 0x00000000#32 hr hφ hacc) hsc)
                  (broadcast ⟨2, ![128, 1]⟩ (Scalar.ofBits (F := Ideal) .f32 w)))
                (mulf
                  (divf (shapeCast ⟨2, ![128, 1]⟩ (multiReduction .add [1] ⟨1, ![128]⟩ v 0x00000000#32 hr hφ hacc) hsc)
                    (broadcast ⟨2, ![128, 1]⟩ (Scalar.ofBits (F := Ideal) .f32 w)))
                  (divf (shapeCast ⟨2, ![128, 1]⟩ (multiReduction .add [1] ⟨1, ![128]⟩ v 0x00000000#32 hr hφ hacc) hsc)
                    (broadcast ⟨2, ![128, 1]⟩ (Scalar.ofBits (F := Ideal) .f32 w)))))
              (broadcast ⟨2, ![128, 1]⟩ (Scalar.ofBits (F := Ideal) .f32 0x3727C5AC#32)))) hb))
          (broadcastTo ⟨2, ![128, b]⟩ g hg))
        (broadcastTo ⟨2, ![128, b]⟩ be hg) (ix2 p q)
      = ln (fun {n} => var1 (n := n)) (Ideal.ofBits .f32 w) f G BE q := by
  obtain rfl : f = fun k => v (ix2 p k) := funext fun k => (hv k).symm
  simp only [addf_apply, mulf_apply, subf_apply, rsqrt_apply, broadcast_apply,
    RowLayout.broadcastTo_a1_ab_apply, broadcastTo_1b_ab_apply]
  rw [meanCol_apply v hr hφ hacc hsc w p, meanCol_apply (mulf v v) hr hφ hacc hsc w p, hG, hBE]
  rfl

end Cert.KernelIdeal.KValue

end
-- ==== Proof.KerValueGate.lean ====
/-
  The gate of the body, read at an index.

  The gate is the logistic function of the sum of two layer normalisations over 3072 columns: of the gate's
  input projection and of the gate's hidden projection. The first normalisation's row statistics (the mean,
  the mean of the squares and the squared mean) reach the gate as one-column matrices computed beforehand from
  the same projection; the second's are computed in place. Both are the specification's normalisation over the
  one-pass variance, so the gate at (p, c) is the logistic function of the specification's pre-gate at (i, c).
  The three column slices at offsets 0, 1024 and 2048 read the gate at columns q, q + 1024 and q + 2048.
-/
import proofs.«124813_j51427938402962_2_alg».proof.Proof.KerValueLin
import proofs.«124813_j51427938402962_2_alg».proof.Proof.KerValueLn

noncomputable section

namespace Cert.KernelIdeal.KValue

open Cert.KernelIdeal Cert.KernelIdeal.Gen Cert.LauSpec
open Idealize.ShloMosaic Idealize.ShloMosaic.ValueIdx

variable {A : Args} {i : Fin 16384} {p : Fin 128}
  {x0 x1 : Mat 128 1024} {x2 : Mat 1024 5120} {x3 : Mat 1 5120} {x4 : Mat 1024 4096} {x5 : Mat 1 4096}
  {x6 x7 x8 x9 : Mat 1 3072} {x10 x11 x12 x13 x14 x15 : Mat 1 1024}

/-- The gate before slicing, at (p, c): the logistic function of the pre-gate of row i at column c. -/
theorem pay13_eq (h : BlocksOf A i p x0 x1 x2 x3 x4 x5 x6 x7 x8 x9 x10 x11 x12 x13 x14 x15) (c : Fin 3072) :
    k0_pay13 (F := Ideal) (k0_pay3 x0 x2 x3) (k0_pay6 x1 x4 x5) (k0_pay8 x6) (k0_pay9 x7) (k0_pay10 x0 x2 x3)
        (k0_pay11 x0 x2 x3) (k0_pay12 x0 x2 x3) x8 x9 (ix2 p c)
      = Ideal.logistic (gatePre (fun {n} => var1 (n := n)) A i c) := by
  unfold k0_pay13 k0_pay12 k0_pay11 k0_pay10 k0_pay9 k0_pay8
  simp only [shapeCast_self]
  refine (logistic_apply _ _).trans (congrArg Ideal.logistic ((addf_apply _ _ _).trans (congrArg₂ (· + ·) ?_ ?_)))
  · exact ln_apply (k0_pay3 (F := Ideal) x0 x2 x3) x6 x7 _ _ _ _ _ _ 0x45400000#32 A.gig A.beig h.gig h.beig p _
      (pay3_eq_lin h) c
  · exact ln_apply (k0_pay6 (F := Ideal) x1 x4 x5) x8 x9 _ _ _ _ _ _ 0x45400000#32 A.ghg A.behg h.ghg h.behg p _
      (pay6_eq_lin h) c

/-- The first third of the gate. -/
theorem pay14_eq (h : BlocksOf A i p x0 x1 x2 x3 x4 x5 x6 x7 x8 x9 x10 x11 x12 x13 x14 x15) (q : Fin 1024) :
    k0_pay14 (F := Ideal) (k0_pay3 x0 x2 x3) (k0_pay6 x1 x4 x5) (k0_pay8 x6) (k0_pay9 x7) (k0_pay10 x0 x2 x3)
        (k0_pay11 x0 x2 x3) (k0_pay12 x0 x2 x3) x8 x9 (ix2 p q)
      = Ideal.logistic (gatePre (fun {n} => var1 (n := n)) A i ⟨q.val, by omega⟩) := by
  unfold k0_pay14
  exact (slice2_axis1_apply 0 _ slices_S128x3072_o0_0_S128x1024 p q (⟨q.val, by omega⟩ : Fin 3072)
    (by show q.val = 0 + q.val; omega)).trans (pay13_eq h _)

/-- The second third of the gate. -/
theorem pay15_eq (h : BlocksOf A i p x0 x1 x2 x3 x4 x5 x6 x7 x8 x9 x10 x11 x12 x13 x14 x15) (q : Fin 1024) :
    k0_pay15 (F := Ideal) (k0_pay3 x0 x2 x3) (k0_pay6 x1 x4 x5) (k0_pay8 x6) (k0_pay9 x7) (k0_pay10 x0 x2 x3)
        (k0_pay11 x0 x2 x3) (k0_pay12 x0 x2 x3) x8 x9 (ix2 p q)
      = Ideal.logistic (gatePre (fun {n} => var1 (n := n)) A i ⟨q.val + 1024, by omega⟩) := by
  unfold k0_pay15
  exact (slice2_axis1_apply 1024 _ slices_S128x3072_o0_1024_S128x1024 p q (⟨q.val + 1024, by omega⟩ : Fin 3072)
    (by show q.val + 1024 = 1024 + q.val; omega)).trans (pay13_eq h _)

/-- The last third of the gate. -/
theorem pay16_eq (h : BlocksOf A i p x0 x1 x2 x3 x4 x5 x6 x7 x8 x9 x10 x11 x12 x13 x14 x15) (q : Fin 1024) :
    k0_pay16 (F := Ideal) (k0_pay3 x0 x2 x3) (k0_pay6 x1 x4 x5) (k0_pay8 x6) (k0_pay9 x7) (k0_pay10 x0 x2 x3)
        (k0_pay11 x0 x2 x3) (k0_pay12 x0 x2 x3) x8 x9 (ix2 p q)
      = Ideal.logistic (gatePre (fun {n} => var1 (n := n)) A i ⟨q.val + 2048, by omega⟩) := by
  unfold k0_pay16
  exact (slice2_axis1_apply 2048 _ slices_S128x3072_o0_2048_S128x1024 p q (⟨q.val + 2048, by omega⟩ : Fin 3072)
    (by show q.val + 2048 = 2048 + q.val; omega)).trans (pay13_eq h _)

end Cert.KernelIdeal.KValue

end
-- ==== Proof.KerValueOut.lean ====
/-
  The value the body stores, read at an index.

  With r, z, g the three thirds of the gate, Hx the normalised input-to-input projection, xh and hh the normalised
  input-to-hidden and hidden-to-hidden projections and h the hidden state's row, the body stores
      ((1 − z) · h + z · tanh ((1 − r) · xh + r · hh)) · (1 − g) + g · Hx
  at (p, q), in this order of operations. Each normalisation is the specification's over the one-pass variance, so
  row p of the stored block is row i of the specification's cell.
-/
import proofs.«124813_j51427938402962_2_alg».proof.Proof.BodyKI
import proofs.«124813_j51427938402962_2_alg».proof.Proof.KerValueGate

noncomputable section

namespace Cert.KernelIdeal.KValue

open Cert.KernelIdeal Cert.KernelIdeal.Gen Cert.LauSpec
open Idealize.ShloMosaic Idealize.ShloMosaic.ValueIdx

variable {A : Args} {i : Fin 16384} {p : Fin 128}
  {x0 x1 : Mat 128 1024} {x2 : Mat 1024 5120} {x3 : Mat 1 5120} {x4 : Mat 1024 4096} {x5 : Mat 1 4096}
  {x6 x7 x8 x9 : Mat 1 3072} {x10 x11 x12 x13 x14 x15 : Mat 1 1024}

/-- The normalised input-to-input projection at (p, q). -/
theorem pay18_eq (h : BlocksOf A i p x0 x1 x2 x3 x4 x5 x6 x7 x8 x9 x10 x11 x12 x13 x14 x15) (q : Fin 1024) :
    k0_pay18 (F := Ideal) (k0_pay4 x0 x2 x3) (k0_pay17 x10) x11 (ix2 p q)
      = ln (fun {n} => var1 (n := n)) c1024 (lin A.inp A.Wii A.bii i) A.gii A.beii q := by
  unfold k0_pay18 k0_pay17
  simp only [shapeCast_self]
  exact ln_apply (k0_pay4 (F := Ideal) x0 x2 x3) x10 x11 _ _ _ _ _ _ 0x44800000#32 A.gii A.beii h.gii h.beii p _
    (pay4_eq_lin h) q

/-- The final blend at (p, q), over any three gate thirds and any fourth operand. -/
theorem pay22_eq (h : BlocksOf A i p x0 x1 x2 x3 x4 x5 x6 x7 x8 x9 x10 x11 x12 x13 x14 x15) (v77 v78 v79 v105 : FVec Ideal S128x1024 .f32) (q : Fin 1024) :
    k0_pay22 (F := Ideal) x1 (k0_pay7 x1 x4 x5) v77 v78 v79 v105 (k0_pay19 x13) (k0_pay20 (k0_pay5 x0 x2 x3))
        (k0_pay21 x12) x14 x15 (ix2 p q)
      = ((one - v78 (ix2 p q)) * A.hid (ix2 i q)
          + v78 (ix2 p q)
            * Ideal.tanh ((one - v77 (ix2 p q)) * ln (fun {n} => var1 (n := n)) c1024 (lin A.inp A.Wih A.bih i) A.gih A.beih q
                + v77 (ix2 p q) * ln (fun {n} => var1 (n := n)) c1024 (lin A.hid A.Whh A.bhh i) A.ghh A.behh q))
          * (one - v79 (ix2 p q))
        + v79 (ix2 p q) * v105 (ix2 p q) := by
  unfold k0_pay22 k0_pay21 k0_pay20 k0_pay19
  simp only [shapeCast_self]
  refine congrArg₂ (· + ·) (congrArg₂ (· * ·) (congrArg₂ (· + ·) (congrArg₂ (· * ·) rfl (h.hid q))
    (congrArg₂ (· * ·) rfl (congrArg Ideal.tanh (congrArg₂ (· + ·) (congrArg₂ (· * ·) rfl ?_) (congrArg₂ (· * ·) rfl ?_))))) rfl) rfl
  · exact ln_apply (k0_pay5 (F := Ideal) x0 x2 x3) x12 x13 _ _ _ _ _ _ 0x44800000#32 A.gih A.beih h.gih h.beih p _
      (pay5_eq_lin h) q
  · exact ln_apply (k0_pay7 (F := Ideal) x1 x4 x5) x14 x15 _ _ _ _ _ _ 0x44800000#32 A.ghh A.behh h.ghh h.behh p _
      (pay7_eq_lin h) q

/-- Row p of the stored block is row i of the cell, column by column. -/
theorem body_apply (A : Cert.LauSpec.Args) (i : Fin 16384) (p : Fin 128) (q : Fin 1024)
    (x0 x1 : Cert.LauSpec.Mat 128 1024) (x2 : Cert.LauSpec.Mat 1024 5120) (x3 : Cert.LauSpec.Mat 1 5120)
    (x4 : Cert.LauSpec.Mat 1024 4096) (x5 : Cert.LauSpec.Mat 1 4096)
    (x6 x7 x8 x9 : Cert.LauSpec.Mat 1 3072) (x10 x11 x12 x13 x14 x15 : Cert.LauSpec.Mat 1 1024)
    (h : Cert.LauSpec.BlocksOf A i p x0 x1 x2 x3 x4 x5 x6 x7 x8 x9 x10 x11 x12 x13 x14 x15) :
    Cert.KernelIdeal.HFrame.body (F := Ideal) x0 x1 x2 x3 x4 x5 x6 x7 x8 x9 x10 x11 x12 x13 x14 x15
        (Idealize.ShloMosaic.ValueIdx.ix2 p q)
      = Cert.LauSpec.out (fun {n} => Cert.LauSpec.var1 (n := n)) Ideal.logistic A i q := by
  unfold Cert.KernelIdeal.HFrame.body
  refine (pay22_eq h _ _ _ _ q).trans ?_
  rw [pay14_eq h q, pay15_eq h q, pay16_eq h q, pay18_eq h q]
  rfl

end Cert.KernelIdeal.KValue

end
-- ==== Proof.KerFinal.lean ====
/-
  From the blocks to the whole result array.

  Grid point t writes back rows 128·t … 128·t + 127 of the result. Row p of what it writes is the body's value on the
  point's input blocks, and those blocks are rows of the argument arrays (row p of an activation block is row
  128·t + p of the array; the parameter blocks are whole arrays laid out by the host operations), so the written row
  is row 128·t + p of the cell's function `Gkernel` of the arguments. The 128 blocks tile the 16384 rows: row r is in
  the block of point r / 128. Hence the array ends holding `Gkernel` of the arguments, and the arguments end as launched.
-/
import proofs.«124813_j51427938402962_2_alg».proof.Proof.FrameKI
import proofs.«124813_j51427938402962_2_alg».proof.Proof.LauArgs
import proofs.«124813_j51427938402962_2_alg».proof.Proof.KerBlocks
import proofs.«124813_j51427938402962_2_alg».proof.Proof.KerHost
import proofs.«124813_j51427938402962_2_alg».proof.Proof.KerValueOut
import Idealize.ShloMosaic.PureOps.Ideal
import Idealize.ShloMosaic.Lib.Pipeline.Value
import Idealize.ShloMosaic.Lib.ValueIdx

set_option maxRecDepth 16384

noncomputable section

namespace Cert.KernelIdeal.KFinal

open Cert.KernelIdeal Cert.KernelIdeal.Gen Cert.KernelIdeal.HFrame Cert.LauSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result window's block index at point t is (t, 0). -/
theorem idx16 : ∀ t : Fin cfg0.N, win0_16.index t (0 : Fin 2) = t.val ∧ win0_16.index t (1 : Fin 2) = 0 :=
  (by decide +kernel : ∀ t : Fin grid0.N, _)

theorem t_lt (t : Fin cfg0.N) : t.val < 128 := lt_of_lt_of_eq t.isLt N_0

/-- What point t writes back is block t of the cell's function of the arguments. -/
theorem flushed_eq (c : Dev nD) (t : Fin cfg0.N) :
    (dats m 0 c).flushed 16 t = ((cfg0.win 16).blk t).view.read (Elt Ideal) (Gkernel (kArgs m c)) := by
  show (cfg0.win 16).cut (grid0.coords t) ((dats m 0 c).after 16 t) = _
  rw [after0_16]
  unfold out0_16
  rw [View.canon_unit_zero hz]
  simp only [View.ld_unit_zero (S := S128x1024) hz, View.ld_unit_zero (S := S1024x5120) hz, View.ld_unit_zero (S := S1x5120) hz,
    View.ld_unit_zero (S := S1024x4096) hz, View.ld_unit_zero (S := S1x4096) hz, View.ld_unit_zero (S := S1x3072) hz,
    View.ld_unit_zero (S := S1x1024) hz]
  obtain ⟨e0, e1⟩ := idx16 t
  have ht := t_lt t
  funext j
  have hj0 : (j 0).val < 128 := (j 0).isLt
  have hj1 : (j 1).val < 1024 := (j 1).isLt
  have hi : t.val * 128 + (j 0).val < 16384 := by omega
  show body (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) j = Gkernel (kArgs m c) (((cfg0.win 16).blk t).view.emb j)
  have hj : j = ix2 (⟨(j 0).val, hj0⟩ : Fin 128) (⟨(j 1).val, hj1⟩ : Fin 1024) := by
    funext a; match a with | ⟨0, _⟩ => rfl | ⟨1, _⟩ => rfl
  have hemb : ((cfg0.win 16).blk t).view.emb j = ix2 (⟨t.val * 128 + (j 0).val, hi⟩ : Fin 16384) (⟨(j 1).val, hj1⟩ : Fin 1024) := by
    funext a; apply Fin.ext
    match a with
    | ⟨0, _⟩ => show win0_16.index t (0 : Fin 2) * 128 + 1 * (j 0).val = t.val * 128 + (j 0).val; omega
    | ⟨1, _⟩ => show win0_16.index t (1 : Fin 2) * 1024 + 1 * (j 1).val = (j 1).val; omega
  rw [hemb]
  refine (congrArg (body (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) hj).trans ?_
  exact Cert.KernelIdeal.KValue.body_apply (kArgs m c) ⟨t.val * 128 + (j 0).val, hi⟩ ⟨(j 0).val, hj0⟩ ⟨(j 1).val, hj1⟩ _ _ _ _ _ _ _ _ _ _ _ _ _ _ _ _
    (Cert.KernelIdeal.KHost.blocksOf m c t ⟨(j 0).val, hj0⟩ hi)

/-- An index of the result array is in point t's block iff its coordinates are in the block's ranges. -/
theorem mem_blk (t : Fin cfg0.N) (i : S16384x1024.Idx) :
    i ∈ ((cfg0.win 16).blk t).view.set ↔ ∀ a : Fin 2, win0_16.index t a * S128x1024.size a ≤ (i a).val ∧ (i a).val < win0_16.index t a * S128x1024.size a + S128x1024.size a := by
  show i ∈ ((View.whole main_v23).slice (win0_16.rect t)).set ↔ _
  rw [View.set_slice_whole, Rect.mem_set_unit]
  exact Iff.rfl

/-- Every row is in the block of the point r / 128. -/
theorem cover (i : S16384x1024.Idx) : ∃ t : Fin cfg0.N, (cfg0.win 16).flush t = true ∧ i ∈ ((cfg0.win 16).blk t).view.set := by
  have hi0 : (i 0).val < 16384 := (i 0).isLt
  have hi1 : (i 1).val < 1024 := (i 1).isLt
  let t : Fin cfg0.N := ⟨(i 0).val / 128, lt_of_lt_of_eq (by omega : (i 0).val / 128 < 128) N_0.symm⟩
  obtain ⟨e0, e1⟩ := idx16 t
  have et : t.val = (i 0).val / 128 := rfl
  refine ⟨t, flush0_16 t, ?_⟩
  rw [mem_blk]
  intro a
  match a with
  | ⟨0, _⟩ => show win0_16.index t (0 : Fin 2) * 128 ≤ (i 0).val ∧ (i 0).val < win0_16.index t (0 : Fin 2) * 128 + 128; omega
  | ⟨1, _⟩ => show win0_16.index t (1 : Fin 2) * 1024 ≤ (i 1).val ∧ (i 1).val < win0_16.index t (1 : Fin 2) * 1024 + 1024; omega

/-- The result array after the run. -/
theorem final (c : Dev nD) : (dats m 0 c).arrAt 16 cfg0.N = Gkernel (kArgs m c) :=
  (dats m 0 c).arrAt_eq_of_cover 16 (Gkernel (kArgs m c)) (fun t _ => flushed_eq m c t) cover

/-- The run: the result array at the cell's function of the arguments, the arguments as launched. -/
theorem run : θ_run (defs (F := Ideal)) (onTc (τ := τ) (main (F := Ideal))) ⟨m, fun _ => 0, ρ⟩ (fun r => ∀ c : Dev nD,
      r.2.mem ((c.tc : Thread nD τ).loc main_v23) = Gkernel (kArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨((h c).1 16).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c)⟩)
    (run_main m ρ)

end Cert.KernelIdeal.KFinal

end
-- ==== Proof.lean ====
/-
  The certificate of the gated recurrent cell (two fused linear layers, five layer normalisations, a logistic gate and a
  tanh) against its plain reference.

  The three frames: the kernel program — at the word level and idealized — is twenty-three host operations that lay the
  parameters out, then one region over 128 row blocks whose body loads its blocks whole and stores one block; the
  reference is a straight line of host operations. Nothing was rewritten by the idealization, so `preserves` is trivial.

  The equal results, at the ideal instance where a float is an extended real: the region writes row block t of the cell's
  function `Gkernel` of the argument arrays (the body's arithmetic read at an index, the host layout read at an index,
  the blocks tiling the rows), the reference's operations compose to `Greference` of them, and the two functions differ
  only in how a row's variance is taken — the mean of the squares minus the squared mean against the mean of the squared
  deviations — and in the logistic function being applied or spelt out. On rows of real numbers the two variances are one
  number; the precondition makes every argument entry real, hence every normalised row real. So the results are equal.
-/
import proofs.«124813_j51427938402962_2_alg».proof.Defs
import proofs.«124813_j51427938402962_2_alg».proof.Proof.LauAssemble
import proofs.«124813_j51427938402962_2_alg».proof.Proof.RefValue
import proofs.«124813_j51427938402962_2_alg».proof.Proof.KerFinal

noncomputable section

namespace Cert.Proof

theorem claim : Cert.Claim :=
  Cert.Proof.Lau.claim_of Cert.KernelIdeal.KFinal.run Cert.ReferenceIdeal.RefValue.run

end Cert.Proof

end
